-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v209)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v209) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x1024 : Shape := ⟨3, ![16, 512, 1024]⟩
abbrev S4096x1024 : Shape := ⟨2, ![4096, 1024]⟩
abbrev S5 : Shape := ⟨1, ![5]⟩
abbrev S4096 : Shape := ⟨1, ![4096]⟩
abbrev S_ : Shape := ⟨0, ![]⟩

class Facts : Prop where
  bcast_S_S16x512x1024 : S_.BroadcastsInDim S16x512x1024 (![] : Fin 0 → Fin S16x512x1024.rank)
  reducesTo_S16x512x1024_S_d0_1_2 : S16x512x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S5 : S_.BroadcastsInDim S5 (![] : Fin 0 → Fin S5.rank)
  reducesTo_S5_S_d0 : S5.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S16x512x1024 .f32) (main_arg1 : FVec F S4096x1024 .f32) (main_arg2 : FVec F S5 .f32) (main_arg3 : FVec F S4096 .f32) : IVec S_ 1 :=
  let main_v0 : FVec F S16x512x1024 .f32 := Host.absf main_arg0
  let main_cst : FVec F S_ .f32 := constant S_ .f32 0x7F800000#32
  let main_v1 : FVec F S16x512x1024 .f32 := broadcastInDim S16x512x1024 ![] bcast_S_S16x512x1024 main_cst
  let main_v2 : IVec S16x512x1024 1 := cmpf .olt main_v0 main_v1
  let main_c : IVec S_ 1 := constantI S_ 1 1#1
  let main_v3 : IVec S_ 1 := (fun x v => Host.reduce IntOp.andi x v reducesTo_S16x512x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S5 .f32 := Host.absf main_arg2
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S16x512x1024 : Shape := ⟨3, ![16, 512, 1024]⟩
abbrev S4096x1024 : Shape := ⟨2, ![4096, 1024]⟩
abbrev S5 : Shape := ⟨1, ![5]⟩
abbrev S4096 : Shape := ⟨1, ![4096]⟩
abbrev S_ : Shape := ⟨0, ![]⟩
abbrev S1 : Shape := ⟨1, ![1]⟩
abbrev S2048x2x512x2 : Shape := ⟨4, ![2048, 2, 512, 2]⟩
abbrev S2048x512x2x2 : Shape := ⟨4, ![2048, 512, 2, 2]⟩
abbrev S2 : Shape := ⟨1, ![2]⟩
abbrev S2x1 : Shape := ⟨2, ![2, 1]⟩
abbrev S1x2 : Shape := ⟨2, ![1, 2]⟩
abbrev S2x2 : Shape := ⟨2, ![2, 2]⟩
abbrev S2x2x1 : Shape := ⟨3, ![2, 2, 1]⟩
abbrev S2x2x2 : Shape := ⟨3, ![2, 2, 2]⟩
abbrev S2048x512x2 : Shape := ⟨3, ![2048, 512, 2]⟩
abbrev S1024x4x256x4 : Shape := ⟨4, ![1024, 4, 256, 4]⟩
abbrev S1024x256x4x4 : Shape := ⟨4, ![1024, 256, 4, 4]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S4x4x1 : Shape := ⟨3, ![4, 4, 1]⟩
abbrev S4x4x2 : Shape := ⟨3, ![4, 4, 2]⟩
abbrev S1024x256x4 : Shape := ⟨3, ![1024, 256, 4]⟩
abbrev S512x8x128x8 : Shape := ⟨4, ![512, 8, 128, 8]⟩
abbrev S512x128x8x8 : Shape := ⟨4, ![512, 128, 8, 8]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S8x8x1 : Shape := ⟨3, ![8, 8, 1]⟩
abbrev S8x8x2 : Shape := ⟨3, ![8, 8, 2]⟩
abbrev S512x128x8 : Shape := ⟨3, ![512, 128, 8]⟩
abbrev S256x16x64x16 : Shape := ⟨4, ![256, 16, 64, 16]⟩
abbrev S256x64x16x16 : Shape := ⟨4, ![256, 64, 16, 16]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S16x16x1 : Shape := ⟨3, ![16, 16, 1]⟩
abbrev S16x16x2 : Shape := ⟨3, ![16, 16, 2]⟩
abbrev S256x64x16 : Shape := ⟨3, ![256, 64, 16]⟩
abbrev S8192x1024 : Shape := ⟨2, ![8192, 1024]⟩
abbrev S1x4096 : Shape := ⟨2, ![1, 4096]⟩
abbrev S8192x4096 : Shape := ⟨2, ![8192, 4096]⟩
abbrev S512x1024 : Shape := ⟨2, ![512, 1024]⟩
abbrev S1024x1024 : Shape := ⟨2, ![1024, 1024]⟩
abbrev S1x1024 : Shape := ⟨2, ![1, 1024]⟩
abbrev S16x512x4096 : Shape := ⟨3, ![16, 512, 4096]⟩

abbrev nBuf : Space → Nat
  | .hbm => 417
  | .vmem => 8
  | .smem => 0
  | _ => 0

abbrev hbmTy0_0 (i : Nat) : BufTy := match i % 128 with
  | 0 => ⟨S16x512x1024, .f32⟩
  | 1 => ⟨S4096x1024, .f32⟩
  | 2 => ⟨S5, .f32⟩
  | 3 => ⟨S4096, .f32⟩
  | 4 => ⟨S_, .f32⟩
  | 5 => ⟨S_, .f32⟩
  | 6 => ⟨S_, .f32⟩
  | 7 => ⟨S_, .f32⟩
  | 8 => ⟨S1, .f32⟩
  | 9 => ⟨S5, .f32⟩
  | 10 => ⟨S5, .f32⟩
  | 11 => ⟨S5, .f32⟩
  | 12 => ⟨S_, .f32⟩
  | 13 => ⟨S_, .f32⟩
  | 14 => ⟨S1, .f32⟩
  | 15 => ⟨S5, .f32⟩
  | 16 => ⟨S5, .f32⟩
  | 17 => ⟨S1, .f32⟩
  | 18 => ⟨S_, .f32⟩
  | 19 => ⟨S4096x1024, .f32⟩
  | 20 => ⟨S4096x1024, .f32⟩
  | 21 => ⟨S1, .f32⟩
  | 22 => ⟨S_, .f32⟩
  | 23 => ⟨S2048x2x512x2, .f32⟩
  | 24 => ⟨S2048x512x2x2, .f32⟩
  | 25 => ⟨S2, .i32⟩
  | 26 => ⟨S2x1, .i32⟩
  | 27 => ⟨S2x1, .i32⟩
  | 28 => ⟨S1x2, .i32⟩
  | 29 => ⟨S2x2, .i32⟩
  | 30 => ⟨S2x2, .i32⟩
  | 31 => ⟨S2x2, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S2x2, .i32⟩
  | 39 => ⟨S2x2, .i32⟩
  | 40 => ⟨S_, .i32⟩
  | 41 => ⟨S2x2, .i32⟩
  | 42 => ⟨S2x2, .i1⟩
  | 43 => ⟨S_, .i32⟩
  | 44 => ⟨S2x2, .i32⟩
  | 45 => ⟨S2x2, .i1⟩
  | 46 => ⟨S_, .i32⟩
  | 47 => ⟨S_, .i1⟩
  | 48 => ⟨S2x2, .i1⟩
  | 49 => ⟨S2x2, .i1⟩
  | 50 => ⟨S2x2, .i1⟩
  | 51 => ⟨S2x2, .i32⟩
  | 52 => ⟨S2x2, .i32⟩
  | 53 => ⟨S2x2, .i32⟩
  | 54 => ⟨S_, .i32⟩
  | 55 => ⟨S2x1, .i32⟩
  | 56 => ⟨S2x1, .i1⟩
  | 57 => ⟨S_, .i32⟩
  | 58 => ⟨S2x1, .i32⟩
  | 59 => ⟨S2x1, .i32⟩
  | 60 => ⟨S2x1, .i32⟩
  | 61 => ⟨S_, .i32⟩
  | 62 => ⟨S2x2, .i32⟩
  | 63 => ⟨S2x2, .i1⟩
  | 64 => ⟨S_, .i32⟩
  | 65 => ⟨S2x2, .i32⟩
  | 66 => ⟨S2x2, .i32⟩
  | 67 => ⟨S2x2, .i32⟩
  | 68 => ⟨S2x2, .i32⟩
  | 69 => ⟨S2x2x1, .i32⟩
  | 70 => ⟨S2x2x1, .i32⟩
  | 71 => ⟨S2x2x2, .i32⟩
  | 72 => ⟨S2048x512x2x2, .f32⟩
  | 73 => ⟨S_, .f32⟩
  | 74 => ⟨S2048x512x2, .f32⟩
  | 75 => ⟨S_, .f32⟩
  | 76 => ⟨S2048x512x2, .f32⟩
  | 77 => ⟨S2048x512x2, .f32⟩
  | 78 => ⟨S2x1, .i32⟩
  | 79 => ⟨S1x2, .i32⟩
  | 80 => ⟨S2x2, .i32⟩
  | 81 => ⟨S2x2, .i32⟩
  | 82 => ⟨S2x2, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S2x2, .i32⟩
  | 90 => ⟨S2x2, .i32⟩
  | 91 => ⟨S_, .i32⟩
  | 92 => ⟨S2x2, .i32⟩
  | 93 => ⟨S2x2, .i1⟩
  | 94 => ⟨S_, .i32⟩
  | 95 => ⟨S2x2, .i32⟩
  | 96 => ⟨S2x2, .i1⟩
  | 97 => ⟨S_, .i32⟩
  | 98 => ⟨S_, .i1⟩
  | 99 => ⟨S2x2, .i1⟩
  | 100 => ⟨S2x2, .i1⟩
  | 101 => ⟨S2x2, .i1⟩
  | 102 => ⟨S2x2, .i32⟩
  | 103 => ⟨S2x2, .i32⟩
  | 104 => ⟨S2x2, .i32⟩
  | 105 => ⟨S_, .i32⟩
  | 106 => ⟨S2x2, .i32⟩
  | 107 => ⟨S2x2, .i1⟩
  | 108 => ⟨S_, .i32⟩
  | 109 => ⟨S2x2, .i32⟩
  | 110 => ⟨S2x2, .i32⟩
  | 111 => ⟨S2x2, .i32⟩
  | 112 => ⟨S2x2x1, .i32⟩
  | 113 => ⟨S2048x512x2x2, .f32⟩
  | 114 => ⟨S2048x2x512x2, .f32⟩
  | 115 => ⟨S4096x1024, .f32⟩
  | 116 => ⟨S4096x1024, .f32⟩
  | 117 => ⟨S4096x1024, .f32⟩
  | 118 => ⟨S4096x1024, .f32⟩
  | 119 => ⟨S1, .f32⟩
  | 120 => ⟨S_, .f32⟩
  | 121 => ⟨S1024x4x256x4, .f32⟩
  | 122 => ⟨S1024x256x4x4, .f32⟩
  | 123 => ⟨S4, .i32⟩
  | 124 => ⟨S4x1, .i32⟩
  | 125 => ⟨S4x1, .i32⟩
  | 126 => ⟨S1x4, .i32⟩
  | 127 => ⟨S4x4, .i32⟩
  | _ => ⟨S16x512x1024, .f32⟩

abbrev hbmTy0_1 (i : Nat) : BufTy := match i % 128 with
  | 0 => ⟨S4x4, .i32⟩
  | 1 => ⟨S4x4, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S4x4, .i32⟩
  | 9 => ⟨S4x4, .i32⟩
  | 10 => ⟨S_, .i32⟩
  | 11 => ⟨S4x4, .i32⟩
  | 12 => ⟨S4x4, .i1⟩
  | 13 => ⟨S_, .i32⟩
  | 14 => ⟨S4x4, .i32⟩
  | 15 => ⟨S4x4, .i1⟩
  | 16 => ⟨S_, .i32⟩
  | 17 => ⟨S_, .i1⟩
  | 18 => ⟨S4x4, .i1⟩
  | 19 => ⟨S4x4, .i1⟩
  | 20 => ⟨S4x4, .i1⟩
  | 21 => ⟨S4x4, .i32⟩
  | 22 => ⟨S4x4, .i32⟩
  | 23 => ⟨S4x4, .i32⟩
  | 24 => ⟨S_, .i32⟩
  | 25 => ⟨S4x1, .i32⟩
  | 26 => ⟨S4x1, .i1⟩
  | 27 => ⟨S_, .i32⟩
  | 28 => ⟨S4x1, .i32⟩
  | 29 => ⟨S4x1, .i32⟩
  | 30 => ⟨S4x1, .i32⟩
  | 31 => ⟨S_, .i32⟩
  | 32 => ⟨S4x4, .i32⟩
  | 33 => ⟨S4x4, .i1⟩
  | 34 => ⟨S_, .i32⟩
  | 35 => ⟨S4x4, .i32⟩
  | 36 => ⟨S4x4, .i32⟩
  | 37 => ⟨S4x4, .i32⟩
  | 38 => ⟨S4x4, .i32⟩
  | 39 => ⟨S4x4x1, .i32⟩
  | 40 => ⟨S4x4x1, .i32⟩
  | 41 => ⟨S4x4x2, .i32⟩
  | 42 => ⟨S1024x256x4x4, .f32⟩
  | 43 => ⟨S_, .f32⟩
  | 44 => ⟨S1024x256x4, .f32⟩
  | 45 => ⟨S_, .f32⟩
  | 46 => ⟨S1024x256x4, .f32⟩
  | 47 => ⟨S1024x256x4, .f32⟩
  | 48 => ⟨S4x1, .i32⟩
  | 49 => ⟨S1x4, .i32⟩
  | 50 => ⟨S4x4, .i32⟩
  | 51 => ⟨S4x4, .i32⟩
  | 52 => ⟨S4x4, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S4x4, .i32⟩
  | 60 => ⟨S4x4, .i32⟩
  | 61 => ⟨S_, .i32⟩
  | 62 => ⟨S4x4, .i32⟩
  | 63 => ⟨S4x4, .i1⟩
  | 64 => ⟨S_, .i32⟩
  | 65 => ⟨S4x4, .i32⟩
  | 66 => ⟨S4x4, .i1⟩
  | 67 => ⟨S_, .i32⟩
  | 68 => ⟨S_, .i1⟩
  | 69 => ⟨S4x4, .i1⟩
  | 70 => ⟨S4x4, .i1⟩
  | 71 => ⟨S4x4, .i1⟩
  | 72 => ⟨S4x4, .i32⟩
  | 73 => ⟨S4x4, .i32⟩
  | 74 => ⟨S4x4, .i32⟩
  | 75 => ⟨S_, .i32⟩
  | 76 => ⟨S4x4, .i32⟩
  | 77 => ⟨S4x4, .i1⟩
  | 78 => ⟨S_, .i32⟩
  | 79 => ⟨S4x4, .i32⟩
  | 80 => ⟨S4x4, .i32⟩
  | 81 => ⟨S4x4, .i32⟩
  | 82 => ⟨S4x4x1, .i32⟩
  | 83 => ⟨S1024x256x4x4, .f32⟩
  | 84 => ⟨S1024x4x256x4, .f32⟩
  | 85 => ⟨S4096x1024, .f32⟩
  | 86 => ⟨S4096x1024, .f32⟩
  | 87 => ⟨S4096x1024, .f32⟩
  | 88 => ⟨S4096x1024, .f32⟩
  | 89 => ⟨S1, .f32⟩
  | 90 => ⟨S_, .f32⟩
  | 91 => ⟨S512x8x128x8, .f32⟩
  | 92 => ⟨S512x128x8x8, .f32⟩
  | 93 => ⟨S8, .i32⟩
  | 94 => ⟨S8x1, .i32⟩
  | 95 => ⟨S8x1, .i32⟩
  | 96 => ⟨S1x8, .i32⟩
  | 97 => ⟨S8x8, .i32⟩
  | 98 => ⟨S8x8, .i32⟩
  | 99 => ⟨S8x8, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S8x8, .i32⟩
  | 107 => ⟨S8x8, .i32⟩
  | 108 => ⟨S_, .i32⟩
  | 109 => ⟨S8x8, .i32⟩
  | 110 => ⟨S8x8, .i1⟩
  | 111 => ⟨S_, .i32⟩
  | 112 => ⟨S8x8, .i32⟩
  | 113 => ⟨S8x8, .i1⟩
  | 114 => ⟨S_, .i32⟩
  | 115 => ⟨S_, .i1⟩
  | 116 => ⟨S8x8, .i1⟩
  | 117 => ⟨S8x8, .i1⟩
  | 118 => ⟨S8x8, .i1⟩
  | 119 => ⟨S8x8, .i32⟩
  | 120 => ⟨S8x8, .i32⟩
  | 121 => ⟨S8x8, .i32⟩
  | 122 => ⟨S_, .i32⟩
  | 123 => ⟨S8x1, .i32⟩
  | 124 => ⟨S8x1, .i1⟩
  | 125 => ⟨S_, .i32⟩
  | 126 => ⟨S8x1, .i32⟩
  | 127 => ⟨S8x1, .i32⟩
  | _ => ⟨S16x512x1024, .f32⟩

abbrev hbmTy0_2 (i : Nat) : BufTy := match i % 128 with
  | 0 => ⟨S8x1, .i32⟩
  | 1 => ⟨S_, .i32⟩
  | 2 => ⟨S8x8, .i32⟩
  | 3 => ⟨S8x8, .i1⟩
  | 4 => ⟨S_, .i32⟩
  | 5 => ⟨S8x8, .i32⟩
  | 6 => ⟨S8x8, .i32⟩
  | 7 => ⟨S8x8, .i32⟩
  | 8 => ⟨S8x8, .i32⟩
  | 9 => ⟨S8x8x1, .i32⟩
  | 10 => ⟨S8x8x1, .i32⟩
  | 11 => ⟨S8x8x2, .i32⟩
  | 12 => ⟨S512x128x8x8, .f32⟩
  | 13 => ⟨S_, .f32⟩
  | 14 => ⟨S512x128x8, .f32⟩
  | 15 => ⟨S_, .f32⟩
  | 16 => ⟨S512x128x8, .f32⟩
  | 17 => ⟨S512x128x8, .f32⟩
  | 18 => ⟨S8x1, .i32⟩
  | 19 => ⟨S1x8, .i32⟩
  | 20 => ⟨S8x8, .i32⟩
  | 21 => ⟨S8x8, .i32⟩
  | 22 => ⟨S8x8, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S8x8, .i32⟩
  | 30 => ⟨S8x8, .i32⟩
  | 31 => ⟨S_, .i32⟩
  | 32 => ⟨S8x8, .i32⟩
  | 33 => ⟨S8x8, .i1⟩
  | 34 => ⟨S_, .i32⟩
  | 35 => ⟨S8x8, .i32⟩
  | 36 => ⟨S8x8, .i1⟩
  | 37 => ⟨S_, .i32⟩
  | 38 => ⟨S_, .i1⟩
  | 39 => ⟨S8x8, .i1⟩
  | 40 => ⟨S8x8, .i1⟩
  | 41 => ⟨S8x8, .i1⟩
  | 42 => ⟨S8x8, .i32⟩
  | 43 => ⟨S8x8, .i32⟩
  | 44 => ⟨S8x8, .i32⟩
  | 45 => ⟨S_, .i32⟩
  | 46 => ⟨S8x8, .i32⟩
  | 47 => ⟨S8x8, .i1⟩
  | 48 => ⟨S_, .i32⟩
  | 49 => ⟨S8x8, .i32⟩
  | 50 => ⟨S8x8, .i32⟩
  | 51 => ⟨S8x8, .i32⟩
  | 52 => ⟨S8x8x1, .i32⟩
  | 53 => ⟨S512x128x8x8, .f32⟩
  | 54 => ⟨S512x8x128x8, .f32⟩
  | 55 => ⟨S4096x1024, .f32⟩
  | 56 => ⟨S4096x1024, .f32⟩
  | 57 => ⟨S4096x1024, .f32⟩
  | 58 => ⟨S4096x1024, .f32⟩
  | 59 => ⟨S1, .f32⟩
  | 60 => ⟨S_, .f32⟩
  | 61 => ⟨S256x16x64x16, .f32⟩
  | 62 => ⟨S256x64x16x16, .f32⟩
  | 63 => ⟨S16, .i32⟩
  | 64 => ⟨S16x1, .i32⟩
  | 65 => ⟨S16x1, .i32⟩
  | 66 => ⟨S1x16, .i32⟩
  | 67 => ⟨S16x16, .i32⟩
  | 68 => ⟨S16x16, .i32⟩
  | 69 => ⟨S16x16, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S16x16, .i32⟩
  | 77 => ⟨S16x16, .i32⟩
  | 78 => ⟨S_, .i32⟩
  | 79 => ⟨S16x16, .i32⟩
  | 80 => ⟨S16x16, .i1⟩
  | 81 => ⟨S_, .i32⟩
  | 82 => ⟨S16x16, .i32⟩
  | 83 => ⟨S16x16, .i1⟩
  | 84 => ⟨S_, .i32⟩
  | 85 => ⟨S_, .i1⟩
  | 86 => ⟨S16x16, .i1⟩
  | 87 => ⟨S16x16, .i1⟩
  | 88 => ⟨S16x16, .i1⟩
  | 89 => ⟨S16x16, .i32⟩
  | 90 => ⟨S16x16, .i32⟩
  | 91 => ⟨S16x16, .i32⟩
  | 92 => ⟨S_, .i32⟩
  | 93 => ⟨S16x1, .i32⟩
  | 94 => ⟨S16x1, .i1⟩
  | 95 => ⟨S_, .i32⟩
  | 96 => ⟨S16x1, .i32⟩
  | 97 => ⟨S16x1, .i32⟩
  | 98 => ⟨S16x1, .i32⟩
  | 99 => ⟨S_, .i32⟩
  | 100 => ⟨S16x16, .i32⟩
  | 101 => ⟨S16x16, .i1⟩
  | 102 => ⟨S_, .i32⟩
  | 103 => ⟨S16x16, .i32⟩
  | 104 => ⟨S16x16, .i32⟩
  | 105 => ⟨S16x16, .i32⟩
  | 106 => ⟨S16x16, .i32⟩
  | 107 => ⟨S16x16x1, .i32⟩
  | 108 => ⟨S16x16x1, .i32⟩
  | 109 => ⟨S16x16x2, .i32⟩
  | 110 => ⟨S256x64x16x16, .f32⟩
  | 111 => ⟨S_, .f32⟩
  | 112 => ⟨S256x64x16, .f32⟩
  | 113 => ⟨S_, .f32⟩
  | 114 => ⟨S256x64x16, .f32⟩
  | 115 => ⟨S256x64x16, .f32⟩
  | 116 => ⟨S16x1, .i32⟩
  | 117 => ⟨S1x16, .i32⟩
  | 118 => ⟨S16x16, .i32⟩
  | 119 => ⟨S16x16, .i32⟩
  | 120 => ⟨S16x16, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S16x16, .i32⟩
  | _ => ⟨S16x512x1024, .f32⟩

abbrev hbmTy0_3 (i : Nat) : BufTy := match i % 128 with
  | 0 => ⟨S16x16, .i32⟩
  | 1 => ⟨S_, .i32⟩
  | 2 => ⟨S16x16, .i32⟩
  | 3 => ⟨S16x16, .i1⟩
  | 4 => ⟨S_, .i32⟩
  | 5 => ⟨S16x16, .i32⟩
  | 6 => ⟨S16x16, .i1⟩
  | 7 => ⟨S_, .i32⟩
  | 8 => ⟨S_, .i1⟩
  | 9 => ⟨S16x16, .i1⟩
  | 10 => ⟨S16x16, .i1⟩
  | 11 => ⟨S16x16, .i1⟩
  | 12 => ⟨S16x16, .i32⟩
  | 13 => ⟨S16x16, .i32⟩
  | 14 => ⟨S16x16, .i32⟩
  | 15 => ⟨S_, .i32⟩
  | 16 => ⟨S16x16, .i32⟩
  | 17 => ⟨S16x16, .i1⟩
  | 18 => ⟨S_, .i32⟩
  | 19 => ⟨S16x16, .i32⟩
  | 20 => ⟨S16x16, .i32⟩
  | 21 => ⟨S16x16, .i32⟩
  | 22 => ⟨S16x16x1, .i32⟩
  | 23 => ⟨S256x64x16x16, .f32⟩
  | 24 => ⟨S256x16x64x16, .f32⟩
  | 25 => ⟨S4096x1024, .f32⟩
  | 26 => ⟨S4096x1024, .f32⟩
  | 27 => ⟨S4096x1024, .f32⟩
  | 28 => ⟨S4096x1024, .f32⟩
  | 29 => ⟨S8192x1024, .f32⟩
  | 30 => ⟨S1x4096, .f32⟩
  | 31 => ⟨S8192x4096, .f32⟩
  | 32 => ⟨S16x512x4096, .f32⟩
  | _ => ⟨S16x512x1024, .f32⟩

abbrev hbmTy (i : Nat) : BufTy := match i / 128 with
  | 0 => hbmTy0_0 i
  | 1 => hbmTy0_1 i
  | 2 => hbmTy0_2 i
  | 3 => hbmTy0_3 i
  | _ => ⟨S16x512x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_1 : Ref sig .tc := ⟨.hbm, 40, rfl⟩
abbrev main_call0_v5 : Ref sig .tc := ⟨.hbm, 41, rfl⟩
abbrev main_call0_v6 : Ref sig .tc := ⟨.hbm, 42, rfl⟩
abbrev main_call0_c_2 : Ref sig .tc := ⟨.hbm, 43, rfl⟩
abbrev main_call0_v7 : Ref sig .tc := ⟨.hbm, 44, rfl⟩
abbrev main_call0_v8 : Ref sig .tc := ⟨.hbm, 45, rfl⟩
abbrev main_call0_c_3 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_v25 : Ref sig .tc := ⟨.hbm, 53, rfl⟩
abbrev main_c_2 : Ref sig .tc := ⟨.hbm, 54, rfl⟩
abbrev main_v26 : Ref sig .tc := ⟨.hbm, 55, rfl⟩
abbrev main_v27 : Ref sig .tc := ⟨.hbm, 56, rfl⟩
abbrev main_c_3 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_4 : Ref sig .tc := ⟨.hbm, 61, rfl⟩
abbrev main_v31 : Ref sig .tc := ⟨.hbm, 62, rfl⟩
abbrev main_v32 : Ref sig .tc := ⟨.hbm, 63, rfl⟩
abbrev main_c_5 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_6 : Ref sig .tc := ⟨.hbm, 73, rfl⟩
abbrev main_v41 : Ref sig .tc := ⟨.hbm, 74, rfl⟩
abbrev main_cst_7 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_8 : Ref sig .tc := ⟨.hbm, 83, rfl⟩
abbrev main_call1_v0 : Ref sig .tc := ⟨.hbm, 84, rfl⟩
abbrev main_call1_c : Ref sig .tc := ⟨.hbm, 85, rfl⟩
abbrev main_call1_v1 : Ref sig .tc := ⟨.hbm, 86, rfl⟩
abbrev main_call1_c_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_c_1 : Ref sig .tc := ⟨.hbm, 91, rfl⟩
abbrev main_call1_v5 : Ref sig .tc := ⟨.hbm, 92, rfl⟩
abbrev main_call1_v6 : Ref sig .tc := ⟨.hbm, 93, rfl⟩
abbrev main_call1_c_2 : Ref sig .tc := ⟨.hbm, 94, rfl⟩
abbrev main_call1_v7 : Ref sig .tc := ⟨.hbm, 95, rfl⟩
abbrev main_call1_v8 : Ref sig .tc := ⟨.hbm, 96, rfl⟩
abbrev main_call1_c_3 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_v12 : Ref sig .tc := ⟨.hbm, 101, rfl⟩
abbrev main_call1_v13 : Ref sig .tc := ⟨.hbm, 102, rfl⟩
abbrev main_call1_v14 : Ref sig .tc := ⟨.hbm, 103, rfl⟩
abbrev main_v49 : Ref sig .tc := ⟨.hbm, 104, rfl⟩
abbrev main_c_9 : Ref sig .tc := ⟨.hbm, 105, rfl⟩
abbrev main_v50 : Ref sig .tc := ⟨.hbm, 106, rfl⟩
abbrev main_v51 : Ref sig .tc := ⟨.hbm, 107, rfl⟩
abbrev main_c_10 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_c_11 : Ref sig .tc := ⟨.hbm, 130, rfl⟩
abbrev main_call2_v0 : Ref sig .tc := ⟨.hbm, 131, rfl⟩
abbrev main_call2_c : Ref sig .tc := ⟨.hbm, 132, rfl⟩
abbrev main_call2_v1 : Ref sig .tc := ⟨.hbm, 133, rfl⟩
abbrev main_call2_c_0 : Ref sig .tc := ⟨.hbm, 134, rfl⟩
abbrev main_call2_v2 : Ref sig .tc := ⟨.hbm, 135, rfl⟩
abbrev main_call2_v3 : Ref sig .tc := ⟨.hbm, 136, rfl⟩
abbrev main_call2_v4 : Ref sig .tc := ⟨.hbm, 137, rfl⟩
abbrev main_call2_c_1 : Ref sig .tc := ⟨.hbm, 138, rfl⟩
abbrev main_call2_v5 : Ref sig .tc := ⟨.hbm, 139, rfl⟩
abbrev main_call2_v6 : Ref sig .tc := ⟨.hbm, 140, rfl⟩
abbrev main_call2_c_2 : Ref sig .tc := ⟨.hbm, 141, rfl⟩
abbrev main_call2_v7 : Ref sig .tc := ⟨.hbm, 142, rfl⟩
abbrev main_call2_v8 : Ref sig .tc := ⟨.hbm, 143, rfl⟩
abbrev main_call2_c_3 : Ref sig .tc := ⟨.hbm, 144, rfl⟩
abbrev main_call2_v9 : Ref sig .tc := ⟨.hbm, 145, rfl⟩
abbrev main_call2_v10 : Ref sig .tc := ⟨.hbm, 146, rfl⟩
abbrev main_call2_v11 : Ref sig .tc := ⟨.hbm, 147, rfl⟩
abbrev main_call2_v12 : Ref sig .tc := ⟨.hbm, 148, rfl⟩
abbrev main_call2_v13 : Ref sig .tc := ⟨.hbm, 149, rfl⟩
abbrev main_call2_v14 : Ref sig .tc := ⟨.hbm, 150, rfl⟩
abbrev main_v73 : Ref sig .tc := ⟨.hbm, 151, rfl⟩
abbrev main_c_12 : Ref sig .tc := ⟨.hbm, 152, rfl⟩
abbrev main_v74 : Ref sig .tc := ⟨.hbm, 153, rfl⟩
abbrev main_v75 : Ref sig .tc := ⟨.hbm, 154, rfl⟩
abbrev main_c_13 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_c_14 : Ref sig .tc := ⟨.hbm, 159, rfl⟩
abbrev main_v79 : Ref sig .tc := ⟨.hbm, 160, rfl⟩
abbrev main_v80 : Ref sig .tc := ⟨.hbm, 161, rfl⟩
abbrev main_c_15 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_cst_16 : Ref sig .tc := ⟨.hbm, 171, rfl⟩
abbrev main_v89 : Ref sig .tc := ⟨.hbm, 172, rfl⟩
abbrev main_cst_17 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_c_18 : Ref sig .tc := ⟨.hbm, 181, rfl⟩
abbrev main_call3_v0 : Ref sig .tc := ⟨.hbm, 182, rfl⟩
abbrev main_call3_c : Ref sig .tc := ⟨.hbm, 183, rfl⟩
abbrev main_call3_v1 : Ref sig .tc := ⟨.hbm, 184, rfl⟩
abbrev main_call3_c_0 : Ref sig .tc := ⟨.hbm, 185, rfl⟩
abbrev main_call3_v2 : Ref sig .tc := ⟨.hbm, 186, rfl⟩
abbrev main_call3_v3 : Ref sig .tc := ⟨.hbm, 187, rfl⟩
abbrev main_call3_v4 : Ref sig .tc := ⟨.hbm, 188, rfl⟩
abbrev main_call3_c_1 : Ref sig .tc := ⟨.hbm, 189, rfl⟩
abbrev main_call3_v5 : Ref sig .tc := ⟨.hbm, 190, rfl⟩
abbrev main_call3_v6 : Ref sig .tc := ⟨.hbm, 191, rfl⟩
abbrev main_call3_c_2 : Ref sig .tc := ⟨.hbm, 192, rfl⟩
abbrev main_call3_v7 : Ref sig .tc := ⟨.hbm, 193, rfl⟩
abbrev main_call3_v8 : Ref sig .tc := ⟨.hbm, 194, rfl⟩
abbrev main_call3_c_3 : Ref sig .tc := ⟨.hbm, 195, rfl⟩
abbrev main_call3_v9 : Ref sig .tc := ⟨.hbm, 196, rfl⟩
abbrev main_call3_v10 : Ref sig .tc := ⟨.hbm, 197, rfl⟩
abbrev main_call3_v11 : Ref sig .tc := ⟨.hbm, 198, rfl⟩
abbrev main_call3_v12 : Ref sig .tc := ⟨.hbm, 199, rfl⟩
abbrev main_call3_v13 : Ref sig .tc := ⟨.hbm, 200, rfl⟩
abbrev main_call3_v14 : Ref sig .tc := ⟨.hbm, 201, rfl⟩
abbrev main_v97 : Ref sig .tc := ⟨.hbm, 202, rfl⟩
abbrev main_c_19 : Ref sig .tc := ⟨.hbm, 203, rfl⟩
abbrev main_v98 : Ref sig .tc := ⟨.hbm, 204, rfl⟩
abbrev main_v99 : Ref sig .tc := ⟨.hbm, 205, rfl⟩
abbrev main_c_20 : Ref sig .tc := ⟨.hbm, 206, rfl⟩
abbrev main_v100 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_v104 : Ref sig .tc := ⟨.hbm, 211, rfl⟩
abbrev main_v105 : Ref sig .tc := ⟨.hbm, 212, rfl⟩
abbrev main_v106 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_v110 : Ref sig .tc := ⟨.hbm, 217, rfl⟩
abbrev main_v111 : Ref sig .tc := ⟨.hbm, 218, rfl⟩
abbrev main_v112 : Ref sig .tc := ⟨.hbm, 219, rfl⟩
abbrev main_v113 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_v119 : Ref sig .tc := ⟨.hbm, 226, rfl⟩
abbrev main_v120 : Ref sig .tc := ⟨.hbm, 227, rfl⟩
abbrev main_c_21 : Ref sig .tc := ⟨.hbm, 228, rfl⟩
abbrev main_call4_v0 : Ref sig .tc := ⟨.hbm, 229, rfl⟩
abbrev main_call4_c : Ref sig .tc := ⟨.hbm, 230, rfl⟩
abbrev main_call4_v1 : Ref sig .tc := ⟨.hbm, 231, rfl⟩
abbrev main_call4_c_0 : Ref sig .tc := ⟨.hbm, 232, rfl⟩
abbrev main_call4_v2 : Ref sig .tc := ⟨.hbm, 233, rfl⟩
abbrev main_call4_v3 : Ref sig .tc := ⟨.hbm, 234, rfl⟩
abbrev main_call4_v4 : Ref sig .tc := ⟨.hbm, 235, rfl⟩
abbrev main_call4_c_1 : Ref sig .tc := ⟨.hbm, 236, rfl⟩
abbrev main_call4_v5 : Ref sig .tc := ⟨.hbm, 237, rfl⟩
abbrev main_call4_v6 : Ref sig .tc := ⟨.hbm, 238, rfl⟩
abbrev main_call4_c_2 : Ref sig .tc := ⟨.hbm, 239, rfl⟩
abbrev main_call4_v7 : Ref sig .tc := ⟨.hbm, 240, rfl⟩
abbrev main_call4_v8 : Ref sig .tc := ⟨.hbm, 241, rfl⟩
abbrev main_call4_c_3 : Ref sig .tc := ⟨.hbm, 242, rfl⟩
abbrev main_call4_v9 : Ref sig .tc := ⟨.hbm, 243, rfl⟩
abbrev main_call4_v10 : Ref sig .tc := ⟨.hbm, 244, rfl⟩
abbrev main_call4_v11 : Ref sig .tc := ⟨.hbm, 245, rfl⟩
abbrev main_call4_v12 : Ref sig .tc := ⟨.hbm, 246, rfl⟩
abbrev main_call4_v13 : Ref sig .tc := ⟨.hbm, 247, rfl⟩
abbrev main_call4_v14 : Ref sig .tc := ⟨.hbm, 248, rfl⟩
abbrev main_v121 : Ref sig .tc := ⟨.hbm, 249, rfl⟩
abbrev main_c_22 : Ref sig .tc := ⟨.hbm, 250, rfl⟩
abbrev main_v122 : Ref sig .tc := ⟨.hbm, 251, rfl⟩
abbrev main_v123 : Ref sig .tc := ⟨.hbm, 252, rfl⟩
abbrev main_c_23 : Ref sig .tc := ⟨.hbm, 253, rfl⟩
abbrev main_v124 : Ref sig .tc := ⟨.hbm, 254, rfl⟩
abbrev main_v125 : Ref sig .tc := ⟨.hbm, 255, rfl⟩
abbrev main_v126 : Ref sig .tc := ⟨.hbm, 256, rfl⟩
abbrev main_c_24 : Ref sig .tc := ⟨.hbm, 257, rfl⟩
abbrev main_v127 : Ref sig .tc := ⟨.hbm, 258, rfl⟩
abbrev main_v128 : Ref sig .tc := ⟨.hbm, 259, rfl⟩
abbrev main_c_25 : Ref sig .tc := ⟨.hbm, 260, rfl⟩
abbrev main_v129 : Ref sig .tc := ⟨.hbm, 261, rfl⟩
abbrev main_v130 : Ref sig .tc := ⟨.hbm, 262, rfl⟩
abbrev main_v131 : Ref sig .tc := ⟨.hbm, 263, rfl⟩
abbrev main_v132 : Ref sig .tc := ⟨.hbm, 264, rfl⟩
abbrev main_v133 : Ref sig .tc := ⟨.hbm, 265, rfl⟩
abbrev main_v134 : Ref sig .tc := ⟨.hbm, 266, rfl⟩
abbrev main_v135 : Ref sig .tc := ⟨.hbm, 267, rfl⟩
abbrev main_v136 : Ref sig .tc := ⟨.hbm, 268, rfl⟩
abbrev main_cst_26 : Ref sig .tc := ⟨.hbm, 269, rfl⟩
abbrev main_v137 : Ref sig .tc := ⟨.hbm, 270, rfl⟩
abbrev main_cst_27 : Ref sig .tc := ⟨.hbm, 271, rfl⟩
abbrev main_v138 : Ref sig .tc := ⟨.hbm, 272, rfl⟩
abbrev main_v139 : Ref sig .tc := ⟨.hbm, 273, rfl⟩
abbrev main_v140 : Ref sig .tc := ⟨.hbm, 274, rfl⟩
abbrev main_v141 : Ref sig .tc := ⟨.hbm, 275, rfl⟩
abbrev main_v142 : Ref sig .tc := ⟨.hbm, 276, rfl⟩
abbrev main_v143 : Ref sig .tc := ⟨.hbm, 277, rfl⟩
abbrev main_v144 : Ref sig .tc := ⟨.hbm, 278, rfl⟩
abbrev main_c_28 : Ref sig .tc := ⟨.hbm, 279, rfl⟩
abbrev main_call5_v0 : Ref sig .tc := ⟨.hbm, 280, rfl⟩
abbrev main_call5_c : Ref sig .tc := ⟨.hbm, 281, rfl⟩
abbrev main_call5_v1 : Ref sig .tc := ⟨.hbm, 282, rfl⟩
abbrev main_call5_c_0 : Ref sig .tc := ⟨.hbm, 283, rfl⟩
abbrev main_call5_v2 : Ref sig .tc := ⟨.hbm, 284, rfl⟩
abbrev main_call5_v3 : Ref sig .tc := ⟨.hbm, 285, rfl⟩
abbrev main_call5_v4 : Ref sig .tc := ⟨.hbm, 286, rfl⟩
abbrev main_call5_c_1 : Ref sig .tc := ⟨.hbm, 287, rfl⟩
abbrev main_call5_v5 : Ref sig .tc := ⟨.hbm, 288, rfl⟩
abbrev main_call5_v6 : Ref sig .tc := ⟨.hbm, 289, rfl⟩
abbrev main_call5_c_2 : Ref sig .tc := ⟨.hbm, 290, rfl⟩
abbrev main_call5_v7 : Ref sig .tc := ⟨.hbm, 291, rfl⟩
abbrev main_call5_v8 : Ref sig .tc := ⟨.hbm, 292, rfl⟩
abbrev main_call5_c_3 : Ref sig .tc := ⟨.hbm, 293, rfl⟩
abbrev main_call5_v9 : Ref sig .tc := ⟨.hbm, 294, rfl⟩
abbrev main_call5_v10 : Ref sig .tc := ⟨.hbm, 295, rfl⟩
abbrev main_call5_v11 : Ref sig .tc := ⟨.hbm, 296, rfl⟩
abbrev main_call5_v12 : Ref sig .tc := ⟨.hbm, 297, rfl⟩
abbrev main_call5_v13 : Ref sig .tc := ⟨.hbm, 298, rfl⟩
abbrev main_call5_v14 : Ref sig .tc := ⟨.hbm, 299, rfl⟩
abbrev main_v145 : Ref sig .tc := ⟨.hbm, 300, rfl⟩
abbrev main_c_29 : Ref sig .tc := ⟨.hbm, 301, rfl⟩
abbrev main_v146 : Ref sig .tc := ⟨.hbm, 302, rfl⟩
abbrev main_v147 : Ref sig .tc := ⟨.hbm, 303, rfl⟩
abbrev main_c_30 : Ref sig .tc := ⟨.hbm, 304, rfl⟩
abbrev main_v148 : Ref sig .tc := ⟨.hbm, 305, rfl⟩
abbrev main_v149 : Ref sig .tc := ⟨.hbm, 306, rfl⟩
abbrev main_v150 : Ref sig .tc := ⟨.hbm, 307, rfl⟩
abbrev main_v151 : Ref sig .tc := ⟨.hbm, 308, rfl⟩
abbrev main_v152 : Ref sig .tc := ⟨.hbm, 309, rfl⟩
abbrev main_v153 : Ref sig .tc := ⟨.hbm, 310, rfl⟩
abbrev main_v154 : Ref sig .tc := ⟨.hbm, 311, rfl⟩
abbrev main_v155 : Ref sig .tc := ⟨.hbm, 312, rfl⟩
abbrev main_v156 : Ref sig .tc := ⟨.hbm, 313, rfl⟩
abbrev main_v157 : Ref sig .tc := ⟨.hbm, 314, rfl⟩
abbrev main_v158 : Ref sig .tc := ⟨.hbm, 315, rfl⟩
abbrev main_v159 : Ref sig .tc := ⟨.hbm, 316, rfl⟩
abbrev main_v160 : Ref sig .tc := ⟨.hbm, 317, rfl⟩
abbrev main_v161 : Ref sig .tc := ⟨.hbm, 318, rfl⟩
abbrev main_v162 : Ref sig .tc := ⟨.hbm, 319, rfl⟩
abbrev main_v163 : Ref sig .tc := ⟨.hbm, 320, rfl⟩
abbrev main_v164 : Ref sig .tc := ⟨.hbm, 321, rfl⟩
abbrev main_v165 : Ref sig .tc := ⟨.hbm, 322, rfl⟩
abbrev main_v166 : Ref sig .tc := ⟨.hbm, 323, rfl⟩
abbrev main_v167 : Ref sig .tc := ⟨.hbm, 324, rfl⟩
abbrev main_v168 : Ref sig .tc := ⟨.hbm, 325, rfl⟩
abbrev main_c_31 : Ref sig .tc := ⟨.hbm, 326, rfl⟩
abbrev main_call6_v0 : Ref sig .tc := ⟨.hbm, 327, rfl⟩
abbrev main_call6_c : Ref sig .tc := ⟨.hbm, 328, rfl⟩
abbrev main_call6_v1 : Ref sig .tc := ⟨.hbm, 329, rfl⟩
abbrev main_call6_c_0 : Ref sig .tc := ⟨.hbm, 330, rfl⟩
abbrev main_call6_v2 : Ref sig .tc := ⟨.hbm, 331, rfl⟩
abbrev main_call6_v3 : Ref sig .tc := ⟨.hbm, 332, rfl⟩
abbrev main_call6_v4 : Ref sig .tc := ⟨.hbm, 333, rfl⟩
abbrev main_call6_c_1 : Ref sig .tc := ⟨.hbm, 334, rfl⟩
abbrev main_call6_v5 : Ref sig .tc := ⟨.hbm, 335, rfl⟩
abbrev main_call6_v6 : Ref sig .tc := ⟨.hbm, 336, rfl⟩
abbrev main_call6_c_2 : Ref sig .tc := ⟨.hbm, 337, rfl⟩
abbrev main_call6_v7 : Ref sig .tc := ⟨.hbm, 338, rfl⟩
abbrev main_call6_v8 : Ref sig .tc := ⟨.hbm, 339, rfl⟩
abbrev main_call6_c_3 : Ref sig .tc := ⟨.hbm, 340, rfl⟩
abbrev main_call6_v9 : Ref sig .tc := ⟨.hbm, 341, rfl⟩
abbrev main_call6_v10 : Ref sig .tc := ⟨.hbm, 342, rfl⟩
abbrev main_call6_v11 : Ref sig .tc := ⟨.hbm, 343, rfl⟩
abbrev main_call6_v12 : Ref sig .tc := ⟨.hbm, 344, rfl⟩
abbrev main_call6_v13 : Ref sig .tc := ⟨.hbm, 345, rfl⟩
abbrev main_call6_v14 : Ref sig .tc := ⟨.hbm, 346, rfl⟩
abbrev main_v169 : Ref sig .tc := ⟨.hbm, 347, rfl⟩
abbrev main_c_32 : Ref sig .tc := ⟨.hbm, 348, rfl⟩
abbrev main_v170 : Ref sig .tc := ⟨.hbm, 349, rfl⟩
abbrev main_v171 : Ref sig .tc := ⟨.hbm, 350, rfl⟩
abbrev main_c_33 : Ref sig .tc := ⟨.hbm, 351, rfl⟩
abbrev main_v172 : Ref sig .tc := ⟨.hbm, 352, rfl⟩
abbrev main_v173 : Ref sig .tc := ⟨.hbm, 353, rfl⟩
abbrev main_v174 : Ref sig .tc := ⟨.hbm, 354, rfl⟩
abbrev main_c_34 : Ref sig .tc := ⟨.hbm, 355, rfl⟩
abbrev main_v175 : Ref sig .tc := ⟨.hbm, 356, rfl⟩
abbrev main_v176 : Ref sig .tc := ⟨.hbm, 357, rfl⟩
abbrev main_c_35 : Ref sig .tc := ⟨.hbm, 358, rfl⟩
abbrev main_v177 : Ref sig .tc := ⟨.hbm, 359, rfl⟩
abbrev main_v178 : Ref sig .tc := ⟨.hbm, 360, rfl⟩
abbrev main_v179 : Ref sig .tc := ⟨.hbm, 361, rfl⟩
abbrev main_v180 : Ref sig .tc := ⟨.hbm, 362, rfl⟩
abbrev main_v181 : Ref sig .tc := ⟨.hbm, 363, rfl⟩
abbrev main_v182 : Ref sig .tc := ⟨.hbm, 364, rfl⟩
abbrev main_v183 : Ref sig .tc := ⟨.hbm, 365, rfl⟩
abbrev main_v184 : Ref sig .tc := ⟨.hbm, 366, rfl⟩
abbrev main_cst_36 : Ref sig .tc := ⟨.hbm, 367, rfl⟩
abbrev main_v185 : Ref sig .tc := ⟨.hbm, 368, rfl⟩
abbrev main_cst_37 : Ref sig .tc := ⟨.hbm, 369, rfl⟩
abbrev main_v186 : Ref sig .tc := ⟨.hbm, 370, rfl⟩
abbrev main_v187 : Ref sig .tc := ⟨.hbm, 371, rfl⟩
abbrev main_v188 : Ref sig .tc := ⟨.hbm, 372, rfl⟩
abbrev main_v189 : Ref sig .tc := ⟨.hbm, 373, rfl⟩
abbrev main_v190 : Ref sig .tc := ⟨.hbm, 374, rfl⟩
abbrev main_v191 : Ref sig .tc := ⟨.hbm, 375, rfl⟩
abbrev main_v192 : Ref sig .tc := ⟨.hbm, 376, rfl⟩
abbrev main_c_38 : Ref sig .tc := ⟨.hbm, 377, rfl⟩
abbrev main_call7_v0 : Ref sig .tc := ⟨.hbm, 378, rfl⟩
abbrev main_call7_c : Ref sig .tc := ⟨.hbm, 379, rfl⟩
abbrev main_call7_v1 : Ref sig .tc := ⟨.hbm, 380, rfl⟩
abbrev main_call7_c_0 : Ref sig .tc := ⟨.hbm, 381, rfl⟩
abbrev main_call7_v2 : Ref sig .tc := ⟨.hbm, 382, rfl⟩
abbrev main_call7_v3 : Ref sig .tc := ⟨.hbm, 383, rfl⟩
abbrev main_call7_v4 : Ref sig .tc := ⟨.hbm, 384, rfl⟩
abbrev main_call7_c_1 : Ref sig .tc := ⟨.hbm, 385, rfl⟩
abbrev main_call7_v5 : Ref sig .tc := ⟨.hbm, 386, rfl⟩
abbrev main_call7_v6 : Ref sig .tc := ⟨.hbm, 387, rfl⟩
abbrev main_call7_c_2 : Ref sig .tc := ⟨.hbm, 388, rfl⟩
abbrev main_call7_v7 : Ref sig .tc := ⟨.hbm, 389, rfl⟩
abbrev main_call7_v8 : Ref sig .tc := ⟨.hbm, 390, rfl⟩
abbrev main_call7_c_3 : Ref sig .tc := ⟨.hbm, 391, rfl⟩
abbrev main_call7_v9 : Ref sig .tc := ⟨.hbm, 392, rfl⟩
abbrev main_call7_v10 : Ref sig .tc := ⟨.hbm, 393, rfl⟩
abbrev main_call7_v11 : Ref sig .tc := ⟨.hbm, 394, rfl⟩
abbrev main_call7_v12 : Ref sig .tc := ⟨.hbm, 395, rfl⟩
abbrev main_call7_v13 : Ref sig .tc := ⟨.hbm, 396, rfl⟩
abbrev main_call7_v14 : Ref sig .tc := ⟨.hbm, 397, rfl⟩
abbrev main_v193 : Ref sig .tc := ⟨.hbm, 398, rfl⟩
abbrev main_c_39 : Ref sig .tc := ⟨.hbm, 399, rfl⟩
abbrev main_v194 : Ref sig .tc := ⟨.hbm, 400, rfl⟩
abbrev main_v195 : Ref sig .tc := ⟨.hbm, 401, rfl⟩
abbrev main_c_40 : Ref sig .tc := ⟨.hbm, 402, rfl⟩
abbrev main_v196 : Ref sig .tc := ⟨.hbm, 403, rfl⟩
abbrev main_v197 : Ref sig .tc := ⟨.hbm, 404, rfl⟩
abbrev main_v198 : Ref sig .tc := ⟨.hbm, 405, rfl⟩
abbrev main_v199 : Ref sig .tc := ⟨.hbm, 406, rfl⟩
abbrev main_v200 : Ref sig .tc := ⟨.hbm, 407, rfl⟩
abbrev main_v201 : Ref sig .tc := ⟨.hbm, 408, rfl⟩
abbrev main_v202 : Ref sig .tc := ⟨.hbm, 409, rfl⟩
abbrev main_v203 : Ref sig .tc := ⟨.hbm, 410, rfl⟩
abbrev main_v204 : Ref sig .tc := ⟨.hbm, 411, rfl⟩
abbrev main_v205 : Ref sig .tc := ⟨.hbm, 412, rfl⟩
abbrev main_v206 : Ref sig .tc := ⟨.hbm, 413, rfl⟩
abbrev main_v207 : Ref sig .tc := ⟨.hbm, 414, rfl⟩
abbrev main_v208 : Ref sig .tc := ⟨.hbm, 415, rfl⟩
abbrev main_v209 : Ref sig .tc := ⟨.hbm, 416, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S5_S_d0 : S5.ReducesTo [0] S_
  h_S_ : 0 < S_.numel
  bcast_S_S1 : S_.BroadcastsInDim S1 (![] : Fin 0 → Fin S1.rank)
  bcast_S1_S5_0 : S1.BroadcastsInDim S5 (![0] : Fin 1 → Fin S5.rank)
  slices_S5_S1_0 : S5.Slices ![0] S1
  shapeCasts_S1_S_ : S1.ShapeCasts S_
  bcast_S_S4096x1024 : S_.BroadcastsInDim S4096x1024 (![] : Fin 0 → Fin S4096x1024.rank)
  slices_S5_S1_1 : S5.Slices ![1] S1
  shapeCasts_S4096x1024_S2048x2x512x2 : S4096x1024.ShapeCasts S2048x2x512x2
  transposes_S2048x2x512x2_S2048x512x2x2_0_2_1_3 : S2048x2x512x2.Transposes [0, 2, 1, 3] S2048x512x2x2
  bcast_S2_S2x1_0 : S2.BroadcastsInDim S2x1 (![0] : Fin 1 → Fin S2x1.rank)
  bcast_S2_S1x2_1 : S2.BroadcastsInDim S1x2 (![1] : Fin 1 → Fin S1x2.rank)
  bcast_S2x1_S2x2_0_1 : S2x1.BroadcastsInDim S2x2 (![0, 1] : Fin 2 → Fin S2x2.rank)
  bcast_S1x2_S2x2_0_1 : S1x2.BroadcastsInDim S2x2 (![0, 1] : Fin 2 → Fin S2x2.rank)
  bcast_S_S2x2 : S_.BroadcastsInDim S2x2 (![] : Fin 0 → Fin S2x2.rank)
  bcast_S_S2x1 : S_.BroadcastsInDim S2x1 (![] : Fin 0 → Fin S2x1.rank)
  bcast_S2x2_S2x2x1_0_1 : S2x2.BroadcastsInDim S2x2x1 (![0, 1] : Fin 2 → Fin S2x2x1.rank)
  concatenates_S2x2x1_S2x2x1_S2x2x2_d2 : Shape.Concatenates [S2x2x1, S2x2x1] S2x2x2 2
  reducesTo_S2048x512x2x2_S2048x512x2_d2 : S2048x512x2x2.ReducesTo [2] S2048x512x2
  bcast_S_S2048x512x2 : S_.BroadcastsInDim S2048x512x2 (![] : Fin 0 → Fin S2048x512x2.rank)
  transposes_S2048x512x2x2_S2048x2x512x2_0_2_1_3 : S2048x512x2x2.Transposes [0, 2, 1, 3] S2048x2x512x2
  shapeCasts_S2048x2x512x2_S4096x1024 : S2048x2x512x2.ShapeCasts S4096x1024
  slices_S5_S1_2 : S5.Slices ![2] S1
  shapeCasts_S4096x1024_S1024x4x256x4 : S4096x1024.ShapeCasts S1024x4x256x4
  transposes_S1024x4x256x4_S1024x256x4x4_0_2_1_3 : S1024x4x256x4.Transposes [0, 2, 1, 3] S1024x256x4x4
  bcast_S4_S4x1_0 : S4.BroadcastsInDim S4x1 (![0] : Fin 1 → Fin S4x1.rank)
  bcast_S4_S1x4_1 : S4.BroadcastsInDim S1x4 (![1] : Fin 1 → Fin S1x4.rank)
  bcast_S4x1_S4x4_0_1 : S4x1.BroadcastsInDim S4x4 (![0, 1] : Fin 2 → Fin S4x4.rank)
  bcast_S1x4_S4x4_0_1 : S1x4.BroadcastsInDim S4x4 (![0, 1] : Fin 2 → Fin S4x4.rank)
  bcast_S_S4x4 : S_.BroadcastsInDim S4x4 (![] : Fin 0 → Fin S4x4.rank)
  bcast_S_S4x1 : S_.BroadcastsInDim S4x1 (![] : Fin 0 → Fin S4x1.rank)
  bcast_S4x4_S4x4x1_0_1 : S4x4.BroadcastsInDim S4x4x1 (![0, 1] : Fin 2 → Fin S4x4x1.rank)
  concatenates_S4x4x1_S4x4x1_S4x4x2_d2 : Shape.Concatenates [S4x4x1, S4x4x1] S4x4x2 2
  reducesTo_S1024x256x4x4_S1024x256x4_d2 : S1024x256x4x4.ReducesTo [2] S1024x256x4
  bcast_S_S1024x256x4 : S_.BroadcastsInDim S1024x256x4 (![] : Fin 0 → Fin S1024x256x4.rank)
  transposes_S1024x256x4x4_S1024x4x256x4_0_2_1_3 : S1024x256x4x4.Transposes [0, 2, 1, 3] S1024x4x256x4
  shapeCasts_S1024x4x256x4_S4096x1024 : S1024x4x256x4.ShapeCasts S4096x1024
  slices_S5_S1_3 : S5.Slices ![3] S1
  shapeCasts_S4096x1024_S512x8x128x8 : S4096x1024.ShapeCasts S512x8x128x8
  transposes_S512x8x128x8_S512x128x8x8_0_2_1_3 : S512x8x128x8.Transposes [0, 2, 1, 3] S512x128x8x8
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  bcast_S_S8x8 : S_.BroadcastsInDim S8x8 (![] : Fin 0 → Fin S8x8.rank)
  bcast_S_S8x1 : S_.BroadcastsInDim S8x1 (![] : Fin 0 → Fin S8x1.rank)
  bcast_S8x8_S8x8x1_0_1 : S8x8.BroadcastsInDim S8x8x1 (![0, 1] : Fin 2 → Fin S8x8x1.rank)
  concatenates_S8x8x1_S8x8x1_S8x8x2_d2 : Shape.Concatenates [S8x8x1, S8x8x1] S8x8x2 2
  reducesTo_S512x128x8x8_S512x128x8_d2 : S512x128x8x8.ReducesTo [2] S512x128x8
  bcast_S_S512x128x8 : S_.BroadcastsInDim S512x128x8 (![] : Fin 0 → Fin S512x128x8.rank)
  transposes_S512x128x8x8_S512x8x128x8_0_2_1_3 : S512x128x8x8.Transposes [0, 2, 1, 3] S512x8x128x8
  shapeCasts_S512x8x128x8_S4096x1024 : S512x8x128x8.ShapeCasts S4096x1024
  slices_S5_S1_4 : S5.Slices ![4] S1
  shapeCasts_S4096x1024_S256x16x64x16 : S4096x1024.ShapeCasts S256x16x64x16
  transposes_S256x16x64x16_S256x64x16x16_0_2_1_3 : S256x16x64x16.Transposes [0, 2, 1, 3] S256x64x16x16
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bcast_S_S16x1 : S_.BroadcastsInDim S16x1 (![] : Fin 0 → Fin S16x1.rank)
  bcast_S16x16_S16x16x1_0_1 : S16x16.BroadcastsInDim S16x16x1 (![0, 1] : Fin 2 → Fin S16x16x1.rank)
  concatenates_S16x16x1_S16x16x1_S16x16x2_d2 : Shape.Concatenates [S16x16x1, S16x16x1] S16x16x2 2
  reducesTo_S256x64x16x16_S256x64x16_d2 : S256x64x16x16.ReducesTo [2] S256x64x16
  bcast_S_S256x64x16 : S_.BroadcastsInDim S256x64x16 (![] : Fin 0 → Fin S256x64x16.rank)
  transposes_S256x64x16x16_S256x16x64x16_0_2_1_3 : S256x64x16x16.Transposes [0, 2, 1, 3] S256x16x64x16
  shapeCasts_S256x16x64x16_S4096x1024 : S256x16x64x16.ShapeCasts S4096x1024
  shapeCasts_S16x512x1024_S8192x1024 : S16x512x1024.ShapeCasts S8192x1024
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x4096_S16x512x4096 : S8192x4096.ShapeCasts S16x512x4096
  gather_S2048x512x2x2_S2x2x2_S2048x512x2x2_01_23_n_n_23_2_204851211_wf : GatherDims.WF S2048x512x2x2 S2x2x2 S2048x512x2x2 [0, 1] [2, 3] [] [2, 3] [] 2 ![2048, 512, 1, 1]
  gather_S2048x512x2_S2x2x1_S2048x512x2x2_01_2_n_n_2_2_20485121_wf : GatherDims.WF S2048x512x2 S2x2x1 S2048x512x2x2 [0, 1] [2] [] [2] [] 2 ![2048, 512, 1]
  gather_S1024x256x4x4_S4x4x2_S1024x256x4x4_01_23_n_n_23_2_102425611_wf : GatherDims.WF S1024x256x4x4 S4x4x2 S1024x256x4x4 [0, 1] [2, 3] [] [2, 3] [] 2 ![1024, 256, 1, 1]
  gather_S1024x256x4_S4x4x1_S1024x256x4x4_01_2_n_n_2_2_10242561_wf : GatherDims.WF S1024x256x4 S4x4x1 S1024x256x4x4 [0, 1] [2] [] [2] [] 2 ![1024, 256, 1]
  gather_S512x128x8x8_S8x8x2_S512x128x8x8_01_23_n_n_23_2_51212811_wf : GatherDims.WF S512x128x8x8 S8x8x2 S512x128x8x8 [0, 1] [2, 3] [] [2, 3] [] 2 ![512, 128, 1, 1]
  gather_S512x128x8_S8x8x1_S512x128x8x8_01_2_n_n_2_2_5121281_wf : GatherDims.WF S512x128x8 S8x8x1 S512x128x8x8 [0, 1] [2] [] [2] [] 2 ![512, 128, 1]
  gather_S256x64x16x16_S16x16x2_S256x64x16x16_01_23_n_n_23_2_2566411_wf : GatherDims.WF S256x64x16x16 S16x16x2 S256x64x16x16 [0, 1] [2, 3] [] [2, 3] [] 2 ![256, 64, 1, 1]
  gather_S256x64x16_S16x16x1_S256x64x16x16_01_2_n_n_2_2_256641_wf : GatherDims.WF S256x64x16 S16x16x1 S256x64x16x16 [0, 1] [2] [] [2] [] 2 ![256, 64, 1]
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .f32 = 32 ∨ (Rect.block (s := S8192x4096) S512x1024.size (cc0_transform_3 i) (hinb0_3 i)).WholeWords (EltTy.packing .f32)

variable [Facts₀]

def gather_S2048x512x2x2_S2x2x2_S2048x512x2x2_01_23_n_n_23_2_204851211 : GatherDims S2048x512x2x2 S2x2x2 S2048x512x2x2 where
  offsetDims := [0, 1]
  collapsedSliceDims := [2, 3]
  operandBatchingDims := []
  startIndicesBatchingDims := []
  startIndexMap := [2, 3]
  indexVectorDim := 2
  sliceSizes := ![2048, 512, 1, 1]
  wf := gather_S2048x512x2x2_S2x2x2_S2048x512x2x2_01_23_n_n_23_2_204851211_wf
def gather_S2048x512x2_S2x2x1_S2048x512x2x2_01_2_n_n_2_2_20485121 : GatherDims S2048x512x2 S2x2x1 S2048x512x2x2 where
  offsetDims := [0, 1]
  collapsedSliceDims := [2]
  operandBatchingDims := []
  startIndicesBatchingDims := []
  startIndexMap := [2]
  indexVectorDim := 2
  sliceSizes := ![2048, 512, 1]
  wf := gather_S2048x512x2_S2x2x1_S2048x512x2x2_01_2_n_n_2_2_20485121_wf
def gather_S1024x256x4x4_S4x4x2_S1024x256x4x4_01_23_n_n_23_2_102425611 : GatherDims S1024x256x4x4 S4x4x2 S1024x256x4x4 where
  offsetDims := [0, 1]
  collapsedSliceDims := [2, 3]
  operandBatchingDims := []
  startIndicesBatchingDims := []
  startIndexMap := [2, 3]
  indexVectorDim := 2
  sliceSizes := ![1024, 256, 1, 1]
  wf := gather_S1024x256x4x4_S4x4x2_S1024x256x4x4_01_23_n_n_23_2_102425611_wf
def gather_S1024x256x4_S4x4x1_S1024x256x4x4_01_2_n_n_2_2_10242561 : GatherDims S1024x256x4 S4x4x1 S1024x256x4x4 where
  offsetDims := [0, 1]
  collapsedSliceDims := [2]
  operandBatchingDims := []
  startIndicesBatchingDims := []
  startIndexMap := [2]
  indexVectorDim := 2
  sliceSizes := ![1024, 256, 1]
  wf := gather_S1024x256x4_S4x4x1_S1024x256x4x4_01_2_n_n_2_2_10242561_wf
def gather_S512x128x8x8_S8x8x2_S512x128x8x8_01_23_n_n_23_2_51212811 : GatherDims S512x128x8x8 S8x8x2 S512x128x8x8 where
  offsetDims := [0, 1]
  collapsedSliceDims := [2, 3]
  operandBatchingDims := []
  startIndicesBatchingDims := []
  startIndexMap := [2, 3]
  indexVectorDim := 2
  sliceSizes := ![512, 128, 1, 1]
  wf := gather_S512x128x8x8_S8x8x2_S512x128x8x8_01_23_n_n_23_2_51212811_wf
def gather_S512x128x8_S8x8x1_S512x128x8x8_01_2_n_n_2_2_5121281 : GatherDims S512x128x8 S8x8x1 S512x128x8x8 where
  offsetDims := [0, 1]
  collapsedSliceDims := [2]
  operandBatchingDims := []
  startIndicesBatchingDims := []
  startIndexMap := [2]
  indexVectorDim := 2
  sliceSizes := ![512, 128, 1]
  wf := gather_S512x128x8_S8x8x1_S512x128x8x8_01_2_n_n_2_2_5121281_wf
def gather_S256x64x16x16_S16x16x2_S256x64x16x16_01_23_n_n_23_2_2566411 : GatherDims S256x64x16x16 S16x16x2 S256x64x16x16 where
  offsetDims := [0, 1]
  collapsedSliceDims := [2, 3]
  operandBatchingDims := []
  startIndicesBatchingDims := []
  startIndexMap := [2, 3]
  indexVectorDim := 2
  sliceSizes := ![256, 64, 1, 1]
  wf := gather_S256x64x16x16_S16x16x2_S256x64x16x16_01_23_n_n_23_2_2566411_wf
def gather_S256x64x16_S16x16x1_S256x64x16x16_01_2_n_n_2_2_256641 : GatherDims S256x64x16 S16x16x1 S256x64x16x16 where
  offsetDims := [0, 1]
  collapsedSliceDims := [2]
  operandBatchingDims := []
  startIndicesBatchingDims := []
  startIndexMap := [2]
  indexVectorDim := 2
  sliceSizes := ![256, 64, 1]
  wf := gather_S256x64x16_S16x16x1_S256x64x16x16_01_2_n_n_2_2_256641_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v206) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v205) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v207) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v208) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x1024 : Shape := ⟨3, ![16, 512, 1024]⟩
abbrev S4096x1024 : Shape := ⟨2, ![4096, 1024]⟩
abbrev S5 : Shape := ⟨1, ![5]⟩
abbrev S4096 : Shape := ⟨1, ![4096]⟩
abbrev S_ : Shape := ⟨0, ![]⟩
abbrev S1 : Shape := ⟨1, ![1]⟩
abbrev S2048x2x512x2 : Shape := ⟨4, ![2048, 2, 512, 2]⟩
abbrev S2048x512x2x2 : Shape := ⟨4, ![2048, 512, 2, 2]⟩
abbrev S2 : Shape := ⟨1, ![2]⟩
abbrev S2x1 : Shape := ⟨2, ![2, 1]⟩
abbrev S1x2 : Shape := ⟨2, ![1, 2]⟩
abbrev S2x2 : Shape := ⟨2, ![2, 2]⟩
abbrev S2x2x1 : Shape := ⟨3, ![2, 2, 1]⟩
abbrev S2x2x2 : Shape := ⟨3, ![2, 2, 2]⟩
abbrev S2048x512x2 : Shape := ⟨3, ![2048, 512, 2]⟩
abbrev S1024x4x256x4 : Shape := ⟨4, ![1024, 4, 256, 4]⟩
abbrev S1024x256x4x4 : Shape := ⟨4, ![1024, 256, 4, 4]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S4x4x1 : Shape := ⟨3, ![4, 4, 1]⟩
abbrev S4x4x2 : Shape := ⟨3, ![4, 4, 2]⟩
abbrev S1024x256x4 : Shape := ⟨3, ![1024, 256, 4]⟩
abbrev S512x8x128x8 : Shape := ⟨4, ![512, 8, 128, 8]⟩
abbrev S512x128x8x8 : Shape := ⟨4, ![512, 128, 8, 8]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S8x8x1 : Shape := ⟨3, ![8, 8, 1]⟩
abbrev S8x8x2 : Shape := ⟨3, ![8, 8, 2]⟩
abbrev S512x128x8 : Shape := ⟨3, ![512, 128, 8]⟩
abbrev S256x16x64x16 : Shape := ⟨4, ![256, 16, 64, 16]⟩
abbrev S256x64x16x16 : Shape := ⟨4, ![256, 64, 16, 16]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S16x16x1 : Shape := ⟨3, ![16, 16, 1]⟩
abbrev S16x16x2 : Shape := ⟨3, ![16, 16, 2]⟩
abbrev S256x64x16 : Shape := ⟨3, ![256, 64, 16]⟩
abbrev S16x512x4096 : Shape := ⟨3, ![16, 512, 4096]⟩
abbrev S1x1x4096 : Shape := ⟨3, ![1, 1, 4096]⟩

abbrev nBuf : Space → Nat
  | .hbm => 417
  | .vmem => 0
  | .smem => 0
  | _ => 0

abbrev hbmTy0_0 (i : Nat) : BufTy := match i % 128 with
  | 0 => ⟨S16x512x1024, .f32⟩
  | 1 => ⟨S4096x1024, .f32⟩
  | 2 => ⟨S5, .f32⟩
  | 3 => ⟨S4096, .f32⟩
  | 4 => ⟨S_, .f32⟩
  | 5 => ⟨S_, .f32⟩
  | 6 => ⟨S_, .f32⟩
  | 7 => ⟨S_, .f32⟩
  | 8 => ⟨S1, .f32⟩
  | 9 => ⟨S5, .f32⟩
  | 10 => ⟨S5, .f32⟩
  | 11 => ⟨S5, .f32⟩
  | 12 => ⟨S_, .f32⟩
  | 13 => ⟨S_, .f32⟩
  | 14 => ⟨S1, .f32⟩
  | 15 => ⟨S5, .f32⟩
  | 16 => ⟨S5, .f32⟩
  | 17 => ⟨S1, .f32⟩
  | 18 => ⟨S_, .f32⟩
  | 19 => ⟨S4096x1024, .f32⟩
  | 20 => ⟨S4096x1024, .f32⟩
  | 21 => ⟨S1, .f32⟩
  | 22 => ⟨S_, .f32⟩
  | 23 => ⟨S2048x2x512x2, .f32⟩
  | 24 => ⟨S2048x512x2x2, .f32⟩
  | 25 => ⟨S2, .i32⟩
  | 26 => ⟨S2x1, .i32⟩
  | 27 => ⟨S2x1, .i32⟩
  | 28 => ⟨S1x2, .i32⟩
  | 29 => ⟨S2x2, .i32⟩
  | 30 => ⟨S2x2, .i32⟩
  | 31 => ⟨S2x2, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S2x2, .i32⟩
  | 39 => ⟨S2x2, .i32⟩
  | 40 => ⟨S_, .i32⟩
  | 41 => ⟨S2x2, .i32⟩
  | 42 => ⟨S2x2, .i1⟩
  | 43 => ⟨S_, .i32⟩
  | 44 => ⟨S2x2, .i32⟩
  | 45 => ⟨S2x2, .i1⟩
  | 46 => ⟨S_, .i32⟩
  | 47 => ⟨S_, .i1⟩
  | 48 => ⟨S2x2, .i1⟩
  | 49 => ⟨S2x2, .i1⟩
  | 50 => ⟨S2x2, .i1⟩
  | 51 => ⟨S2x2, .i32⟩
  | 52 => ⟨S2x2, .i32⟩
  | 53 => ⟨S2x2, .i32⟩
  | 54 => ⟨S_, .i32⟩
  | 55 => ⟨S2x1, .i32⟩
  | 56 => ⟨S2x1, .i1⟩
  | 57 => ⟨S_, .i32⟩
  | 58 => ⟨S2x1, .i32⟩
  | 59 => ⟨S2x1, .i32⟩
  | 60 => ⟨S2x1, .i32⟩
  | 61 => ⟨S_, .i32⟩
  | 62 => ⟨S2x2, .i32⟩
  | 63 => ⟨S2x2, .i1⟩
  | 64 => ⟨S_, .i32⟩
  | 65 => ⟨S2x2, .i32⟩
  | 66 => ⟨S2x2, .i32⟩
  | 67 => ⟨S2x2, .i32⟩
  | 68 => ⟨S2x2, .i32⟩
  | 69 => ⟨S2x2x1, .i32⟩
  | 70 => ⟨S2x2x1, .i32⟩
  | 71 => ⟨S2x2x2, .i32⟩
  | 72 => ⟨S2048x512x2x2, .f32⟩
  | 73 => ⟨S_, .f32⟩
  | 74 => ⟨S2048x512x2, .f32⟩
  | 75 => ⟨S_, .f32⟩
  | 76 => ⟨S2048x512x2, .f32⟩
  | 77 => ⟨S2048x512x2, .f32⟩
  | 78 => ⟨S2x1, .i32⟩
  | 79 => ⟨S1x2, .i32⟩
  | 80 => ⟨S2x2, .i32⟩
  | 81 => ⟨S2x2, .i32⟩
  | 82 => ⟨S2x2, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S2x2, .i32⟩
  | 90 => ⟨S2x2, .i32⟩
  | 91 => ⟨S_, .i32⟩
  | 92 => ⟨S2x2, .i32⟩
  | 93 => ⟨S2x2, .i1⟩
  | 94 => ⟨S_, .i32⟩
  | 95 => ⟨S2x2, .i32⟩
  | 96 => ⟨S2x2, .i1⟩
  | 97 => ⟨S_, .i32⟩
  | 98 => ⟨S_, .i1⟩
  | 99 => ⟨S2x2, .i1⟩
  | 100 => ⟨S2x2, .i1⟩
  | 101 => ⟨S2x2, .i1⟩
  | 102 => ⟨S2x2, .i32⟩
  | 103 => ⟨S2x2, .i32⟩
  | 104 => ⟨S2x2, .i32⟩
  | 105 => ⟨S_, .i32⟩
  | 106 => ⟨S2x2, .i32⟩
  | 107 => ⟨S2x2, .i1⟩
  | 108 => ⟨S_, .i32⟩
  | 109 => ⟨S2x2, .i32⟩
  | 110 => ⟨S2x2, .i32⟩
  | 111 => ⟨S2x2, .i32⟩
  | 112 => ⟨S2x2x1, .i32⟩
  | 113 => ⟨S2048x512x2x2, .f32⟩
  | 114 => ⟨S2048x2x512x2, .f32⟩
  | 115 => ⟨S4096x1024, .f32⟩
  | 116 => ⟨S4096x1024, .f32⟩
  | 117 => ⟨S4096x1024, .f32⟩
  | 118 => ⟨S4096x1024, .f32⟩
  | 119 => ⟨S1, .f32⟩
  | 120 => ⟨S_, .f32⟩
  | 121 => ⟨S1024x4x256x4, .f32⟩
  | 122 => ⟨S1024x256x4x4, .f32⟩
  | 123 => ⟨S4, .i32⟩
  | 124 => ⟨S4x1, .i32⟩
  | 125 => ⟨S4x1, .i32⟩
  | 126 => ⟨S1x4, .i32⟩
  | 127 => ⟨S4x4, .i32⟩
  | _ => ⟨S16x512x1024, .f32⟩

abbrev hbmTy0_1 (i : Nat) : BufTy := match i % 128 with
  | 0 => ⟨S4x4, .i32⟩
  | 1 => ⟨S4x4, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S4x4, .i32⟩
  | 9 => ⟨S4x4, .i32⟩
  | 10 => ⟨S_, .i32⟩
  | 11 => ⟨S4x4, .i32⟩
  | 12 => ⟨S4x4, .i1⟩
  | 13 => ⟨S_, .i32⟩
  | 14 => ⟨S4x4, .i32⟩
  | 15 => ⟨S4x4, .i1⟩
  | 16 => ⟨S_, .i32⟩
  | 17 => ⟨S_, .i1⟩
  | 18 => ⟨S4x4, .i1⟩
  | 19 => ⟨S4x4, .i1⟩
  | 20 => ⟨S4x4, .i1⟩
  | 21 => ⟨S4x4, .i32⟩
  | 22 => ⟨S4x4, .i32⟩
  | 23 => ⟨S4x4, .i32⟩
  | 24 => ⟨S_, .i32⟩
  | 25 => ⟨S4x1, .i32⟩
  | 26 => ⟨S4x1, .i1⟩
  | 27 => ⟨S_, .i32⟩
  | 28 => ⟨S4x1, .i32⟩
  | 29 => ⟨S4x1, .i32⟩
  | 30 => ⟨S4x1, .i32⟩
  | 31 => ⟨S_, .i32⟩
  | 32 => ⟨S4x4, .i32⟩
  | 33 => ⟨S4x4, .i1⟩
  | 34 => ⟨S_, .i32⟩
  | 35 => ⟨S4x4, .i32⟩
  | 36 => ⟨S4x4, .i32⟩
  | 37 => ⟨S4x4, .i32⟩
  | 38 => ⟨S4x4, .i32⟩
  | 39 => ⟨S4x4x1, .i32⟩
  | 40 => ⟨S4x4x1, .i32⟩
  | 41 => ⟨S4x4x2, .i32⟩
  | 42 => ⟨S1024x256x4x4, .f32⟩
  | 43 => ⟨S_, .f32⟩
  | 44 => ⟨S1024x256x4, .f32⟩
  | 45 => ⟨S_, .f32⟩
  | 46 => ⟨S1024x256x4, .f32⟩
  | 47 => ⟨S1024x256x4, .f32⟩
  | 48 => ⟨S4x1, .i32⟩
  | 49 => ⟨S1x4, .i32⟩
  | 50 => ⟨S4x4, .i32⟩
  | 51 => ⟨S4x4, .i32⟩
  | 52 => ⟨S4x4, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S4x4, .i32⟩
  | 60 => ⟨S4x4, .i32⟩
  | 61 => ⟨S_, .i32⟩
  | 62 => ⟨S4x4, .i32⟩
  | 63 => ⟨S4x4, .i1⟩
  | 64 => ⟨S_, .i32⟩
  | 65 => ⟨S4x4, .i32⟩
  | 66 => ⟨S4x4, .i1⟩
  | 67 => ⟨S_, .i32⟩
  | 68 => ⟨S_, .i1⟩
  | 69 => ⟨S4x4, .i1⟩
  | 70 => ⟨S4x4, .i1⟩
  | 71 => ⟨S4x4, .i1⟩
  | 72 => ⟨S4x4, .i32⟩
  | 73 => ⟨S4x4, .i32⟩
  | 74 => ⟨S4x4, .i32⟩
  | 75 => ⟨S_, .i32⟩
  | 76 => ⟨S4x4, .i32⟩
  | 77 => ⟨S4x4, .i1⟩
  | 78 => ⟨S_, .i32⟩
  | 79 => ⟨S4x4, .i32⟩
  | 80 => ⟨S4x4, .i32⟩
  | 81 => ⟨S4x4, .i32⟩
  | 82 => ⟨S4x4x1, .i32⟩
  | 83 => ⟨S1024x256x4x4, .f32⟩
  | 84 => ⟨S1024x4x256x4, .f32⟩
  | 85 => ⟨S4096x1024, .f32⟩
  | 86 => ⟨S4096x1024, .f32⟩
  | 87 => ⟨S4096x1024, .f32⟩
  | 88 => ⟨S4096x1024, .f32⟩
  | 89 => ⟨S1, .f32⟩
  | 90 => ⟨S_, .f32⟩
  | 91 => ⟨S512x8x128x8, .f32⟩
  | 92 => ⟨S512x128x8x8, .f32⟩
  | 93 => ⟨S8, .i32⟩
  | 94 => ⟨S8x1, .i32⟩
  | 95 => ⟨S8x1, .i32⟩
  | 96 => ⟨S1x8, .i32⟩
  | 97 => ⟨S8x8, .i32⟩
  | 98 => ⟨S8x8, .i32⟩
  | 99 => ⟨S8x8, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S8x8, .i32⟩
  | 107 => ⟨S8x8, .i32⟩
  | 108 => ⟨S_, .i32⟩
  | 109 => ⟨S8x8, .i32⟩
  | 110 => ⟨S8x8, .i1⟩
  | 111 => ⟨S_, .i32⟩
  | 112 => ⟨S8x8, .i32⟩
  | 113 => ⟨S8x8, .i1⟩
  | 114 => ⟨S_, .i32⟩
  | 115 => ⟨S_, .i1⟩
  | 116 => ⟨S8x8, .i1⟩
  | 117 => ⟨S8x8, .i1⟩
  | 118 => ⟨S8x8, .i1⟩
  | 119 => ⟨S8x8, .i32⟩
  | 120 => ⟨S8x8, .i32⟩
  | 121 => ⟨S8x8, .i32⟩
  | 122 => ⟨S_, .i32⟩
  | 123 => ⟨S8x1, .i32⟩
  | 124 => ⟨S8x1, .i1⟩
  | 125 => ⟨S_, .i32⟩
  | 126 => ⟨S8x1, .i32⟩
  | 127 => ⟨S8x1, .i32⟩
  | _ => ⟨S16x512x1024, .f32⟩

abbrev hbmTy0_2 (i : Nat) : BufTy := match i % 128 with
  | 0 => ⟨S8x1, .i32⟩
  | 1 => ⟨S_, .i32⟩
  | 2 => ⟨S8x8, .i32⟩
  | 3 => ⟨S8x8, .i1⟩
  | 4 => ⟨S_, .i32⟩
  | 5 => ⟨S8x8, .i32⟩
  | 6 => ⟨S8x8, .i32⟩
  | 7 => ⟨S8x8, .i32⟩
  | 8 => ⟨S8x8, .i32⟩
  | 9 => ⟨S8x8x1, .i32⟩
  | 10 => ⟨S8x8x1, .i32⟩
  | 11 => ⟨S8x8x2, .i32⟩
  | 12 => ⟨S512x128x8x8, .f32⟩
  | 13 => ⟨S_, .f32⟩
  | 14 => ⟨S512x128x8, .f32⟩
  | 15 => ⟨S_, .f32⟩
  | 16 => ⟨S512x128x8, .f32⟩
  | 17 => ⟨S512x128x8, .f32⟩
  | 18 => ⟨S8x1, .i32⟩
  | 19 => ⟨S1x8, .i32⟩
  | 20 => ⟨S8x8, .i32⟩
  | 21 => ⟨S8x8, .i32⟩
  | 22 => ⟨S8x8, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S8x8, .i32⟩
  | 30 => ⟨S8x8, .i32⟩
  | 31 => ⟨S_, .i32⟩
  | 32 => ⟨S8x8, .i32⟩
  | 33 => ⟨S8x8, .i1⟩
  | 34 => ⟨S_, .i32⟩
  | 35 => ⟨S8x8, .i32⟩
  | 36 => ⟨S8x8, .i1⟩
  | 37 => ⟨S_, .i32⟩
  | 38 => ⟨S_, .i1⟩
  | 39 => ⟨S8x8, .i1⟩
  | 40 => ⟨S8x8, .i1⟩
  | 41 => ⟨S8x8, .i1⟩
  | 42 => ⟨S8x8, .i32⟩
  | 43 => ⟨S8x8, .i32⟩
  | 44 => ⟨S8x8, .i32⟩
  | 45 => ⟨S_, .i32⟩
  | 46 => ⟨S8x8, .i32⟩
  | 47 => ⟨S8x8, .i1⟩
  | 48 => ⟨S_, .i32⟩
  | 49 => ⟨S8x8, .i32⟩
  | 50 => ⟨S8x8, .i32⟩
  | 51 => ⟨S8x8, .i32⟩
  | 52 => ⟨S8x8x1, .i32⟩
  | 53 => ⟨S512x128x8x8, .f32⟩
  | 54 => ⟨S512x8x128x8, .f32⟩
  | 55 => ⟨S4096x1024, .f32⟩
  | 56 => ⟨S4096x1024, .f32⟩
  | 57 => ⟨S4096x1024, .f32⟩
  | 58 => ⟨S4096x1024, .f32⟩
  | 59 => ⟨S1, .f32⟩
  | 60 => ⟨S_, .f32⟩
  | 61 => ⟨S256x16x64x16, .f32⟩
  | 62 => ⟨S256x64x16x16, .f32⟩
  | 63 => ⟨S16, .i32⟩
  | 64 => ⟨S16x1, .i32⟩
  | 65 => ⟨S16x1, .i32⟩
  | 66 => ⟨S1x16, .i32⟩
  | 67 => ⟨S16x16, .i32⟩
  | 68 => ⟨S16x16, .i32⟩
  | 69 => ⟨S16x16, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S16x16, .i32⟩
  | 77 => ⟨S16x16, .i32⟩
  | 78 => ⟨S_, .i32⟩
  | 79 => ⟨S16x16, .i32⟩
  | 80 => ⟨S16x16, .i1⟩
  | 81 => ⟨S_, .i32⟩
  | 82 => ⟨S16x16, .i32⟩
  | 83 => ⟨S16x16, .i1⟩
  | 84 => ⟨S_, .i32⟩
  | 85 => ⟨S_, .i1⟩
  | 86 => ⟨S16x16, .i1⟩
  | 87 => ⟨S16x16, .i1⟩
  | 88 => ⟨S16x16, .i1⟩
  | 89 => ⟨S16x16, .i32⟩
  | 90 => ⟨S16x16, .i32⟩
  | 91 => ⟨S16x16, .i32⟩
  | 92 => ⟨S_, .i32⟩
  | 93 => ⟨S16x1, .i32⟩
  | 94 => ⟨S16x1, .i1⟩
  | 95 => ⟨S_, .i32⟩
  | 96 => ⟨S16x1, .i32⟩
  | 97 => ⟨S16x1, .i32⟩
  | 98 => ⟨S16x1, .i32⟩
  | 99 => ⟨S_, .i32⟩
  | 100 => ⟨S16x16, .i32⟩
  | 101 => ⟨S16x16, .i1⟩
  | 102 => ⟨S_, .i32⟩
  | 103 => ⟨S16x16, .i32⟩
  | 104 => ⟨S16x16, .i32⟩
  | 105 => ⟨S16x16, .i32⟩
  | 106 => ⟨S16x16, .i32⟩
  | 107 => ⟨S16x16x1, .i32⟩
  | 108 => ⟨S16x16x1, .i32⟩
  | 109 => ⟨S16x16x2, .i32⟩
  | 110 => ⟨S256x64x16x16, .f32⟩
  | 111 => ⟨S_, .f32⟩
  | 112 => ⟨S256x64x16, .f32⟩
  | 113 => ⟨S_, .f32⟩
  | 114 => ⟨S256x64x16, .f32⟩
  | 115 => ⟨S256x64x16, .f32⟩
  | 116 => ⟨S16x1, .i32⟩
  | 117 => ⟨S1x16, .i32⟩
  | 118 => ⟨S16x16, .i32⟩
  | 119 => ⟨S16x16, .i32⟩
  | 120 => ⟨S16x16, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S16x16, .i32⟩
  | _ => ⟨S16x512x1024, .f32⟩

abbrev hbmTy0_3 (i : Nat) : BufTy := match i % 128 with
  | 0 => ⟨S16x16, .i32⟩
  | 1 => ⟨S_, .i32⟩
  | 2 => ⟨S16x16, .i32⟩
  | 3 => ⟨S16x16, .i1⟩
  | 4 => ⟨S_, .i32⟩
  | 5 => ⟨S16x16, .i32⟩
  | 6 => ⟨S16x16, .i1⟩
  | 7 => ⟨S_, .i32⟩
  | 8 => ⟨S_, .i1⟩
  | 9 => ⟨S16x16, .i1⟩
  | 10 => ⟨S16x16, .i1⟩
  | 11 => ⟨S16x16, .i1⟩
  | 12 => ⟨S16x16, .i32⟩
  | 13 => ⟨S16x16, .i32⟩
  | 14 => ⟨S16x16, .i32⟩
  | 15 => ⟨S_, .i32⟩
  | 16 => ⟨S16x16, .i32⟩
  | 17 => ⟨S16x16, .i1⟩
  | 18 => ⟨S_, .i32⟩
  | 19 => ⟨S16x16, .i32⟩
  | 20 => ⟨S16x16, .i32⟩
  | 21 => ⟨S16x16, .i32⟩
  | 22 => ⟨S16x16x1, .i32⟩
  | 23 => ⟨S256x64x16x16, .f32⟩
  | 24 => ⟨S256x16x64x16, .f32⟩
  | 25 => ⟨S4096x1024, .f32⟩
  | 26 => ⟨S4096x1024, .f32⟩
  | 27 => ⟨S4096x1024, .f32⟩
  | 28 => ⟨S4096x1024, .f32⟩
  | 29 => ⟨S16x512x4096, .f32⟩
  | 30 => ⟨S1x1x4096, .f32⟩
  | 31 => ⟨S16x512x4096, .f32⟩
  | 32 => ⟨S16x512x4096, .f32⟩
  | _ => ⟨S16x512x1024, .f32⟩

abbrev hbmTy (i : Nat) : BufTy := match i / 128 with
  | 0 => hbmTy0_0 i
  | 1 => hbmTy0_1 i
  | 2 => hbmTy0_2 i
  | 3 => hbmTy0_3 i
  | _ => ⟨S16x512x1024, .f32⟩

abbrev bufTy : (tb : Table) → Fin (tcTables nBuf tb) → BufTy
  | .hbm, ⟨i, _⟩ => hbmTy i
  | _, _ => ⟨S16x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_1 : Ref sig .tc := ⟨.hbm, 40, rfl⟩
abbrev main_call0_v5 : Ref sig .tc := ⟨.hbm, 41, rfl⟩
abbrev main_call0_v6 : Ref sig .tc := ⟨.hbm, 42, rfl⟩
abbrev main_call0_c_2 : Ref sig .tc := ⟨.hbm, 43, rfl⟩
abbrev main_call0_v7 : Ref sig .tc := ⟨.hbm, 44, rfl⟩
abbrev main_call0_v8 : Ref sig .tc := ⟨.hbm, 45, rfl⟩
abbrev main_call0_c_3 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_v25 : Ref sig .tc := ⟨.hbm, 53, rfl⟩
abbrev main_c_2 : Ref sig .tc := ⟨.hbm, 54, rfl⟩
abbrev main_v26 : Ref sig .tc := ⟨.hbm, 55, rfl⟩
abbrev main_v27 : Ref sig .tc := ⟨.hbm, 56, rfl⟩
abbrev main_c_3 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_4 : Ref sig .tc := ⟨.hbm, 61, rfl⟩
abbrev main_v31 : Ref sig .tc := ⟨.hbm, 62, rfl⟩
abbrev main_v32 : Ref sig .tc := ⟨.hbm, 63, rfl⟩
abbrev main_c_5 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_6 : Ref sig .tc := ⟨.hbm, 73, rfl⟩
abbrev main_v41 : Ref sig .tc := ⟨.hbm, 74, rfl⟩
abbrev main_cst_7 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_8 : Ref sig .tc := ⟨.hbm, 83, rfl⟩
abbrev main_call1_v0 : Ref sig .tc := ⟨.hbm, 84, rfl⟩
abbrev main_call1_c : Ref sig .tc := ⟨.hbm, 85, rfl⟩
abbrev main_call1_v1 : Ref sig .tc := ⟨.hbm, 86, rfl⟩
abbrev main_call1_c_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_c_1 : Ref sig .tc := ⟨.hbm, 91, rfl⟩
abbrev main_call1_v5 : Ref sig .tc := ⟨.hbm, 92, rfl⟩
abbrev main_call1_v6 : Ref sig .tc := ⟨.hbm, 93, rfl⟩
abbrev main_call1_c_2 : Ref sig .tc := ⟨.hbm, 94, rfl⟩
abbrev main_call1_v7 : Ref sig .tc := ⟨.hbm, 95, rfl⟩
abbrev main_call1_v8 : Ref sig .tc := ⟨.hbm, 96, rfl⟩
abbrev main_call1_c_3 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_v12 : Ref sig .tc := ⟨.hbm, 101, rfl⟩
abbrev main_call1_v13 : Ref sig .tc := ⟨.hbm, 102, rfl⟩
abbrev main_call1_v14 : Ref sig .tc := ⟨.hbm, 103, rfl⟩
abbrev main_v49 : Ref sig .tc := ⟨.hbm, 104, rfl⟩
abbrev main_c_9 : Ref sig .tc := ⟨.hbm, 105, rfl⟩
abbrev main_v50 : Ref sig .tc := ⟨.hbm, 106, rfl⟩
abbrev main_v51 : Ref sig .tc := ⟨.hbm, 107, rfl⟩
abbrev main_c_10 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_c_11 : Ref sig .tc := ⟨.hbm, 130, rfl⟩
abbrev main_call2_v0 : Ref sig .tc := ⟨.hbm, 131, rfl⟩
abbrev main_call2_c : Ref sig .tc := ⟨.hbm, 132, rfl⟩
abbrev main_call2_v1 : Ref sig .tc := ⟨.hbm, 133, rfl⟩
abbrev main_call2_c_0 : Ref sig .tc := ⟨.hbm, 134, rfl⟩
abbrev main_call2_v2 : Ref sig .tc := ⟨.hbm, 135, rfl⟩
abbrev main_call2_v3 : Ref sig .tc := ⟨.hbm, 136, rfl⟩
abbrev main_call2_v4 : Ref sig .tc := ⟨.hbm, 137, rfl⟩
abbrev main_call2_c_1 : Ref sig .tc := ⟨.hbm, 138, rfl⟩
abbrev main_call2_v5 : Ref sig .tc := ⟨.hbm, 139, rfl⟩
abbrev main_call2_v6 : Ref sig .tc := ⟨.hbm, 140, rfl⟩
abbrev main_call2_c_2 : Ref sig .tc := ⟨.hbm, 141, rfl⟩
abbrev main_call2_v7 : Ref sig .tc := ⟨.hbm, 142, rfl⟩
abbrev main_call2_v8 : Ref sig .tc := ⟨.hbm, 143, rfl⟩
abbrev main_call2_c_3 : Ref sig .tc := ⟨.hbm, 144, rfl⟩
abbrev main_call2_v9 : Ref sig .tc := ⟨.hbm, 145, rfl⟩
abbrev main_call2_v10 : Ref sig .tc := ⟨.hbm, 146, rfl⟩
abbrev main_call2_v11 : Ref sig .tc := ⟨.hbm, 147, rfl⟩
abbrev main_call2_v12 : Ref sig .tc := ⟨.hbm, 148, rfl⟩
abbrev main_call2_v13 : Ref sig .tc := ⟨.hbm, 149, rfl⟩
abbrev main_call2_v14 : Ref sig .tc := ⟨.hbm, 150, rfl⟩
abbrev main_v73 : Ref sig .tc := ⟨.hbm, 151, rfl⟩
abbrev main_c_12 : Ref sig .tc := ⟨.hbm, 152, rfl⟩
abbrev main_v74 : Ref sig .tc := ⟨.hbm, 153, rfl⟩
abbrev main_v75 : Ref sig .tc := ⟨.hbm, 154, rfl⟩
abbrev main_c_13 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_c_14 : Ref sig .tc := ⟨.hbm, 159, rfl⟩
abbrev main_v79 : Ref sig .tc := ⟨.hbm, 160, rfl⟩
abbrev main_v80 : Ref sig .tc := ⟨.hbm, 161, rfl⟩
abbrev main_c_15 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_cst_16 : Ref sig .tc := ⟨.hbm, 171, rfl⟩
abbrev main_v89 : Ref sig .tc := ⟨.hbm, 172, rfl⟩
abbrev main_cst_17 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_c_18 : Ref sig .tc := ⟨.hbm, 181, rfl⟩
abbrev main_call3_v0 : Ref sig .tc := ⟨.hbm, 182, rfl⟩
abbrev main_call3_c : Ref sig .tc := ⟨.hbm, 183, rfl⟩
abbrev main_call3_v1 : Ref sig .tc := ⟨.hbm, 184, rfl⟩
abbrev main_call3_c_0 : Ref sig .tc := ⟨.hbm, 185, rfl⟩
abbrev main_call3_v2 : Ref sig .tc := ⟨.hbm, 186, rfl⟩
abbrev main_call3_v3 : Ref sig .tc := ⟨.hbm, 187, rfl⟩
abbrev main_call3_v4 : Ref sig .tc := ⟨.hbm, 188, rfl⟩
abbrev main_call3_c_1 : Ref sig .tc := ⟨.hbm, 189, rfl⟩
abbrev main_call3_v5 : Ref sig .tc := ⟨.hbm, 190, rfl⟩
abbrev main_call3_v6 : Ref sig .tc := ⟨.hbm, 191, rfl⟩
abbrev main_call3_c_2 : Ref sig .tc := ⟨.hbm, 192, rfl⟩
abbrev main_call3_v7 : Ref sig .tc := ⟨.hbm, 193, rfl⟩
abbrev main_call3_v8 : Ref sig .tc := ⟨.hbm, 194, rfl⟩
abbrev main_call3_c_3 : Ref sig .tc := ⟨.hbm, 195, rfl⟩
abbrev main_call3_v9 : Ref sig .tc := ⟨.hbm, 196, rfl⟩
abbrev main_call3_v10 : Ref sig .tc := ⟨.hbm, 197, rfl⟩
abbrev main_call3_v11 : Ref sig .tc := ⟨.hbm, 198, rfl⟩
abbrev main_call3_v12 : Ref sig .tc := ⟨.hbm, 199, rfl⟩
abbrev main_call3_v13 : Ref sig .tc := ⟨.hbm, 200, rfl⟩
abbrev main_call3_v14 : Ref sig .tc := ⟨.hbm, 201, rfl⟩
abbrev main_v97 : Ref sig .tc := ⟨.hbm, 202, rfl⟩
abbrev main_c_19 : Ref sig .tc := ⟨.hbm, 203, rfl⟩
abbrev main_v98 : Ref sig .tc := ⟨.hbm, 204, rfl⟩
abbrev main_v99 : Ref sig .tc := ⟨.hbm, 205, rfl⟩
abbrev main_c_20 : Ref sig .tc := ⟨.hbm, 206, rfl⟩
abbrev main_v100 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_v104 : Ref sig .tc := ⟨.hbm, 211, rfl⟩
abbrev main_v105 : Ref sig .tc := ⟨.hbm, 212, rfl⟩
abbrev main_v106 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_v110 : Ref sig .tc := ⟨.hbm, 217, rfl⟩
abbrev main_v111 : Ref sig .tc := ⟨.hbm, 218, rfl⟩
abbrev main_v112 : Ref sig .tc := ⟨.hbm, 219, rfl⟩
abbrev main_v113 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_v119 : Ref sig .tc := ⟨.hbm, 226, rfl⟩
abbrev main_v120 : Ref sig .tc := ⟨.hbm, 227, rfl⟩
abbrev main_c_21 : Ref sig .tc := ⟨.hbm, 228, rfl⟩
abbrev main_call4_v0 : Ref sig .tc := ⟨.hbm, 229, rfl⟩
abbrev main_call4_c : Ref sig .tc := ⟨.hbm, 230, rfl⟩
abbrev main_call4_v1 : Ref sig .tc := ⟨.hbm, 231, rfl⟩
abbrev main_call4_c_0 : Ref sig .tc := ⟨.hbm, 232, rfl⟩
abbrev main_call4_v2 : Ref sig .tc := ⟨.hbm, 233, rfl⟩
abbrev main_call4_v3 : Ref sig .tc := ⟨.hbm, 234, rfl⟩
abbrev main_call4_v4 : Ref sig .tc := ⟨.hbm, 235, rfl⟩
abbrev main_call4_c_1 : Ref sig .tc := ⟨.hbm, 236, rfl⟩
abbrev main_call4_v5 : Ref sig .tc := ⟨.hbm, 237, rfl⟩
abbrev main_call4_v6 : Ref sig .tc := ⟨.hbm, 238, rfl⟩
abbrev main_call4_c_2 : Ref sig .tc := ⟨.hbm, 239, rfl⟩
abbrev main_call4_v7 : Ref sig .tc := ⟨.hbm, 240, rfl⟩
abbrev main_call4_v8 : Ref sig .tc := ⟨.hbm, 241, rfl⟩
abbrev main_call4_c_3 : Ref sig .tc := ⟨.hbm, 242, rfl⟩
abbrev main_call4_v9 : Ref sig .tc := ⟨.hbm, 243, rfl⟩
abbrev main_call4_v10 : Ref sig .tc := ⟨.hbm, 244, rfl⟩
abbrev main_call4_v11 : Ref sig .tc := ⟨.hbm, 245, rfl⟩
abbrev main_call4_v12 : Ref sig .tc := ⟨.hbm, 246, rfl⟩
abbrev main_call4_v13 : Ref sig .tc := ⟨.hbm, 247, rfl⟩
abbrev main_call4_v14 : Ref sig .tc := ⟨.hbm, 248, rfl⟩
abbrev main_v121 : Ref sig .tc := ⟨.hbm, 249, rfl⟩
abbrev main_c_22 : Ref sig .tc := ⟨.hbm, 250, rfl⟩
abbrev main_v122 : Ref sig .tc := ⟨.hbm, 251, rfl⟩
abbrev main_v123 : Ref sig .tc := ⟨.hbm, 252, rfl⟩
abbrev main_c_23 : Ref sig .tc := ⟨.hbm, 253, rfl⟩
abbrev main_v124 : Ref sig .tc := ⟨.hbm, 254, rfl⟩
abbrev main_v125 : Ref sig .tc := ⟨.hbm, 255, rfl⟩
abbrev main_v126 : Ref sig .tc := ⟨.hbm, 256, rfl⟩
abbrev main_c_24 : Ref sig .tc := ⟨.hbm, 257, rfl⟩
abbrev main_v127 : Ref sig .tc := ⟨.hbm, 258, rfl⟩
abbrev main_v128 : Ref sig .tc := ⟨.hbm, 259, rfl⟩
abbrev main_c_25 : Ref sig .tc := ⟨.hbm, 260, rfl⟩
abbrev main_v129 : Ref sig .tc := ⟨.hbm, 261, rfl⟩
abbrev main_v130 : Ref sig .tc := ⟨.hbm, 262, rfl⟩
abbrev main_v131 : Ref sig .tc := ⟨.hbm, 263, rfl⟩
abbrev main_v132 : Ref sig .tc := ⟨.hbm, 264, rfl⟩
abbrev main_v133 : Ref sig .tc := ⟨.hbm, 265, rfl⟩
abbrev main_v134 : Ref sig .tc := ⟨.hbm, 266, rfl⟩
abbrev main_v135 : Ref sig .tc := ⟨.hbm, 267, rfl⟩
abbrev main_v136 : Ref sig .tc := ⟨.hbm, 268, rfl⟩
abbrev main_cst_26 : Ref sig .tc := ⟨.hbm, 269, rfl⟩
abbrev main_v137 : Ref sig .tc := ⟨.hbm, 270, rfl⟩
abbrev main_cst_27 : Ref sig .tc := ⟨.hbm, 271, rfl⟩
abbrev main_v138 : Ref sig .tc := ⟨.hbm, 272, rfl⟩
abbrev main_v139 : Ref sig .tc := ⟨.hbm, 273, rfl⟩
abbrev main_v140 : Ref sig .tc := ⟨.hbm, 274, rfl⟩
abbrev main_v141 : Ref sig .tc := ⟨.hbm, 275, rfl⟩
abbrev main_v142 : Ref sig .tc := ⟨.hbm, 276, rfl⟩
abbrev main_v143 : Ref sig .tc := ⟨.hbm, 277, rfl⟩
abbrev main_v144 : Ref sig .tc := ⟨.hbm, 278, rfl⟩
abbrev main_c_28 : Ref sig .tc := ⟨.hbm, 279, rfl⟩
abbrev main_call5_v0 : Ref sig .tc := ⟨.hbm, 280, rfl⟩
abbrev main_call5_c : Ref sig .tc := ⟨.hbm, 281, rfl⟩
abbrev main_call5_v1 : Ref sig .tc := ⟨.hbm, 282, rfl⟩
abbrev main_call5_c_0 : Ref sig .tc := ⟨.hbm, 283, rfl⟩
abbrev main_call5_v2 : Ref sig .tc := ⟨.hbm, 284, rfl⟩
abbrev main_call5_v3 : Ref sig .tc := ⟨.hbm, 285, rfl⟩
abbrev main_call5_v4 : Ref sig .tc := ⟨.hbm, 286, rfl⟩
abbrev main_call5_c_1 : Ref sig .tc := ⟨.hbm, 287, rfl⟩
abbrev main_call5_v5 : Ref sig .tc := ⟨.hbm, 288, rfl⟩
abbrev main_call5_v6 : Ref sig .tc := ⟨.hbm, 289, rfl⟩
abbrev main_call5_c_2 : Ref sig .tc := ⟨.hbm, 290, rfl⟩
abbrev main_call5_v7 : Ref sig .tc := ⟨.hbm, 291, rfl⟩
abbrev main_call5_v8 : Ref sig .tc := ⟨.hbm, 292, rfl⟩
abbrev main_call5_c_3 : Ref sig .tc := ⟨.hbm, 293, rfl⟩
abbrev main_call5_v9 : Ref sig .tc := ⟨.hbm, 294, rfl⟩
abbrev main_call5_v10 : Ref sig .tc := ⟨.hbm, 295, rfl⟩
abbrev main_call5_v11 : Ref sig .tc := ⟨.hbm, 296, rfl⟩
abbrev main_call5_v12 : Ref sig .tc := ⟨.hbm, 297, rfl⟩
abbrev main_call5_v13 : Ref sig .tc := ⟨.hbm, 298, rfl⟩
abbrev main_call5_v14 : Ref sig .tc := ⟨.hbm, 299, rfl⟩
abbrev main_v145 : Ref sig .tc := ⟨.hbm, 300, rfl⟩
abbrev main_c_29 : Ref sig .tc := ⟨.hbm, 301, rfl⟩
abbrev main_v146 : Ref sig .tc := ⟨.hbm, 302, rfl⟩
abbrev main_v147 : Ref sig .tc := ⟨.hbm, 303, rfl⟩
abbrev main_c_30 : Ref sig .tc := ⟨.hbm, 304, rfl⟩
abbrev main_v148 : Ref sig .tc := ⟨.hbm, 305, rfl⟩
abbrev main_v149 : Ref sig .tc := ⟨.hbm, 306, rfl⟩
abbrev main_v150 : Ref sig .tc := ⟨.hbm, 307, rfl⟩
abbrev main_v151 : Ref sig .tc := ⟨.hbm, 308, rfl⟩
abbrev main_v152 : Ref sig .tc := ⟨.hbm, 309, rfl⟩
abbrev main_v153 : Ref sig .tc := ⟨.hbm, 310, rfl⟩
abbrev main_v154 : Ref sig .tc := ⟨.hbm, 311, rfl⟩
abbrev main_v155 : Ref sig .tc := ⟨.hbm, 312, rfl⟩
abbrev main_v156 : Ref sig .tc := ⟨.hbm, 313, rfl⟩
abbrev main_v157 : Ref sig .tc := ⟨.hbm, 314, rfl⟩
abbrev main_v158 : Ref sig .tc := ⟨.hbm, 315, rfl⟩
abbrev main_v159 : Ref sig .tc := ⟨.hbm, 316, rfl⟩
abbrev main_v160 : Ref sig .tc := ⟨.hbm, 317, rfl⟩
abbrev main_v161 : Ref sig .tc := ⟨.hbm, 318, rfl⟩
abbrev main_v162 : Ref sig .tc := ⟨.hbm, 319, rfl⟩
abbrev main_v163 : Ref sig .tc := ⟨.hbm, 320, rfl⟩
abbrev main_v164 : Ref sig .tc := ⟨.hbm, 321, rfl⟩
abbrev main_v165 : Ref sig .tc := ⟨.hbm, 322, rfl⟩
abbrev main_v166 : Ref sig .tc := ⟨.hbm, 323, rfl⟩
abbrev main_v167 : Ref sig .tc := ⟨.hbm, 324, rfl⟩
abbrev main_v168 : Ref sig .tc := ⟨.hbm, 325, rfl⟩
abbrev main_c_31 : Ref sig .tc := ⟨.hbm, 326, rfl⟩
abbrev main_call6_v0 : Ref sig .tc := ⟨.hbm, 327, rfl⟩
abbrev main_call6_c : Ref sig .tc := ⟨.hbm, 328, rfl⟩
abbrev main_call6_v1 : Ref sig .tc := ⟨.hbm, 329, rfl⟩
abbrev main_call6_c_0 : Ref sig .tc := ⟨.hbm, 330, rfl⟩
abbrev main_call6_v2 : Ref sig .tc := ⟨.hbm, 331, rfl⟩
abbrev main_call6_v3 : Ref sig .tc := ⟨.hbm, 332, rfl⟩
abbrev main_call6_v4 : Ref sig .tc := ⟨.hbm, 333, rfl⟩
abbrev main_call6_c_1 : Ref sig .tc := ⟨.hbm, 334, rfl⟩
abbrev main_call6_v5 : Ref sig .tc := ⟨.hbm, 335, rfl⟩
abbrev main_call6_v6 : Ref sig .tc := ⟨.hbm, 336, rfl⟩
abbrev main_call6_c_2 : Ref sig .tc := ⟨.hbm, 337, rfl⟩
abbrev main_call6_v7 : Ref sig .tc := ⟨.hbm, 338, rfl⟩
abbrev main_call6_v8 : Ref sig .tc := ⟨.hbm, 339, rfl⟩
abbrev main_call6_c_3 : Ref sig .tc := ⟨.hbm, 340, rfl⟩
abbrev main_call6_v9 : Ref sig .tc := ⟨.hbm, 341, rfl⟩
abbrev main_call6_v10 : Ref sig .tc := ⟨.hbm, 342, rfl⟩
abbrev main_call6_v11 : Ref sig .tc := ⟨.hbm, 343, rfl⟩
abbrev main_call6_v12 : Ref sig .tc := ⟨.hbm, 344, rfl⟩
abbrev main_call6_v13 : Ref sig .tc := ⟨.hbm, 345, rfl⟩
abbrev main_call6_v14 : Ref sig .tc := ⟨.hbm, 346, rfl⟩
abbrev main_v169 : Ref sig .tc := ⟨.hbm, 347, rfl⟩
abbrev main_c_32 : Ref sig .tc := ⟨.hbm, 348, rfl⟩
abbrev main_v170 : Ref sig .tc := ⟨.hbm, 349, rfl⟩
abbrev main_v171 : Ref sig .tc := ⟨.hbm, 350, rfl⟩
abbrev main_c_33 : Ref sig .tc := ⟨.hbm, 351, rfl⟩
abbrev main_v172 : Ref sig .tc := ⟨.hbm, 352, rfl⟩
abbrev main_v173 : Ref sig .tc := ⟨.hbm, 353, rfl⟩
abbrev main_v174 : Ref sig .tc := ⟨.hbm, 354, rfl⟩
abbrev main_c_34 : Ref sig .tc := ⟨.hbm, 355, rfl⟩
abbrev main_v175 : Ref sig .tc := ⟨.hbm, 356, rfl⟩
abbrev main_v176 : Ref sig .tc := ⟨.hbm, 357, rfl⟩
abbrev main_c_35 : Ref sig .tc := ⟨.hbm, 358, rfl⟩
abbrev main_v177 : Ref sig .tc := ⟨.hbm, 359, rfl⟩
abbrev main_v178 : Ref sig .tc := ⟨.hbm, 360, rfl⟩
abbrev main_v179 : Ref sig .tc := ⟨.hbm, 361, rfl⟩
abbrev main_v180 : Ref sig .tc := ⟨.hbm, 362, rfl⟩
abbrev main_v181 : Ref sig .tc := ⟨.hbm, 363, rfl⟩
abbrev main_v182 : Ref sig .tc := ⟨.hbm, 364, rfl⟩
abbrev main_v183 : Ref sig .tc := ⟨.hbm, 365, rfl⟩
abbrev main_v184 : Ref sig .tc := ⟨.hbm, 366, rfl⟩
abbrev main_cst_36 : Ref sig .tc := ⟨.hbm, 367, rfl⟩
abbrev main_v185 : Ref sig .tc := ⟨.hbm, 368, rfl⟩
abbrev main_cst_37 : Ref sig .tc := ⟨.hbm, 369, rfl⟩
abbrev main_v186 : Ref sig .tc := ⟨.hbm, 370, rfl⟩
abbrev main_v187 : Ref sig .tc := ⟨.hbm, 371, rfl⟩
abbrev main_v188 : Ref sig .tc := ⟨.hbm, 372, rfl⟩
abbrev main_v189 : Ref sig .tc := ⟨.hbm, 373, rfl⟩
abbrev main_v190 : Ref sig .tc := ⟨.hbm, 374, rfl⟩
abbrev main_v191 : Ref sig .tc := ⟨.hbm, 375, rfl⟩
abbrev main_v192 : Ref sig .tc := ⟨.hbm, 376, rfl⟩
abbrev main_c_38 : Ref sig .tc := ⟨.hbm, 377, rfl⟩
abbrev main_call7_v0 : Ref sig .tc := ⟨.hbm, 378, rfl⟩
abbrev main_call7_c : Ref sig .tc := ⟨.hbm, 379, rfl⟩
abbrev main_call7_v1 : Ref sig .tc := ⟨.hbm, 380, rfl⟩
abbrev main_call7_c_0 : Ref sig .tc := ⟨.hbm, 381, rfl⟩
abbrev main_call7_v2 : Ref sig .tc := ⟨.hbm, 382, rfl⟩
abbrev main_call7_v3 : Ref sig .tc := ⟨.hbm, 383, rfl⟩
abbrev main_call7_v4 : Ref sig .tc := ⟨.hbm, 384, rfl⟩
abbrev main_call7_c_1 : Ref sig .tc := ⟨.hbm, 385, rfl⟩
abbrev main_call7_v5 : Ref sig .tc := ⟨.hbm, 386, rfl⟩
abbrev main_call7_v6 : Ref sig .tc := ⟨.hbm, 387, rfl⟩
abbrev main_call7_c_2 : Ref sig .tc := ⟨.hbm, 388, rfl⟩
abbrev main_call7_v7 : Ref sig .tc := ⟨.hbm, 389, rfl⟩
abbrev main_call7_v8 : Ref sig .tc := ⟨.hbm, 390, rfl⟩
abbrev main_call7_c_3 : Ref sig .tc := ⟨.hbm, 391, rfl⟩
abbrev main_call7_v9 : Ref sig .tc := ⟨.hbm, 392, rfl⟩
abbrev main_call7_v10 : Ref sig .tc := ⟨.hbm, 393, rfl⟩
abbrev main_call7_v11 : Ref sig .tc := ⟨.hbm, 394, rfl⟩
abbrev main_call7_v12 : Ref sig .tc := ⟨.hbm, 395, rfl⟩
abbrev main_call7_v13 : Ref sig .tc := ⟨.hbm, 396, rfl⟩
abbrev main_call7_v14 : Ref sig .tc := ⟨.hbm, 397, rfl⟩
abbrev main_v193 : Ref sig .tc := ⟨.hbm, 398, rfl⟩
abbrev main_c_39 : Ref sig .tc := ⟨.hbm, 399, rfl⟩
abbrev main_v194 : Ref sig .tc := ⟨.hbm, 400, rfl⟩
abbrev main_v195 : Ref sig .tc := ⟨.hbm, 401, rfl⟩
abbrev main_c_40 : Ref sig .tc := ⟨.hbm, 402, rfl⟩
abbrev main_v196 : Ref sig .tc := ⟨.hbm, 403, rfl⟩
abbrev main_v197 : Ref sig .tc := ⟨.hbm, 404, rfl⟩
abbrev main_v198 : Ref sig .tc := ⟨.hbm, 405, rfl⟩
abbrev main_v199 : Ref sig .tc := ⟨.hbm, 406, rfl⟩
abbrev main_v200 : Ref sig .tc := ⟨.hbm, 407, rfl⟩
abbrev main_v201 : Ref sig .tc := ⟨.hbm, 408, rfl⟩
abbrev main_v202 : Ref sig .tc := ⟨.hbm, 409, rfl⟩
abbrev main_v203 : Ref sig .tc := ⟨.hbm, 410, rfl⟩
abbrev main_v204 : Ref sig .tc := ⟨.hbm, 411, rfl⟩
abbrev main_v205 : Ref sig .tc := ⟨.hbm, 412, rfl⟩
abbrev main_v206 : Ref sig .tc := ⟨.hbm, 413, rfl⟩
abbrev main_v207 : Ref sig .tc := ⟨.hbm, 414, rfl⟩
abbrev main_v208 : Ref sig .tc := ⟨.hbm, 415, rfl⟩
abbrev main_v209 : Ref sig .tc := ⟨.hbm, 416, rfl⟩

abbrev nD : Nat := 1
abbrev τ : Topo := Topo.v7x

variable {F : FTy → Type} [FloatOps F]

class Facts₀ : Prop where
  reducesTo_S5_S_d0 : S5.ReducesTo [0] S_
  h_S_ : 0 < S_.numel
  bcast_S_S1 : S_.BroadcastsInDim S1 (![] : Fin 0 → Fin S1.rank)
  bcast_S1_S5_0 : S1.BroadcastsInDim S5 (![0] : Fin 1 → Fin S5.rank)
  slices_S5_S1_0 : S5.Slices ![0] S1
  shapeCasts_S1_S_ : S1.ShapeCasts S_
  bcast_S_S4096x1024 : S_.BroadcastsInDim S4096x1024 (![] : Fin 0 → Fin S4096x1024.rank)
  slices_S5_S1_1 : S5.Slices ![1] S1
  shapeCasts_S4096x1024_S2048x2x512x2 : S4096x1024.ShapeCasts S2048x2x512x2
  transposes_S2048x2x512x2_S2048x512x2x2_0_2_1_3 : S2048x2x512x2.Transposes [0, 2, 1, 3] S2048x512x2x2
  bcast_S2_S2x1_0 : S2.BroadcastsInDim S2x1 (![0] : Fin 1 → Fin S2x1.rank)
  bcast_S2_S1x2_1 : S2.BroadcastsInDim S1x2 (![1] : Fin 1 → Fin S1x2.rank)
  bcast_S2x1_S2x2_0_1 : S2x1.BroadcastsInDim S2x2 (![0, 1] : Fin 2 → Fin S2x2.rank)
  bcast_S1x2_S2x2_0_1 : S1x2.BroadcastsInDim S2x2 (![0, 1] : Fin 2 → Fin S2x2.rank)
  bcast_S_S2x2 : S_.BroadcastsInDim S2x2 (![] : Fin 0 → Fin S2x2.rank)
  bcast_S_S2x1 : S_.BroadcastsInDim S2x1 (![] : Fin 0 → Fin S2x1.rank)
  bcast_S2x2_S2x2x1_0_1 : S2x2.BroadcastsInDim S2x2x1 (![0, 1] : Fin 2 → Fin S2x2x1.rank)
  concatenates_S2x2x1_S2x2x1_S2x2x2_d2 : Shape.Concatenates [S2x2x1, S2x2x1] S2x2x2 2
  reducesTo_S2048x512x2x2_S2048x512x2_d2 : S2048x512x2x2.ReducesTo [2] S2048x512x2
  bcast_S_S2048x512x2 : S_.BroadcastsInDim S2048x512x2 (![] : Fin 0 → Fin S2048x512x2.rank)
  transposes_S2048x512x2x2_S2048x2x512x2_0_2_1_3 : S2048x512x2x2.Transposes [0, 2, 1, 3] S2048x2x512x2
  shapeCasts_S2048x2x512x2_S4096x1024 : S2048x2x512x2.ShapeCasts S4096x1024
  slices_S5_S1_2 : S5.Slices ![2] S1
  shapeCasts_S4096x1024_S1024x4x256x4 : S4096x1024.ShapeCasts S1024x4x256x4
  transposes_S1024x4x256x4_S1024x256x4x4_0_2_1_3 : S1024x4x256x4.Transposes [0, 2, 1, 3] S1024x256x4x4
  bcast_S4_S4x1_0 : S4.BroadcastsInDim S4x1 (![0] : Fin 1 → Fin S4x1.rank)
  bcast_S4_S1x4_1 : S4.BroadcastsInDim S1x4 (![1] : Fin 1 → Fin S1x4.rank)
  bcast_S4x1_S4x4_0_1 : S4x1.BroadcastsInDim S4x4 (![0, 1] : Fin 2 → Fin S4x4.rank)
  bcast_S1x4_S4x4_0_1 : S1x4.BroadcastsInDim S4x4 (![0, 1] : Fin 2 → Fin S4x4.rank)
  bcast_S_S4x4 : S_.BroadcastsInDim S4x4 (![] : Fin 0 → Fin S4x4.rank)
  bcast_S_S4x1 : S_.BroadcastsInDim S4x1 (![] : Fin 0 → Fin S4x1.rank)
  bcast_S4x4_S4x4x1_0_1 : S4x4.BroadcastsInDim S4x4x1 (![0, 1] : Fin 2 → Fin S4x4x1.rank)
  concatenates_S4x4x1_S4x4x1_S4x4x2_d2 : Shape.Concatenates [S4x4x1, S4x4x1] S4x4x2 2
  reducesTo_S1024x256x4x4_S1024x256x4_d2 : S1024x256x4x4.ReducesTo [2] S1024x256x4
  bcast_S_S1024x256x4 : S_.BroadcastsInDim S1024x256x4 (![] : Fin 0 → Fin S1024x256x4.rank)
  transposes_S1024x256x4x4_S1024x4x256x4_0_2_1_3 : S1024x256x4x4.Transposes [0, 2, 1, 3] S1024x4x256x4
  shapeCasts_S1024x4x256x4_S4096x1024 : S1024x4x256x4.ShapeCasts S4096x1024
  slices_S5_S1_3 : S5.Slices ![3] S1
  shapeCasts_S4096x1024_S512x8x128x8 : S4096x1024.ShapeCasts S512x8x128x8
  transposes_S512x8x128x8_S512x128x8x8_0_2_1_3 : S512x8x128x8.Transposes [0, 2, 1, 3] S512x128x8x8
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  bcast_S_S8x8 : S_.BroadcastsInDim S8x8 (![] : Fin 0 → Fin S8x8.rank)
  bcast_S_S8x1 : S_.BroadcastsInDim S8x1 (![] : Fin 0 → Fin S8x1.rank)
  bcast_S8x8_S8x8x1_0_1 : S8x8.BroadcastsInDim S8x8x1 (![0, 1] : Fin 2 → Fin S8x8x1.rank)
  concatenates_S8x8x1_S8x8x1_S8x8x2_d2 : Shape.Concatenates [S8x8x1, S8x8x1] S8x8x2 2
  reducesTo_S512x128x8x8_S512x128x8_d2 : S512x128x8x8.ReducesTo [2] S512x128x8
  bcast_S_S512x128x8 : S_.BroadcastsInDim S512x128x8 (![] : Fin 0 → Fin S512x128x8.rank)
  transposes_S512x128x8x8_S512x8x128x8_0_2_1_3 : S512x128x8x8.Transposes [0, 2, 1, 3] S512x8x128x8
  shapeCasts_S512x8x128x8_S4096x1024 : S512x8x128x8.ShapeCasts S4096x1024
  slices_S5_S1_4 : S5.Slices ![4] S1
  shapeCasts_S4096x1024_S256x16x64x16 : S4096x1024.ShapeCasts S256x16x64x16
  transposes_S256x16x64x16_S256x64x16x16_0_2_1_3 : S256x16x64x16.Transposes [0, 2, 1, 3] S256x64x16x16
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bcast_S_S16x1 : S_.BroadcastsInDim S16x1 (![] : Fin 0 → Fin S16x1.rank)
  bcast_S16x16_S16x16x1_0_1 : S16x16.BroadcastsInDim S16x16x1 (![0, 1] : Fin 2 → Fin S16x16x1.rank)
  concatenates_S16x16x1_S16x16x1_S16x16x2_d2 : Shape.Concatenates [S16x16x1, S16x16x1] S16x16x2 2
  reducesTo_S256x64x16x16_S256x64x16_d2 : S256x64x16x16.ReducesTo [2] S256x64x16
  bcast_S_S256x64x16 : S_.BroadcastsInDim S256x64x16 (![] : Fin 0 → Fin S256x64x16.rank)
  transposes_S256x64x16x16_S256x16x64x16_0_2_1_3 : S256x64x16x16.Transposes [0, 2, 1, 3] S256x16x64x16
  shapeCasts_S256x16x64x16_S4096x1024 : S256x16x64x16.ShapeCasts S4096x1024
  bcast_S4096_S1x1x4096_2 : S4096.BroadcastsInDim S1x1x4096 (![2] : Fin 1 → Fin S1x1x4096.rank)
  bcast_S1x1x4096_S16x512x4096_0_1_2 : S1x1x4096.BroadcastsInDim S16x512x4096 (![0, 1, 2] : Fin 3 → Fin S16x512x4096.rank)
  gather_S2048x512x2x2_S2x2x2_S2048x512x2x2_01_23_n_n_23_2_204851211_wf : GatherDims.WF S2048x512x2x2 S2x2x2 S2048x512x2x2 [0, 1] [2, 3] [] [2, 3] [] 2 ![2048, 512, 1, 1]
  gather_S2048x512x2_S2x2x1_S2048x512x2x2_01_2_n_n_2_2_20485121_wf : GatherDims.WF S2048x512x2 S2x2x1 S2048x512x2x2 [0, 1] [2] [] [2] [] 2 ![2048, 512, 1]
  gather_S1024x256x4x4_S4x4x2_S1024x256x4x4_01_23_n_n_23_2_102425611_wf : GatherDims.WF S1024x256x4x4 S4x4x2 S1024x256x4x4 [0, 1] [2, 3] [] [2, 3] [] 2 ![1024, 256, 1, 1]
  gather_S1024x256x4_S4x4x1_S1024x256x4x4_01_2_n_n_2_2_10242561_wf : GatherDims.WF S1024x256x4 S4x4x1 S1024x256x4x4 [0, 1] [2] [] [2] [] 2 ![1024, 256, 1]
  gather_S512x128x8x8_S8x8x2_S512x128x8x8_01_23_n_n_23_2_51212811_wf : GatherDims.WF S512x128x8x8 S8x8x2 S512x128x8x8 [0, 1] [2, 3] [] [2, 3] [] 2 ![512, 128, 1, 1]
  gather_S512x128x8_S8x8x1_S512x128x8x8_01_2_n_n_2_2_5121281_wf : GatherDims.WF S512x128x8 S8x8x1 S512x128x8x8 [0, 1] [2] [] [2] [] 2 ![512, 128, 1]
  gather_S256x64x16x16_S16x16x2_S256x64x16x16_01_23_n_n_23_2_2566411_wf : GatherDims.WF S256x64x16x16 S16x16x2 S256x64x16x16 [0, 1] [2, 3] [] [2, 3] [] 2 ![256, 64, 1, 1]
  gather_S256x64x16_S16x16x1_S256x64x16x16_01_2_n_n_2_2_256641_wf : GatherDims.WF S256x64x16 S16x16x1 S256x64x16x16 [0, 1] [2] [] [2] [] 2 ![256, 64, 1]
  dot_S16x512x1024_S4096x1024_S16x512x4096_2_1_01_0_n_n_wf : DotDims.WF S16x512x1024 S4096x1024 S16x512x4096 [2] [1] [0, 1] [0] [] []

variable [Facts₀]

def gather_S2048x512x2x2_S2x2x2_S2048x512x2x2_01_23_n_n_23_2_204851211 : GatherDims S2048x512x2x2 S2x2x2 S2048x512x2x2 where
  offsetDims := [0, 1]
  collapsedSliceDims := [2, 3]
  operandBatchingDims := []
  startIndicesBatchingDims := []
  startIndexMap := [2, 3]
  indexVectorDim := 2
  sliceSizes := ![2048, 512, 1, 1]
  wf := gather_S2048x512x2x2_S2x2x2_S2048x512x2x2_01_23_n_n_23_2_204851211_wf
def gather_S2048x512x2_S2x2x1_S2048x512x2x2_01_2_n_n_2_2_20485121 : GatherDims S2048x512x2 S2x2x1 S2048x512x2x2 where
  offsetDims := [0, 1]
  collapsedSliceDims := [2]
  operandBatchingDims := []
  startIndicesBatchingDims := []
  startIndexMap := [2]
  indexVectorDim := 2
  sliceSizes := ![2048, 512, 1]
  wf := gather_S2048x512x2_S2x2x1_S2048x512x2x2_01_2_n_n_2_2_20485121_wf
def gather_S1024x256x4x4_S4x4x2_S1024x256x4x4_01_23_n_n_23_2_102425611 : GatherDims S1024x256x4x4 S4x4x2 S1024x256x4x4 where
  offsetDims := [0, 1]
  collapsedSliceDims := [2, 3]
  operandBatchingDims := []
  startIndicesBatchingDims := []
  startIndexMap := [2, 3]
  indexVectorDim := 2
  sliceSizes := ![1024, 256, 1, 1]
  wf := gather_S1024x256x4x4_S4x4x2_S1024x256x4x4_01_23_n_n_23_2_102425611_wf
def gather_S1024x256x4_S4x4x1_S1024x256x4x4_01_2_n_n_2_2_10242561 : GatherDims S1024x256x4 S4x4x1 S1024x256x4x4 where
  offsetDims := [0, 1]
  collapsedSliceDims := [2]
  operandBatchingDims := []
  startIndicesBatchingDims := []
  startIndexMap := [2]
  indexVectorDim := 2
  sliceSizes := ![1024, 256, 1]
  wf := gather_S1024x256x4_S4x4x1_S1024x256x4x4_01_2_n_n_2_2_10242561_wf
def gather_S512x128x8x8_S8x8x2_S512x128x8x8_01_23_n_n_23_2_51212811 : GatherDims S512x128x8x8 S8x8x2 S512x128x8x8 where
  offsetDims := [0, 1]
  collapsedSliceDims := [2, 3]
  operandBatchingDims := []
  startIndicesBatchingDims := []
  startIndexMap := [2, 3]
  indexVectorDim := 2
  sliceSizes := ![512, 128, 1, 1]
  wf := gather_S512x128x8x8_S8x8x2_S512x128x8x8_01_23_n_n_23_2_51212811_wf
def gather_S512x128x8_S8x8x1_S512x128x8x8_01_2_n_n_2_2_5121281 : GatherDims S512x128x8 S8x8x1 S512x128x8x8 where
  offsetDims := [0, 1]
  collapsedSliceDims := [2]
  operandBatchingDims := []
  startIndicesBatchingDims := []
  startIndexMap := [2]
  indexVectorDim := 2
  sliceSizes := ![512, 128, 1]
  wf := gather_S512x128x8_S8x8x1_S512x128x8x8_01_2_n_n_2_2_5121281_wf
def gather_S256x64x16x16_S16x16x2_S256x64x16x16_01_23_n_n_23_2_2566411 : GatherDims S256x64x16x16 S16x16x2 S256x64x16x16 where
  offsetDims := [0, 1]
  collapsedSliceDims := [2, 3]
  operandBatchingDims := []
  startIndicesBatchingDims := []
  startIndexMap := [2, 3]
  indexVectorDim := 2
  sliceSizes := ![256, 64, 1, 1]
  wf := gather_S256x64x16x16_S16x16x2_S256x64x16x16_01_23_n_n_23_2_2566411_wf
def gather_S256x64x16_S16x16x1_S256x64x16x16_01_2_n_n_2_2_256641 : GatherDims S256x64x16 S16x16x1 S256x64x16x16 where
  offsetDims := [0, 1]
  collapsedSliceDims := [2]
  operandBatchingDims := []
  startIndicesBatchingDims := []
  startIndexMap := [2]
  indexVectorDim := 2
  sliceSizes := ![256, 64, 1]
  wf := gather_S256x64x16_S16x16x1_S256x64x16x16_01_2_n_n_2_2_256641_wf
def dot_S16x512x1024_S4096x1024_S16x512x4096_2_1_01_0_n_n : DotDims S16x512x1024 S4096x1024 S16x512x4096 where
  lhsContracting := [2]
  rhsContracting := [1]
  lhsNonContracting := [0, 1]
  rhsNonContracting := [0]
  lhsBatch := []
  rhsBatch := []
  wf := dot_S16x512x1024_S4096x1024_S16x512x4096_2_1_01_0_n_n_wf

class Facts : Prop extends Facts₀ where

variable [Facts]
-- ==== Proof.Payload.lean ====
/-
  The kernel body's arithmetic at one entry of its output block, over the extended reals.
  The body loads a [512,1024] block of x, a [1024,1024] block of W and a [1,1024] block of the bias, narrows the first two
  to bf16 (the identity on extended reals), multiplies them contracting the SECOND axis of both into a zero accumulator,
  and adds the bias row spread over the 512 rows. So entry (p, q) of what it stores is
      Σ_k x(p,k) · W(q,k)  +  b(0,q).
-/
import proofs.«144851_j33225867002303_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The contraction runs over one axis of extent 1024: its positions are the numbers below 1024. -/
abbrev kpos : dot_S512x1024_S1024x1024_S512x1024_1_1_0_0_n_n.contr.Idx ≃ Fin 1024 := contrEquiv1 dot_S512x1024_S1024x1024_S512x1024_1_1_0_0_n_n 1024 rfl rfl

/-- At output entry (p, q) and contraction position k the left operand is read at (p, k): it contracts its second axis. -/
theorem lhs_at (p : Fin 512) (q : Fin 1024) (k : Fin 1024) :
    dot_S512x1024_S1024x1024_S512x1024_1_1_0_0_n_n.lhsIdx (ix2 p q) (kpos.symm k) = ix2 p k := by
  funext a; apply Fin.ext
  match a with
  | ⟨0, _⟩ => rfl
  | ⟨1, _⟩ => exact (DotDims.lhsIdx_val_of_single _ rfl _ _).trans (contrEquiv1_symm_val _ _ _ _ k)

/-- And the right operand at (q, k): it contracts its second axis too (the product is with the transpose). -/
theorem rhs_at (p : Fin 512) (q : Fin 1024) (k : Fin 1024) :
    dot_S512x1024_S1024x1024_S512x1024_1_1_0_0_n_n.rhsIdx (ix2 p q) (kpos.symm k) = ix2 q k := by
  funext a; apply Fin.ext
  match a with
  | ⟨0, _⟩ => rfl
  | ⟨1, _⟩ => exact (DotDims.rhsIdx_val_of_single _ rfl _ _).trans (contrEquiv1_symm_val _ _ _ _ k)

/-- The payload with the identity shape casts dropped: the product into zero plus the spread bias row. -/
theorem pay_eq (x0 : Vec Ideal S512x1024 .f32) (x1 : Vec Ideal S1024x1024 .f32) (x2 : Vec Ideal S1x1024 .f32) :
    k0_pay1 (F := Ideal) x0 x1 x2
      = addf (matmul dot_S512x1024_S1024x1024_S512x1024_1_1_0_0_n_n none (truncf .bf16 x0 bitsLt_bf16_f32) (truncf .bf16 x1 bitsLt_bf16_f32) (constant S512x1024 .f32 0x00000000#32))
          (broadcastTo S512x1024 x2 broadcasts_S1x1024_S512x1024) := by
  unfold k0_pay1
  simp only [shapeCast_self]

/-- ENTRY (p, q) OF THE STORED BLOCK:  Σ_k x(p,k) · W(q,k) + b(0,q). -/
theorem pay_apply (x0 : Vec Ideal S512x1024 .f32) (x1 : Vec Ideal S1024x1024 .f32) (x2 : Vec Ideal S1x1024 .f32)
    (p : Fin 512) (q : Fin 1024) :
    k0_pay1 (F := Ideal) x0 x1 x2 (ix2 p q) = (∑ k : Fin 1024, x0 (ix2 p k) * x1 (ix2 q k)) + x2 (ix2 0 q) := by
  rw [pay_eq]
  refine (addf_apply _ _ _).trans ?_
  refine congrArg₂ (· + ·) ?_ ?_
  · refine (Ideal.matmul_constant_zero_apply _ none _ _ _).trans ?_
    rw [← Equiv.sum_comp kpos.symm]
    refine Finset.sum_congr rfl fun k _ => ?_
    rw [lhs_at, rhs_at]
    rfl
  · exact broadcastTo_apply _ _ _ _ (fun a => by match a with | ⟨0, _⟩ => rfl | ⟨1, _⟩ => rfl)

/-- Rows of X against rows of W, plus the bias row: the linear layer on flattened rows,
    lin X W B (r, o) = Σ_k X(r,k) · W(o,k) + B(0,o). -/
def lin (X : S8192x1024.Idx → EReal) (W : S4096x1024.Idx → EReal) (B : S1x4096.Idx → EReal) : S8192x4096.Idx → EReal :=
  fun i => (∑ k : Fin 1024, X (ix2 (i 0) k) * W (ix2 (i 1) k)) + B (ix2 0 (i 1))

/-- A stored block's entry (p, q) is lin at the array index i as soon as the three loaded blocks read the arrays there:
    row p of the first block is row (i 0) of X, row q of the second is row (i 1) of W, and the third block's column q is
    column (i 1) of B. -/
theorem block_of_lin (X : S8192x1024.Idx → EReal) (W : S4096x1024.Idx → EReal) (B : S1x4096.Idx → EReal)
    (x0 : Vec Ideal S512x1024 .f32) (x1 : Vec Ideal S1024x1024 .f32) (x2 : Vec Ideal S1x1024 .f32)
    (i : S8192x4096.Idx) (p : Fin 512) (q : Fin 1024)
    (h0 : ∀ k : Fin 1024, x0 (ix2 p k) = X (ix2 (i 0) k)) (h1 : ∀ k : Fin 1024, x1 (ix2 q k) = W (ix2 (i 1) k))
    (h2 : x2 (ix2 0 q) = B (ix2 0 (i 1))) :
    k0_pay1 (F := Ideal) x0 x1 x2 (ix2 p q) = lin X W B i := by
  rw [pay_apply]
  unfold lin
  simp only [h0, h1, h2]

end Cert.KernelIdeal.Body

end
-- ==== Proof.Blocks.lean ====
/-
  From the blocks to the array. The grid is 16 × 4: point (i, j) reads rows 512·i … of x, rows 1024·j … of W (all 1024
  columns of each), columns 1024·j … of the bias row, and writes the [512,1024] block (i, j) of the [8192,4096] output.
  Entry (p, q) of that block is Σ_k x(512·i + p, k) · W(1024·j + q, k) + b(0, 1024·j + q): block (i, j) of ONE function of
  the three arrays,
      lin X W B (r, o) = Σ_k X(r,k) · W(o,k) + B(0,o),
  and the 64 blocks tile the output, so the output array ends holding that function whole.
-/
import proofs.«144851_j33225867002303_1_alg».proof.Proof.Gen.KernelIdeal.Frame
import proofs.«144851_j33225867002303_1_alg».proof.Proof.Payload

set_option maxRecDepth 16384

noncomputable section

namespace Cert.KernelIdeal.Blocks

open Cert.KernelIdeal Cert.KernelIdeal.Gen Cert.KernelIdeal.Body Idealize.ShloMosaic Idealize.ShloMosaic.TcCoe Idealize.ShloMosaic.ValueIdx
open Idealize.SL.Sem Idealize.ShloMosaic.Pipeline

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 64 points: x's block follows the output's row block and W's and the bias's
    follow its column block, each at column block 0 or row block 0 of its own array. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 15 ∧ win0_3.index t (1 : Fin 2) ≤ 3 :=
  (by decide +kernel : ∀ t : Fin grid0.N, _)

/-- Every block of the output is some point's. -/
theorem idx_onto : ∀ (q0 : Fin 16) (q1 : Fin 4), ∃ t : Fin cfg0.N, win0_3.index t = ![q0.val, q1.val] :=
  (by decide +kernel : ∀ (q0 : Fin 16) (q1 : Fin 4), ∃ t : Fin grid0.N, win0_3.index t = ![q0.val, q1.val])

set_option maxHeartbeats 2000000 in
/-- WHAT POINT t WRITES BACK is block t of lin of the three arrays as the region finds them. -/
theorem flushed_eq (c : Dev nD) (t : Fin cfg0.N) :
    (dats m 0 c).flushed 3 t
      = ((cfg0.win 3).blk t).view.read (Elt Ideal) (lin (V m c main_v206) (V m c main_v205) (V m c main_v207)) := by
  show (cfg0.win 3).cut (grid0.coords t) ((dats m 0 c).after 3 t) = _
  rw [after0_3]
  unfold out0_3
  rw [View.canon_unit_zero hz]
  simp only [View.ld_unit_zero (S := S512x1024) hz, View.ld_unit_zero (S := S1024x1024) hz, View.ld_unit_zero (S := S1x1024) hz]
  obtain ⟨f0, f1, f2, f3, f4, f5, f6, f7⟩ := idx_facts t
  funext j
  obtain ⟨p, q, rfl⟩ : ∃ (p : Fin 512) (q : Fin 1024), j = ix2 p q := ⟨j 0, j 1, eq_ix2 j⟩
  show k0_pay1 (F := Ideal) (iblk m c 0 t) (iblk m c 1 t) (iblk m c 2 t) (ix2 p q)
      = lin (V m c main_v206) (V m c main_v205) (V m c main_v207) (((cfg0.win 3).blk t).view.emb (ix2 p q))
  refine block_of_lin (V m c main_v206) (V m c main_v205) (V m c main_v207) (iblk m c 0 t) (iblk m c 1 t) (iblk m c 2 t)
    (((cfg0.win 3).blk t).view.emb (ix2 p q)) p q ?_ ?_ ?_
  · intro k
    show V m c main_v206 (((cfg0.win 0).blk t).view.emb (ix2 p k)) = V m c main_v206 (ix2 ((((cfg0.win 3).blk t).view.emb (ix2 p q)) 0) k)
    have e : ((cfg0.win 0).blk t).view.emb (ix2 p k) = ix2 ((((cfg0.win 3).blk t).view.emb (ix2 p q)) 0) k := by
      funext a; apply Fin.ext
      match a with
      | ⟨0, _⟩ => show win0_0.index t (0 : Fin 2) * 512 + 1 * p.val = win0_3.index t (0 : Fin 2) * 512 + 1 * p.val; omega
      | ⟨1, _⟩ => show win0_0.index t (1 : Fin 2) * 1024 + 1 * k.val = k.val; omega
    rw [e]
    rfl
  · intro k
    show V m c main_v205 (((cfg0.win 1).blk t).view.emb (ix2 q k)) = V m c main_v205 (ix2 ((((cfg0.win 3).blk t).view.emb (ix2 p q)) 1) k)
    have e : ((cfg0.win 1).blk t).view.emb (ix2 q k) = ix2 ((((cfg0.win 3).blk t).view.emb (ix2 p q)) 1) k := by
      funext a; apply Fin.ext
      match a with
      | ⟨0, _⟩ => show win0_1.index t (0 : Fin 2) * 1024 + 1 * q.val = win0_3.index t (1 : Fin 2) * 1024 + 1 * q.val; omega
      | ⟨1, _⟩ => show win0_1.index t (1 : Fin 2) * 1024 + 1 * k.val = k.val; omega
    rw [e]
    rfl
  · show V m c main_v207 (((cfg0.win 2).blk t).view.emb (ix2 0 q)) = V m c main_v207 (ix2 0 ((((cfg0.win 3).blk t).view.emb (ix2 p q)) 1))
    have e : ((cfg0.win 2).blk t).view.emb (ix2 0 q) = ix2 0 ((((cfg0.win 3).blk t).view.emb (ix2 p q)) 1) := by
      funext a; apply Fin.ext
      match a with
      | ⟨0, _⟩ => show win0_2.index t (0 : Fin 2) * 1 + 1 * 0 = 0; omega
      | ⟨1, _⟩ => show win0_2.index t (1 : Fin 2) * 1024 + 1 * q.val = win0_3.index t (1 : Fin 2) * 1024 + 1 * q.val; omega
    rw [e]
    rfl

/-- An index of the output is in point t's block iff each coordinate is in the block's range on its axis. -/
theorem mem_blk (t : Fin cfg0.N) (i : S8192x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v208).slice (win0_3.rect t)).set ↔ _
  rw [View.set_slice_whole, Rect.mem_set_unit]
  exact Iff.rfl

/-- THE COVER: row r lies in row block r / 512, column o in column block o / 1024, and that block is some point's. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE OUTPUT ARRAY after the region: lin of the three arrays as the region finds them. -/
theorem final (c : Dev nD) :
    (dats m 0 c).arrAt 3 cfg0.N = lin (V m c main_v206) (V m c main_v205) (V m c main_v207) :=
  (dats m 0 c).arrAt_eq_of_cover 3 _ (fun t _ => flushed_eq m c t) cover

end Cert.KernelIdeal.Blocks

end
-- ==== Proof.KernelRun.lean ====
/-
  The kernel program's run, read at its result. Before the region the host flattens x to [8192,1024] rows and views the
  bias as a [1,4096] row; the region leaves the [8192,4096] array at  lin X W B (r, o) = Σ_k X(r,k)·W(o,k) + B(0,o)  of
  those and of the mixed weight W (whatever the host left in its buffer: it stays folded); after the region the host views
  the array as [16,512,4096]. The argument arrays end unchanged.
-/
import proofs.«144851_j33225867002303_1_alg».proof.Proof.Blocks
import Idealize.ShloMosaic.Lib.StableHlo.Run

set_option maxRecDepth 16384

noncomputable section

namespace Cert.KernelIdeal.Run

open Cert.KernelIdeal Cert.KernelIdeal.Gen Cert.KernelIdeal.Body Cert.KernelIdeal.Blocks
open Idealize.ShloMosaic Idealize.ShloMosaic.TcCoe Idealize.ShloMosaic.ValueIdx Idealize.ShloMosaic.StableHlo
open Idealize.SL.Sem Idealize.ShloMosaic.Pipeline

variable (m : (ℓ : Loc nD τ sig) → Buf (Elt Ideal) ℓ) (ρ : Dev nD → PrngReg)

set_option maxHeartbeats 4000000 in
/-- The first window's array is x with its two leading axes merged. -/
theorem V_rows (c : Dev nD) :
    (V m c main_v206 : S8192x1024.Idx → EReal)
      = shapeCast S8192x1024 (m ((c : Thread nD τ).loc main_arg0)) shapeCasts_S16x512x1024_S8192x1024 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) (Proc.devRef .tc main_v206) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 4000000 in
/-- The third window's array is the bias as one row. -/
theorem V_bias (c : Dev nD) :
    (V m c main_v207 : S1x4096.Idx → EReal)
      = shapeCast S1x4096 (m ((c : Thread nD τ).loc main_arg3)) shapeCasts_S4096_S1x4096 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) (Proc.devRef .tc main_v207) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- The kernel's weight: what the host operations before the region leave in the second window's array. -/
def weight (c : Dev nD) : S4096x1024.Idx → EReal := V m c main_v205

/-- What the program's result buffer holds in the end, as a term of the arguments and the weight. -/
def out (c : Dev nD) : S16x512x4096.Idx → EReal :=
  shapeCast S16x512x4096
    (lin (shapeCast S8192x1024 (m ((c : Thread nD τ).loc main_arg0)) shapeCasts_S16x512x1024_S8192x1024) (weight m c)
      (shapeCast S1x4096 (m ((c : Thread nD τ).loc main_arg3)) shapeCasts_S4096_S1x4096))
    shapeCasts_S8192x4096_S16x512x4096

/-- The one host operation after the region views the output array as [16,512,4096]. -/
theorem tail_eq (c : Dev nD) :
    Pipeline.afterTail₀ cfgs (dats m) 0 (V0 m) [hostOps1] c main_v209 = out m c := by
  unfold Pipeline.afterTail₀
  show StableHlo.after hostOps1 _ (Proc.devRef .tc main_v209) = _
  simp only [hostOps1]
  after_results
  unfold out weight
  rw [← V_rows m c, ← V_bias m c, ← Blocks.final m c]
  exact congrArg (fun z => shapeCast S16x512x4096 z shapeCasts_S8192x4096_S16x512x4096)
    (Pipeline.withArrays_arr spec0 launch0.win.arr_inj c _ _ 3)

/-- THE KERNEL PROGRAM'S RUN, READ: the result at out, the arguments unchanged. -/
theorem run : θ_run defs (onTc (τ := τ) (main (F := Ideal))) ⟨m, fun _ => 0, ρ⟩ fun r => ∀ c : Dev nD,
      r.2.mem ((c.tc : Thread nD τ).loc main_v209) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(((h c).2 main_v209 (Pipeline.mem_restRefs_of main_v209 (by decide) (by decide))).trans (tail_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.Run

end
-- ==== Proof.RefOps.lean ====
/- The reference program's @main as lists of its host operations, one list per window of the printed text, each call of a
   module-local function written out over that call's buffers; the last window is cut after the operation that writes
   `main_v205`, the mixed weight both programs compute. A table: the program restated, nothing argued. -/
import proofs.«144851_j33225867002303_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe

variable {F : FTy → Type} [FloatOps F]

/-- 80 operations. -/
abbrev ops_main_part0 : List (HloOp τ sig (Elt F)) :=
  [ StableHlo.nullary main_cst (constant S_ .f32 0xFF800000#32),
    StableHlo.binary main_arg2 main_cst main_v0 ((fun x v => Host.reduce FloatOps.maximumf x v reducesTo_S5_S_d0 h_S_) : (⟨S5, .f32⟩ : BufTy).Contents (Elt F) → (⟨S_, .f32⟩ : BufTy).Contents (Elt F) → (⟨S_, .f32⟩ : BufTy).Contents (Elt F)),
    StableHlo.nullary main_cst_0 (constant S_ .f32 0xFF800000#32),
    StableHlo.binary main_cst_0 main_v0 main_v1 (maximumf : (⟨S_, .f32⟩ : BufTy).Contents (Elt F) → (⟨S_, .f32⟩ : BufTy).Contents (Elt F) → (⟨S_, .f32⟩ : BufTy).Contents (Elt F)),
    StableHlo.unary main_v1 main_v2 (broadcastInDim S1 ![] bcast_S_S1 : (⟨S_, .f32⟩ : BufTy).Contents (Elt F) → (⟨S1, .f32⟩ : BufTy).Contents (Elt F)),
    StableHlo.unary main_v2 main_v3 (broadcastInDim S5 ![0] bcast_S1_S5_0 : (⟨S1, .f32⟩ : BufTy).Contents (Elt F) → (⟨S5, .f32⟩ : BufTy).Contents (Elt F)),
    StableHlo.binary main_arg2 main_v3 main_v4 (subf : (⟨S5, .f32⟩ : BufTy).Contents (Elt F) → (⟨S5, .f32⟩ : BufTy).Contents (Elt F) → (⟨S5, .f32⟩ : BufTy).Contents (Elt F)),
    StableHlo.unary main_v4 main_v5 (Host.exp : (⟨S5, .f32⟩ : BufTy).Contents (Elt F) → (⟨S5, .f32⟩ : BufTy).Contents (Elt F)),
    StableHlo.nullary main_cst_1 (constant S_ .f32 0x00000000#32),
    StableHlo.binary main_v5 main_cst_1 main_v6 ((fun x v => Host.reduceAdd x v reducesTo_S5_S_d0 h_S_) : (⟨S5, .f32⟩ : BufTy).Contents (Elt F) → (⟨S_, .f32⟩ : BufTy).Contents (Elt F) → (⟨S_, .f32⟩ : BufTy).Contents (Elt F)),
    StableHlo.unary main_v6 main_v7 (broadcastInDim S1 ![] bcast_S_S1 : (⟨S_, .f32⟩ : BufTy).Contents (Elt F) → (⟨S1, .f32⟩ : BufTy).Contents (Elt F)),
    StableHlo.unary main_v7 main_v8 (broadcastInDim S5 ![0] bcast_S1_S5_0 : (⟨S1, .f32⟩ : BufTy).Contents (Elt F) → (⟨S5, .f32⟩ : BufTy).Contents (Elt F)),
    StableHlo.binary main_v5 main_v8 main_v9 (Host.divf : (⟨S5, .f32⟩ : BufTy).Contents (Elt F) → (⟨S5, .f32⟩ : BufTy).Contents (Elt F) → (⟨S5, .f32⟩ : BufTy).Contents (Elt F)),
    StableHlo.unary main_v9 main_v10 ((extractStridedSlice S1 ![0] · slices_S5_S1_0) : (⟨S5, .f32⟩ : BufTy).Contents (Elt F) → (⟨S1, .f32⟩ : BufTy).Contents (Elt F)),
    StableHlo.reshape main_v10 main_v11 rfl shapeCasts_S1_S_,
    StableHlo.unary main_v11 main_v12 (broadcastInDim S4096x1024 ![] bcast_S_S4096x1024 : (⟨S_, .f32⟩ : BufTy).Contents (Elt F) → (⟨S4096x1024, .f32⟩ : BufTy).Contents (Elt F)),
    StableHlo.binary main_v12 main_arg1 main_v13 (mulf : (⟨S4096x1024, .f32⟩ : BufTy).Contents (Elt F) → (⟨S4096x1024, .f32⟩ : BufTy).Contents (Elt F) → (⟨S4096x1024, .f32⟩ : BufTy).Contents (Elt F)),
    StableHlo.unary main_v9 main_v14 ((extractStridedSlice S1 ![1] · slices_S5_S1_1) : (⟨S5, .f32⟩ : BufTy).Contents (Elt F) → (⟨S1, .f32⟩ : BufTy).Contents (Elt F)),
    StableHlo.reshape main_v14 main_v15 rfl shapeCasts_S1_S_,
    StableHlo.reshape main_arg1 main_v16 rfl shapeCasts_S4096x1024_S2048x2x512x2,
    StableHlo.unary main_v16 main_v17 ((transpose S2048x512x2x2 [0, 2, 1, 3] · transposes_S2048x2x512x2_S2048x512x2x2_0_2_1_3) : (⟨S2048x2x512x2, .f32⟩ : BufTy).Contents (Elt F) → (⟨S2048x512x2x2, .f32⟩ : BufTy).Contents (Elt F)),
    StableHlo.nullary main_v18 (iotaInDim S2 32 0),
    StableHlo.unary main_v18 main_v19 (broadcastInDim S2x1 ![0] bcast_S2_S2x1_0 : (⟨S2, .i32⟩ : BufTy).Contents (Elt F) → (⟨S2x1, .i32⟩ : BufTy).Contents (Elt F)),
    StableHlo.unary main_v18 main_v20 (broadcastInDim S2x1 ![0] bcast_S2_S2x1_0 : (⟨S2, .i32⟩ : BufTy).Contents (Elt F) → (⟨S2x1, .i32⟩ : BufTy).Contents (Elt F)),
    StableHlo.unary main_v18 main_v21 (broadcastInDim S1x2 ![1] bcast_S2_S1x2_1 : (⟨S2, .i32⟩ : BufTy).Contents (Elt F) → (⟨S1x2, .i32⟩ : BufTy).Contents (Elt F)),
    StableHlo.unary main_v20 main_v22 (broadcastInDim S2x2 ![0, 1] bcast_S2x1_S2x2_0_1 : (⟨S2x1, .i32⟩ : BufTy).Contents (Elt F) → (⟨S2x2, .i32⟩ : BufTy).Contents (Elt F)),
    StableHlo.unary main_v21 main_v23 (broadcastInDim S2x2 ![0, 1] bcast_S1x2_S2x2_0_1 : (⟨S1x2, .i32⟩ : BufTy).Contents (Elt F) → (⟨S2x2, .i32⟩ : BufTy).Contents (Elt F)),
    StableHlo.binary main_v22 main_v23 main_v24 (addi : (⟨S2x2, .i32⟩ : BufTy).Contents (Elt F) → (⟨S2x2, .i32⟩ : BufTy).Contents (Elt F) → (⟨S2x2, .i32⟩ : BufTy).Contents (Elt F)),
    StableHlo.nullary main_c (constantI S_ 32 2#32),
    StableHlo.TRef.unary (.of main_c : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S2x2 ![] bcast_S_S2x2),
    StableHlo.TRef.binary (.of main_v24 : StableHlo.TRef sig ⟨S2x2, .i32⟩) main_call0.v3 main_call0.v4 Host.remsi,
    StableHlo.TRef.nullary main_call0.c_1 (constantI S_ 32 0#32),
    StableHlo.TRef.unary main_call0.c_1 main_call0.v5 (broadcastInDim S2x2 ![] bcast_S_S2x2),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S2x2 ![] bcast_S_S2x2),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S2x2 ![] bcast_S_S2x2),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S2x2 ![] bcast_S_S2x2),
    StableHlo.TRef.binary main_call0.v4 main_call0.v13 main_call0.v14 addi,
    StableHlo.TRef.ternary main_call0.v12 main_call0.v14 main_call0.v4 main_call0.v15 select,
    StableHlo.nullary main_c_2 (constantI S_ 32 0#32),
    StableHlo.unary main_c_2 main_v26 (broadcastInDim S2x1 ![] bcast_S_S2x1 : (⟨S_, .i32⟩ : BufTy).Contents (Elt F) → (⟨S2x1, .i32⟩ : BufTy).Contents (Elt F)),
    StableHlo.binary main_v19 main_v26 main_v27 (cmpi .slt : (⟨S2x1, .i32⟩ : BufTy).Contents (Elt F) → (⟨S2x1, .i32⟩ : BufTy).Contents (Elt F) → (⟨S2x1, .i1⟩ : BufTy).Contents (Elt F)),
    StableHlo.nullary main_c_3 (constantI S_ 32 2#32),
    StableHlo.unary main_c_3 main_v28 (broadcastInDim S2x1 ![] bcast_S_S2x1 : (⟨S_, .i32⟩ : BufTy).Contents (Elt F) → (⟨S2x1, .i32⟩ : BufTy).Contents (Elt F)),
    StableHlo.binary main_v19 main_v28 main_v29 (addi : (⟨S2x1, .i32⟩ : BufTy).Contents (Elt F) → (⟨S2x1, .i32⟩ : BufTy).Contents (Elt F) → (⟨S2x1, .i32⟩ : BufTy).Contents (Elt F)),
    StableHlo.ternary main_v27 main_v29 main_v19 main_v30 (select : (⟨S2x1, .i1⟩ : BufTy).Contents (Elt F) → (⟨S2x1, .i32⟩ : BufTy).Contents (Elt F) → (⟨S2x1, .i32⟩ : BufTy).Contents (Elt F) → (⟨S2x1, .i32⟩ : BufTy).Contents (Elt F)),
    StableHlo.nullary main_c_4 (constantI S_ 32 0#32),
    StableHlo.unary main_c_4 main_v31 (broadcastInDim S2x2 ![] bcast_S_S2x2 : (⟨S_, .i32⟩ : BufTy).Contents (Elt F) → (⟨S2x2, .i32⟩ : BufTy).Contents (Elt F)),
    StableHlo.binary main_v25 main_v31 main_v32 (cmpi .slt : (⟨S2x2, .i32⟩ : BufTy).Contents (Elt F) → (⟨S2x2, .i32⟩ : BufTy).Contents (Elt F) → (⟨S2x2, .i1⟩ : BufTy).Contents (Elt F)),
    StableHlo.nullary main_c_5 (constantI S_ 32 2#32),
    StableHlo.unary main_c_5 main_v33 (broadcastInDim S2x2 ![] bcast_S_S2x2 : (⟨S_, .i32⟩ : BufTy).Contents (Elt F) → (⟨S2x2, .i32⟩ : BufTy).Contents (Elt F)),
    StableHlo.binary main_v25 main_v33 main_v34 (addi : (⟨S2x2, .i32⟩ : BufTy).Contents (Elt F) → (⟨S2x2, .i32⟩ : BufTy).Contents (Elt F) → (⟨S2x2, .i32⟩ : BufTy).Contents (Elt F)),
    StableHlo.ternary main_v32 main_v34 main_v25 main_v35 (select : (⟨S2x2, .i1⟩ : BufTy).Contents (Elt F) → (⟨S2x2, .i32⟩ : BufTy).Contents (Elt F) → (⟨S2x2, .i32⟩ : BufTy).Contents (Elt F) → (⟨S2x2, .i32⟩ : BufTy).Contents (Elt F)),
    StableHlo.unary main_v30 main_v36 (broadcastInDim S2x2 ![0, 1] bcast_S2x1_S2x2_0_1 : (⟨S2x1, .i32⟩ : BufTy).Contents (Elt F) → (⟨S2x2, .i32⟩ : BufTy).Contents (Elt F)),
    StableHlo.unary main_v36 main_v37 (broadcastInDim S2x2x1 ![0, 1] bcast_S2x2_S2x2x1_0_1 : (⟨S2x2, .i32⟩ : BufTy).Contents (Elt F) → (⟨S2x2x1, .i32⟩ : BufTy).Contents (Elt F)),
    StableHlo.unary main_v35 main_v38 (broadcastInDim S2x2x1 ![0, 1] bcast_S2x2_S2x2x1_0_1 : (⟨S2x2, .i32⟩ : BufTy).Contents (Elt F) → (⟨S2x2x1, .i32⟩ : BufTy).Contents (Elt F)),
    StableHlo.binary main_v37 main_v38 main_v39 ((fun a b => concatenate S2x2x2 2 [⟨S2x2x1, a⟩, ⟨S2x2x1, b⟩] concatenates_S2x2x1_S2x2x1_S2x2x2_d2) : (⟨S2x2x1, .i32⟩ : BufTy).Contents (Elt F) → (⟨S2x2x1, .i32⟩ : BufTy).Contents (Elt F) → (⟨S2x2x2, .i32⟩ : BufTy).Contents (Elt F)),
    StableHlo.binary main_v17 main_v39 main_v40 ((fun x i => Host.gather gather_S2048x512x2x2_S2x2x2_S2048x512x2x2_01_23_n_n_23_2_204851211 x i) : (⟨S2048x512x2x2, .f32⟩ : BufTy).Contents (Elt F) → (⟨S2x2x2, .i32⟩ : BufTy).Contents (Elt F) → (⟨S2048x512x2x2, .f32⟩ : BufTy).Contents (Elt F)),
    StableHlo.nullary main_cst_6 (constant S_ .f32 0x00000000#32),
    StableHlo.binary main_v40 main_cst_6 main_v41 ((fun x v => Host.reduceAdd x v reducesTo_S2048x512x2x2_S2048x512x2_d2 h_S_) : (⟨S2048x512x2x2, .f32⟩ : BufTy).Contents (Elt F) → (⟨S_, .f32⟩ : BufTy).Contents (Elt F) → (⟨S2048x512x2, .f32⟩ : BufTy).Contents (Elt F)),
    StableHlo.nullary main_cst_7 (constant S_ .f32 0x40000000#32),
    StableHlo.unary main_cst_7 main_v42 (broadcastInDim S2048x512x2 ![] bcast_S_S2048x512x2 : (⟨S_, .f32⟩ : BufTy).Contents (Elt F) → (⟨S2048x512x2, .f32⟩ : BufTy).Contents (Elt F)),
    StableHlo.binary main_v41 main_v42 main_v43 (Host.divf : (⟨S2048x512x2, .f32⟩ : BufTy).Contents (Elt F) → (⟨S2048x512x2, .f32⟩ : BufTy).Contents (Elt F) → (⟨S2048x512x2, .f32⟩ : BufTy).Contents (Elt F)),
    StableHlo.unary main_v18 main_v44 (broadcastInDim S2x1 ![0] bcast_S2_S2x1_0 : (⟨S2, .i32⟩ : BufTy).Contents (Elt F) → (⟨S2x1, .i32⟩ : BufTy).Contents (Elt F)),
    StableHlo.unary main_v18 main_v45 (broadcastInDim S1x2 ![1] bcast_S2_S1x2_1 : (⟨S2, .i32⟩ : BufTy).Contents (Elt F) → (⟨S1x2, .i32⟩ : BufTy).Contents (Elt F)),
    StableHlo.unary main_v44 main_v46 (broadcastInDim S2x2 ![0, 1] bcast_S2x1_S2x2_0_1 : (⟨S2x1, .i32⟩ : BufTy).Contents (Elt F) → (⟨S2x2, .i32⟩ : BufTy).Contents (Elt F)),
    StableHlo.unary main_v45 main_v47 (broadcastInDim S2x2 ![0, 1] bcast_S1x2_S2x2_0_1 : (⟨S1x2, .i32⟩ : BufTy).Contents (Elt F) → (⟨S2x2, .i32⟩ : BufTy).Contents (Elt F)),
    StableHlo.binary main_v46 main_v47 main_v48 (subi : (⟨S2x2, .i32⟩ : BufTy).Contents (Elt F) → (⟨S2x2, .i32⟩ : BufTy).Contents (Elt F) → (⟨S2x2, .i32⟩ : BufTy).Contents (Elt F)),
    StableHlo.nullary main_c_8 (constantI S_ 32 2#32) ]
/-- Each touches TensorCore references only: its builder's fact, in order. -/
theorem ops_main_part0_sub : (ops_main_part0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.binary_bufs_sub .., StableHlo.unary_bufs_sub .., StableHlo.reshape_bufs_sub .., StableHlo.reshape_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub ..⟩

/-- 120 operations. -/
abbrev ops_main_part1 : List (HloOp τ sig (Elt F)) :=
  [ StableHlo.TRef.unary (.of main_c_8 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S2x2 ![] bcast_S_S2x2),
    StableHlo.TRef.binary (.of main_v48 : StableHlo.TRef sig ⟨S2x2, .i32⟩) main_call1.v3 main_call1.v4 Host.remsi,
    StableHlo.TRef.nullary main_call1.c_1 (constantI S_ 32 0#32),
    StableHlo.TRef.unary main_call1.c_1 main_call1.v5 (broadcastInDim S2x2 ![] bcast_S_S2x2),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S2x2 ![] bcast_S_S2x2),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S2x2 ![] bcast_S_S2x2),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S2x2 ![] bcast_S_S2x2),
    StableHlo.TRef.binary main_call1.v4 main_call1.v13 main_call1.v14 addi,
    StableHlo.TRef.ternary main_call1.v12 main_call1.v14 main_call1.v4 main_call1.v15 select,
    StableHlo.nullary main_c_9 (constantI S_ 32 0#32),
    StableHlo.unary main_c_9 main_v50 (broadcastInDim S2x2 ![] bcast_S_S2x2 : (⟨S_, .i32⟩ : BufTy).Contents (Elt F) → (⟨S2x2, .i32⟩ : BufTy).Contents (Elt F)),
    StableHlo.binary main_v49 main_v50 main_v51 (cmpi .slt : (⟨S2x2, .i32⟩ : BufTy).Contents (Elt F) → (⟨S2x2, .i32⟩ : BufTy).Contents (Elt F) → (⟨S2x2, .i1⟩ : BufTy).Contents (Elt F)),
    StableHlo.nullary main_c_10 (constantI S_ 32 2#32),
    StableHlo.unary main_c_10 main_v52 (broadcastInDim S2x2 ![] bcast_S_S2x2 : (⟨S_, .i32⟩ : BufTy).Contents (Elt F) → (⟨S2x2, .i32⟩ : BufTy).Contents (Elt F)),
    StableHlo.binary main_v49 main_v52 main_v53 (addi : (⟨S2x2, .i32⟩ : BufTy).Contents (Elt F) → (⟨S2x2, .i32⟩ : BufTy).Contents (Elt F) → (⟨S2x2, .i32⟩ : BufTy).Contents (Elt F)),
    StableHlo.ternary main_v51 main_v53 main_v49 main_v54 (select : (⟨S2x2, .i1⟩ : BufTy).Contents (Elt F) → (⟨S2x2, .i32⟩ : BufTy).Contents (Elt F) → (⟨S2x2, .i32⟩ : BufTy).Contents (Elt F) → (⟨S2x2, .i32⟩ : BufTy).Contents (Elt F)),
    StableHlo.unary main_v54 main_v55 (broadcastInDim S2x2x1 ![0, 1] bcast_S2x2_S2x2x1_0_1 : (⟨S2x2, .i32⟩ : BufTy).Contents (Elt F) → (⟨S2x2x1, .i32⟩ : BufTy).Contents (Elt F)),
    StableHlo.binary main_v43 main_v55 main_v56 ((fun x i => Host.gather gather_S2048x512x2_S2x2x1_S2048x512x2x2_01_2_n_n_2_2_20485121 x i) : (⟨S2048x512x2, .f32⟩ : BufTy).Contents (Elt F) → (⟨S2x2x1, .i32⟩ : BufTy).Contents (Elt F) → (⟨S2048x512x2x2, .f32⟩ : BufTy).Contents (Elt F)),
    StableHlo.unary main_v56 main_v57 ((transpose S2048x2x512x2 [0, 2, 1, 3] · transposes_S2048x512x2x2_S2048x2x512x2_0_2_1_3) : (⟨S2048x512x2x2, .f32⟩ : BufTy).Contents (Elt F) → (⟨S2048x2x512x2, .f32⟩ : BufTy).Contents (Elt F)),
    StableHlo.reshape main_v57 main_v58 rfl shapeCasts_S2048x2x512x2_S4096x1024,
    StableHlo.unary main_v15 main_v59 (broadcastInDim S4096x1024 ![] bcast_S_S4096x1024 : (⟨S_, .f32⟩ : BufTy).Contents (Elt F) → (⟨S4096x1024, .f32⟩ : BufTy).Contents (Elt F)),
    StableHlo.binary main_v59 main_v58 main_v60 (mulf : (⟨S4096x1024, .f32⟩ : BufTy).Contents (Elt F) → (⟨S4096x1024, .f32⟩ : BufTy).Contents (Elt F) → (⟨S4096x1024, .f32⟩ : BufTy).Contents (Elt F)),
    StableHlo.binary main_v13 main_v60 main_v61 (addf : (⟨S4096x1024, .f32⟩ : BufTy).Contents (Elt F) → (⟨S4096x1024, .f32⟩ : BufTy).Contents (Elt F) → (⟨S4096x1024, .f32⟩ : BufTy).Contents (Elt F)),
    StableHlo.unary main_v9 main_v62 ((extractStridedSlice S1 ![2] · slices_S5_S1_2) : (⟨S5, .f32⟩ : BufTy).Contents (Elt F) → (⟨S1, .f32⟩ : BufTy).Contents (Elt F)),
    StableHlo.reshape main_v62 main_v63 rfl shapeCasts_S1_S_,
    StableHlo.reshape main_arg1 main_v64 rfl shapeCasts_S4096x1024_S1024x4x256x4,
    StableHlo.unary main_v64 main_v65 ((transpose S1024x256x4x4 [0, 2, 1, 3] · transposes_S1024x4x256x4_S1024x256x4x4_0_2_1_3) : (⟨S1024x4x256x4, .f32⟩ : BufTy).Contents (Elt F) → (⟨S1024x256x4x4, .f32⟩ : BufTy).Contents (Elt F)),
    StableHlo.nullary main_v66 (iotaInDim S4 32 0),
    StableHlo.unary main_v66 main_v67 (broadcastInDim S4x1 ![0] bcast_S4_S4x1_0 : (⟨S4, .i32⟩ : BufTy).Contents (Elt F) → (⟨S4x1, .i32⟩ : BufTy).Contents (Elt F)),
    StableHlo.unary main_v66 main_v68 (broadcastInDim S4x1 ![0] bcast_S4_S4x1_0 : (⟨S4, .i32⟩ : BufTy).Contents (Elt F) → (⟨S4x1, .i32⟩ : BufTy).Contents (Elt F)),
    StableHlo.unary main_v66 main_v69 (broadcastInDim S1x4 ![1] bcast_S4_S1x4_1 : (⟨S4, .i32⟩ : BufTy).Contents (Elt F) → (⟨S1x4, .i32⟩ : BufTy).Contents (Elt F)),
    StableHlo.unary main_v68 main_v70 (broadcastInDim S4x4 ![0, 1] bcast_S4x1_S4x4_0_1 : (⟨S4x1, .i32⟩ : BufTy).Contents (Elt F) → (⟨S4x4, .i32⟩ : BufTy).Contents (Elt F)),
    StableHlo.unary main_v69 main_v71 (broadcastInDim S4x4 ![0, 1] bcast_S1x4_S4x4_0_1 : (⟨S1x4, .i32⟩ : BufTy).Contents (Elt F) → (⟨S4x4, .i32⟩ : BufTy).Contents (Elt F)),
    StableHlo.binary main_v70 main_v71 main_v72 (addi : (⟨S4x4, .i32⟩ : BufTy).Contents (Elt F) → (⟨S4x4, .i32⟩ : BufTy).Contents (Elt F) → (⟨S4x4, .i32⟩ : BufTy).Contents (Elt F)),
    StableHlo.nullary main_c_11 (constantI S_ 32 4#32),
    StableHlo.TRef.unary (.of main_c_11 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S4x4 ![] bcast_S_S4x4),
    StableHlo.TRef.binary (.of main_v72 : StableHlo.TRef sig ⟨S4x4, .i32⟩) main_call2.v3 main_call2.v4 Host.remsi,
    StableHlo.TRef.nullary main_call2.c_1 (constantI S_ 32 0#32),
    StableHlo.TRef.unary main_call2.c_1 main_call2.v5 (broadcastInDim S4x4 ![] bcast_S_S4x4),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S4x4 ![] bcast_S_S4x4),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S4x4 ![] bcast_S_S4x4),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S4x4 ![] bcast_S_S4x4),
    StableHlo.TRef.binary main_call2.v4 main_call2.v13 main_call2.v14 addi,
    StableHlo.TRef.ternary main_call2.v12 main_call2.v14 main_call2.v4 main_call2.v15 select,
    StableHlo.nullary main_c_12 (constantI S_ 32 0#32),
    StableHlo.unary main_c_12 main_v74 (broadcastInDim S4x1 ![] bcast_S_S4x1 : (⟨S_, .i32⟩ : BufTy).Contents (Elt F) → (⟨S4x1, .i32⟩ : BufTy).Contents (Elt F)),
    StableHlo.binary main_v67 main_v74 main_v75 (cmpi .slt : (⟨S4x1, .i32⟩ : BufTy).Contents (Elt F) → (⟨S4x1, .i32⟩ : BufTy).Contents (Elt F) → (⟨S4x1, .i1⟩ : BufTy).Contents (Elt F)),
    StableHlo.nullary main_c_13 (constantI S_ 32 4#32),
    StableHlo.unary main_c_13 main_v76 (broadcastInDim S4x1 ![] bcast_S_S4x1 : (⟨S_, .i32⟩ : BufTy).Contents (Elt F) → (⟨S4x1, .i32⟩ : BufTy).Contents (Elt F)),
    StableHlo.binary main_v67 main_v76 main_v77 (addi : (⟨S4x1, .i32⟩ : BufTy).Contents (Elt F) → (⟨S4x1, .i32⟩ : BufTy).Contents (Elt F) → (⟨S4x1, .i32⟩ : BufTy).Contents (Elt F)),
    StableHlo.ternary main_v75 main_v77 main_v67 main_v78 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
    StableHlo.nullary main_c_14 (constantI S_ 32 0#32),
    StableHlo.unary main_c_14 main_v79 (broadcastInDim S4x4 ![] bcast_S_S4x4 : (⟨S_, .i32⟩ : BufTy).Contents (Elt F) → (⟨S4x4, .i32⟩ : BufTy).Contents (Elt F)),
    StableHlo.binary main_v73 main_v79 main_v80 (cmpi .slt : (⟨S4x4, .i32⟩ : BufTy).Contents (Elt F) → (⟨S4x4, .i32⟩ : BufTy).Contents (Elt F) → (⟨S4x4, .i1⟩ : BufTy).Contents (Elt F)),
    StableHlo.nullary main_c_15 (constantI S_ 32 4#32),
    StableHlo.unary main_c_15 main_v81 (broadcastInDim S4x4 ![] bcast_S_S4x4 : (⟨S_, .i32⟩ : BufTy).Contents (Elt F) → (⟨S4x4, .i32⟩ : BufTy).Contents (Elt F)),
    StableHlo.binary main_v73 main_v81 main_v82 (addi : (⟨S4x4, .i32⟩ : BufTy).Contents (Elt F) → (⟨S4x4, .i32⟩ : BufTy).Contents (Elt F) → (⟨S4x4, .i32⟩ : BufTy).Contents (Elt F)),
    StableHlo.ternary main_v80 main_v82 main_v73 main_v83 (select : (⟨S4x4, .i1⟩ : BufTy).Contents (Elt F) → (⟨S4x4, .i32⟩ : BufTy).Contents (Elt F) → (⟨S4x4, .i32⟩ : BufTy).Contents (Elt F) → (⟨S4x4, .i32⟩ : BufTy).Contents (Elt F)),
    StableHlo.unary main_v78 main_v84 (broadcastInDim S4x4 ![0, 1] bcast_S4x1_S4x4_0_1 : (⟨S4x1, .i32⟩ : BufTy).Contents (Elt F) → (⟨S4x4, .i32⟩ : BufTy).Contents (Elt F)),
    StableHlo.unary main_v84 main_v85 (broadcastInDim S4x4x1 ![0, 1] bcast_S4x4_S4x4x1_0_1 : (⟨S4x4, .i32⟩ : BufTy).Contents (Elt F) → (⟨S4x4x1, .i32⟩ : BufTy).Contents (Elt F)),
    StableHlo.unary main_v83 main_v86 (broadcastInDim S4x4x1 ![0, 1] bcast_S4x4_S4x4x1_0_1 : (⟨S4x4, .i32⟩ : BufTy).Contents (Elt F) → (⟨S4x4x1, .i32⟩ : BufTy).Contents (Elt F)),
    StableHlo.binary main_v85 main_v86 main_v87 ((fun a b => concatenate S4x4x2 2 [⟨S4x4x1, a⟩, ⟨S4x4x1, b⟩] concatenates_S4x4x1_S4x4x1_S4x4x2_d2) : (⟨S4x4x1, .i32⟩ : BufTy).Contents (Elt F) → (⟨S4x4x1, .i32⟩ : BufTy).Contents (Elt F) → (⟨S4x4x2, .i32⟩ : BufTy).Contents (Elt F)),
    StableHlo.binary main_v65 main_v87 main_v88 ((fun x i => Host.gather gather_S1024x256x4x4_S4x4x2_S1024x256x4x4_01_23_n_n_23_2_102425611 x i) : (⟨S1024x256x4x4, .f32⟩ : BufTy).Contents (Elt F) → (⟨S4x4x2, .i32⟩ : BufTy).Contents (Elt F) → (⟨S1024x256x4x4, .f32⟩ : BufTy).Contents (Elt F)),
    StableHlo.nullary main_cst_16 (constant S_ .f32 0x00000000#32),
    StableHlo.binary main_v88 main_cst_16 main_v89 ((fun x v => Host.reduceAdd x v reducesTo_S1024x256x4x4_S1024x256x4_d2 h_S_) : (⟨S1024x256x4x4, .f32⟩ : BufTy).Contents (Elt F) → (⟨S_, .f32⟩ : BufTy).Contents (Elt F) → (⟨S1024x256x4, .f32⟩ : BufTy).Contents (Elt F)),
    StableHlo.nullary main_cst_17 (constant S_ .f32 0x40800000#32),
    StableHlo.unary main_cst_17 main_v90 (broadcastInDim S1024x256x4 ![] bcast_S_S1024x256x4 : (⟨S_, .f32⟩ : BufTy).Contents (Elt F) → (⟨S1024x256x4, .f32⟩ : BufTy).Contents (Elt F)),
    StableHlo.binary main_v89 main_v90 main_v91 (Host.divf : (⟨S1024x256x4, .f32⟩ : BufTy).Contents (Elt F) → (⟨S1024x256x4, .f32⟩ : BufTy).Contents (Elt F) → (⟨S1024x256x4, .f32⟩ : BufTy).Contents (Elt F)),
    StableHlo.unary main_v66 main_v92 (broadcastInDim S4x1 ![0] bcast_S4_S4x1_0 : (⟨S4, .i32⟩ : BufTy).Contents (Elt F) → (⟨S4x1, .i32⟩ : BufTy).Contents (Elt F)),
    StableHlo.unary main_v66 main_v93 (broadcastInDim S1x4 ![1] bcast_S4_S1x4_1 : (⟨S4, .i32⟩ : BufTy).Contents (Elt F) → (⟨S1x4, .i32⟩ : BufTy).Contents (Elt F)),
    StableHlo.unary main_v92 main_v94 (broadcastInDim S4x4 ![0, 1] bcast_S4x1_S4x4_0_1 : (⟨S4x1, .i32⟩ : BufTy).Contents (Elt F) → (⟨S4x4, .i32⟩ : BufTy).Contents (Elt F)),
    StableHlo.unary main_v93 main_v95 (broadcastInDim S4x4 ![0, 1] bcast_S1x4_S4x4_0_1 : (⟨S1x4, .i32⟩ : BufTy).Contents (Elt F) → (⟨S4x4, .i32⟩ : BufTy).Contents (Elt F)),
    StableHlo.binary main_v94 main_v95 main_v96 (subi : (⟨S4x4, .i32⟩ : BufTy).Contents (Elt F) → (⟨S4x4, .i32⟩ : BufTy).Contents (Elt F) → (⟨S4x4, .i32⟩ : BufTy).Contents (Elt F)),
    StableHlo.nullary main_c_18 (constantI S_ 32 4#32),
    StableHlo.TRef.unary (.of main_c_18 : StableHlo.TRef sig ⟨S_, .i32⟩) main_call3.v0 id,
    StableHlo.TRef.nullary main_call3.c (constantI S_ 32 0#32),
    StableHlo.TRef.binary main_call3.v0 main_call3.c main_call3.v1 (cmpi .eq),
    StableHlo.TRef.nullary main_call3.c_0 (constantI S_ 32 1#32),
    StableHlo.TRef.ternary main_call3.v1 main_call3.c_0 main_call3.v0 main_call3.call0.v0 select,
    StableHlo.TRef.unary main_call3.call0.v0 main_call3.v3 (broadcastInDim S4x4 ![] bcast_S_S4x4),
    StableHlo.TRef.binary (.of main_v96 : StableHlo.TRef sig ⟨S4x4, .i32⟩) main_call3.v3 main_call3.v4 Host.remsi,
    StableHlo.TRef.nullary main_call3.c_1 (constantI S_ 32 0#32),
    StableHlo.TRef.unary main_call3.c_1 main_call3.v5 (broadcastInDim S4x4 ![] bcast_S_S4x4),
    StableHlo.TRef.binary main_call3.v4 main_call3.v5 main_call3.v6 (cmpi .ne),
    StableHlo.TRef.nullary main_call3.c_2 (constantI S_ 32 0#32),
    StableHlo.TRef.unary main_call3.c_2 main_call3.v7 (broadcastInDim S4x4 ![] bcast_S_S4x4),
    StableHlo.TRef.binary main_call3.v4 main_call3.v7 main_call3.v8 (cmpi .slt),
    StableHlo.TRef.nullary main_call3.c_3 (constantI S_ 32 0#32),
    StableHlo.TRef.binary main_call3.call0.v0 main_call3.c_3 main_call3.v9 (cmpi .slt),
    StableHlo.TRef.unary main_call3.v9 main_call3.v10 (broadcastInDim S4x4 ![] bcast_S_S4x4),
    StableHlo.TRef.binary main_call3.v8 main_call3.v10 main_call3.v11 (cmpi .ne),
    StableHlo.TRef.binary main_call3.v11 main_call3.v6 main_call3.v12 andi,
    StableHlo.TRef.unary main_call3.call0.v0 main_call3.v13 (broadcastInDim S4x4 ![] bcast_S_S4x4),
    StableHlo.TRef.binary main_call3.v4 main_call3.v13 main_call3.v14 addi,
    StableHlo.TRef.ternary main_call3.v12 main_call3.v14 main_call3.v4 main_call3.v15 select,
    StableHlo.nullary main_c_19 (constantI S_ 32 0#32) ]
/-- Each touches TensorCore references only: its builder's fact, in order. -/
theorem ops_main_part1_sub : (ops_main_part1 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.binary_bufs_sub .., StableHlo.binary_bufs_sub .., StableHlo.unary_bufs_sub .., StableHlo.reshape_bufs_sub .., StableHlo.reshape_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub ..⟩

/-- 100 operations. -/
abbrev ops_main_part2 : List (HloOp τ sig (Elt F)) :=
  [ StableHlo.unary main_c_19 main_v98 (broadcastInDim S4x4 ![] bcast_S_S4x4 : (⟨S_, .i32⟩ : BufTy).Contents (Elt F) → (⟨S4x4, .i32⟩ : BufTy).Contents (Elt F)),
    StableHlo.binary main_v97 main_v98 main_v99 (cmpi .slt : (⟨S4x4, .i32⟩ : BufTy).Contents (Elt F) → (⟨S4x4, .i32⟩ : BufTy).Contents (Elt F) → (⟨S4x4, .i1⟩ : BufTy).Contents (Elt F)),
    StableHlo.nullary main_c_20 (constantI S_ 32 4#32),
    StableHlo.unary main_c_20 main_v100 (broadcastInDim S4x4 ![] bcast_S_S4x4 : (⟨S_, .i32⟩ : BufTy).Contents (Elt F) → (⟨S4x4, .i32⟩ : BufTy).Contents (Elt F)),
    StableHlo.binary main_v97 main_v100 main_v101 (addi : (⟨S4x4, .i32⟩ : BufTy).Contents (Elt F) → (⟨S4x4, .i32⟩ : BufTy).Contents (Elt F) → (⟨S4x4, .i32⟩ : BufTy).Contents (Elt F)),
    StableHlo.ternary main_v99 main_v101 main_v97 main_v102 (select : (⟨S4x4, .i1⟩ : BufTy).Contents (Elt F) → (⟨S4x4, .i32⟩ : BufTy).Contents (Elt F) → (⟨S4x4, .i32⟩ : BufTy).Contents (Elt F) → (⟨S4x4, .i32⟩ : BufTy).Contents (Elt F)),
    StableHlo.unary main_v102 main_v103 (broadcastInDim S4x4x1 ![0, 1] bcast_S4x4_S4x4x1_0_1 : (⟨S4x4, .i32⟩ : BufTy).Contents (Elt F) → (⟨S4x4x1, .i32⟩ : BufTy).Contents (Elt F)),
    StableHlo.binary main_v91 main_v103 main_v104 ((fun x i => Host.gather gather_S1024x256x4_S4x4x1_S1024x256x4x4_01_2_n_n_2_2_10242561 x i) : (⟨S1024x256x4, .f32⟩ : BufTy).Contents (Elt F) → (⟨S4x4x1, .i32⟩ : BufTy).Contents (Elt F) → (⟨S1024x256x4x4, .f32⟩ : BufTy).Contents (Elt F)),
    StableHlo.unary main_v104 main_v105 ((transpose S1024x4x256x4 [0, 2, 1, 3] · transposes_S1024x256x4x4_S1024x4x256x4_0_2_1_3) : (⟨S1024x256x4x4, .f32⟩ : BufTy).Contents (Elt F) → (⟨S1024x4x256x4, .f32⟩ : BufTy).Contents (Elt F)),
    StableHlo.reshape main_v105 main_v106 rfl shapeCasts_S1024x4x256x4_S4096x1024,
    StableHlo.unary main_v63 main_v107 (broadcastInDim S4096x1024 ![] bcast_S_S4096x1024 : (⟨S_, .f32⟩ : BufTy).Contents (Elt F) → (⟨S4096x1024, .f32⟩ : BufTy).Contents (Elt F)),
    StableHlo.binary main_v107 main_v106 main_v108 (mulf : (⟨S4096x1024, .f32⟩ : BufTy).Contents (Elt F) → (⟨S4096x1024, .f32⟩ : BufTy).Contents (Elt F) → (⟨S4096x1024, .f32⟩ : BufTy).Contents (Elt F)),
    StableHlo.binary main_v61 main_v108 main_v109 (addf : (⟨S4096x1024, .f32⟩ : BufTy).Contents (Elt F) → (⟨S4096x1024, .f32⟩ : BufTy).Contents (Elt F) → (⟨S4096x1024, .f32⟩ : BufTy).Contents (Elt F)),
    StableHlo.unary main_v9 main_v110 ((extractStridedSlice S1 ![3] · slices_S5_S1_3) : (⟨S5, .f32⟩ : BufTy).Contents (Elt F) → (⟨S1, .f32⟩ : BufTy).Contents (Elt F)),
    StableHlo.reshape main_v110 main_v111 rfl shapeCasts_S1_S_,
    StableHlo.reshape main_arg1 main_v112 rfl shapeCasts_S4096x1024_S512x8x128x8,
    StableHlo.unary main_v112 main_v113 ((transpose S512x128x8x8 [0, 2, 1, 3] · transposes_S512x8x128x8_S512x128x8x8_0_2_1_3) : (⟨S512x8x128x8, .f32⟩ : BufTy).Contents (Elt F) → (⟨S512x128x8x8, .f32⟩ : BufTy).Contents (Elt F)),
    StableHlo.nullary main_v114 (iotaInDim S8 32 0),
    StableHlo.unary main_v114 main_v115 (broadcastInDim S8x1 ![0] bcast_S8_S8x1_0 : (⟨S8, .i32⟩ : BufTy).Contents (Elt F) → (⟨S8x1, .i32⟩ : BufTy).Contents (Elt F)),
    StableHlo.unary main_v114 main_v116 (broadcastInDim S8x1 ![0] bcast_S8_S8x1_0 : (⟨S8, .i32⟩ : BufTy).Contents (Elt F) → (⟨S8x1, .i32⟩ : BufTy).Contents (Elt F)),
    StableHlo.unary main_v114 main_v117 (broadcastInDim S1x8 ![1] bcast_S8_S1x8_1 : (⟨S8, .i32⟩ : BufTy).Contents (Elt F) → (⟨S1x8, .i32⟩ : BufTy).Contents (Elt F)),
    StableHlo.unary main_v116 main_v118 (broadcastInDim S8x8 ![0, 1] bcast_S8x1_S8x8_0_1 : (⟨S8x1, .i32⟩ : BufTy).Contents (Elt F) → (⟨S8x8, .i32⟩ : BufTy).Contents (Elt F)),
    StableHlo.unary main_v117 main_v119 (broadcastInDim S8x8 ![0, 1] bcast_S1x8_S8x8_0_1 : (⟨S1x8, .i32⟩ : BufTy).Contents (Elt F) → (⟨S8x8, .i32⟩ : BufTy).Contents (Elt F)),
    StableHlo.binary main_v118 main_v119 main_v120 (addi : (⟨S8x8, .i32⟩ : BufTy).Contents (Elt F) → (⟨S8x8, .i32⟩ : BufTy).Contents (Elt F) → (⟨S8x8, .i32⟩ : BufTy).Contents (Elt F)),
    StableHlo.nullary main_c_21 (constantI S_ 32 8#32),
    StableHlo.TRef.unary (.of main_c_21 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S8x8 ![] bcast_S_S8x8),
    StableHlo.TRef.binary (.of main_v120 : StableHlo.TRef sig ⟨S8x8, .i32⟩) main_call4.v3 main_call4.v4 Host.remsi,
    StableHlo.TRef.nullary main_call4.c_1 (constantI S_ 32 0#32),
    StableHlo.TRef.unary main_call4.c_1 main_call4.v5 (broadcastInDim S8x8 ![] bcast_S_S8x8),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S8x8 ![] bcast_S_S8x8),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S8x8 ![] bcast_S_S8x8),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S8x8 ![] bcast_S_S8x8),
    StableHlo.TRef.binary main_call4.v4 main_call4.v13 main_call4.v14 addi,
    StableHlo.TRef.ternary main_call4.v12 main_call4.v14 main_call4.v4 main_call4.v15 select,
    StableHlo.nullary main_c_22 (constantI S_ 32 0#32),
    StableHlo.unary main_c_22 main_v122 (broadcastInDim S8x1 ![] bcast_S_S8x1 : (⟨S_, .i32⟩ : BufTy).Contents (Elt F) → (⟨S8x1, .i32⟩ : BufTy).Contents (Elt F)),
    StableHlo.binary main_v115 main_v122 main_v123 (cmpi .slt : (⟨S8x1, .i32⟩ : BufTy).Contents (Elt F) → (⟨S8x1, .i32⟩ : BufTy).Contents (Elt F) → (⟨S8x1, .i1⟩ : BufTy).Contents (Elt F)),
    StableHlo.nullary main_c_23 (constantI S_ 32 8#32),
    StableHlo.unary main_c_23 main_v124 (broadcastInDim S8x1 ![] bcast_S_S8x1 : (⟨S_, .i32⟩ : BufTy).Contents (Elt F) → (⟨S8x1, .i32⟩ : BufTy).Contents (Elt F)),
    StableHlo.binary main_v115 main_v124 main_v125 (addi : (⟨S8x1, .i32⟩ : BufTy).Contents (Elt F) → (⟨S8x1, .i32⟩ : BufTy).Contents (Elt F) → (⟨S8x1, .i32⟩ : BufTy).Contents (Elt F)),
    StableHlo.ternary main_v123 main_v125 main_v115 main_v126 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.nullary main_c_24 (constantI S_ 32 0#32),
    StableHlo.unary main_c_24 main_v127 (broadcastInDim S8x8 ![] bcast_S_S8x8 : (⟨S_, .i32⟩ : BufTy).Contents (Elt F) → (⟨S8x8, .i32⟩ : BufTy).Contents (Elt F)),
    StableHlo.binary main_v121 main_v127 main_v128 (cmpi .slt : (⟨S8x8, .i32⟩ : BufTy).Contents (Elt F) → (⟨S8x8, .i32⟩ : BufTy).Contents (Elt F) → (⟨S8x8, .i1⟩ : BufTy).Contents (Elt F)),
    StableHlo.nullary main_c_25 (constantI S_ 32 8#32),
    StableHlo.unary main_c_25 main_v129 (broadcastInDim S8x8 ![] bcast_S_S8x8 : (⟨S_, .i32⟩ : BufTy).Contents (Elt F) → (⟨S8x8, .i32⟩ : BufTy).Contents (Elt F)),
    StableHlo.binary main_v121 main_v129 main_v130 (addi : (⟨S8x8, .i32⟩ : BufTy).Contents (Elt F) → (⟨S8x8, .i32⟩ : BufTy).Contents (Elt F) → (⟨S8x8, .i32⟩ : BufTy).Contents (Elt F)),
    StableHlo.ternary main_v128 main_v130 main_v121 main_v131 (select : (⟨S8x8, .i1⟩ : BufTy).Contents (Elt F) → (⟨S8x8, .i32⟩ : BufTy).Contents (Elt F) → (⟨S8x8, .i32⟩ : BufTy).Contents (Elt F) → (⟨S8x8, .i32⟩ : BufTy).Contents (Elt F)),
    StableHlo.unary main_v126 main_v132 (broadcastInDim S8x8 ![0, 1] bcast_S8x1_S8x8_0_1 : (⟨S8x1, .i32⟩ : BufTy).Contents (Elt F) → (⟨S8x8, .i32⟩ : BufTy).Contents (Elt F)),
    StableHlo.unary main_v132 main_v133 (broadcastInDim S8x8x1 ![0, 1] bcast_S8x8_S8x8x1_0_1 : (⟨S8x8, .i32⟩ : BufTy).Contents (Elt F) → (⟨S8x8x1, .i32⟩ : BufTy).Contents (Elt F)),
    StableHlo.unary main_v131 main_v134 (broadcastInDim S8x8x1 ![0, 1] bcast_S8x8_S8x8x1_0_1 : (⟨S8x8, .i32⟩ : BufTy).Contents (Elt F) → (⟨S8x8x1, .i32⟩ : BufTy).Contents (Elt F)),
    StableHlo.binary main_v133 main_v134 main_v135 ((fun a b => concatenate S8x8x2 2 [⟨S8x8x1, a⟩, ⟨S8x8x1, b⟩] concatenates_S8x8x1_S8x8x1_S8x8x2_d2) : (⟨S8x8x1, .i32⟩ : BufTy).Contents (Elt F) → (⟨S8x8x1, .i32⟩ : BufTy).Contents (Elt F) → (⟨S8x8x2, .i32⟩ : BufTy).Contents (Elt F)),
    StableHlo.binary main_v113 main_v135 main_v136 ((fun x i => Host.gather gather_S512x128x8x8_S8x8x2_S512x128x8x8_01_23_n_n_23_2_51212811 x i) : (⟨S512x128x8x8, .f32⟩ : BufTy).Contents (Elt F) → (⟨S8x8x2, .i32⟩ : BufTy).Contents (Elt F) → (⟨S512x128x8x8, .f32⟩ : BufTy).Contents (Elt F)),
    StableHlo.nullary main_cst_26 (constant S_ .f32 0x00000000#32),
    StableHlo.binary main_v136 main_cst_26 main_v137 ((fun x v => Host.reduceAdd x v reducesTo_S512x128x8x8_S512x128x8_d2 h_S_) : (⟨S512x128x8x8, .f32⟩ : BufTy).Contents (Elt F) → (⟨S_, .f32⟩ : BufTy).Contents (Elt F) → (⟨S512x128x8, .f32⟩ : BufTy).Contents (Elt F)),
    StableHlo.nullary main_cst_27 (constant S_ .f32 0x41000000#32),
    StableHlo.unary main_cst_27 main_v138 (broadcastInDim S512x128x8 ![] bcast_S_S512x128x8 : (⟨S_, .f32⟩ : BufTy).Contents (Elt F) → (⟨S512x128x8, .f32⟩ : BufTy).Contents (Elt F)),
    StableHlo.binary main_v137 main_v138 main_v139 (Host.divf : (⟨S512x128x8, .f32⟩ : BufTy).Contents (Elt F) → (⟨S512x128x8, .f32⟩ : BufTy).Contents (Elt F) → (⟨S512x128x8, .f32⟩ : BufTy).Contents (Elt F)),
    StableHlo.unary main_v114 main_v140 (broadcastInDim S8x1 ![0] bcast_S8_S8x1_0 : (⟨S8, .i32⟩ : BufTy).Contents (Elt F) → (⟨S8x1, .i32⟩ : BufTy).Contents (Elt F)),
    StableHlo.unary main_v114 main_v141 (broadcastInDim S1x8 ![1] bcast_S8_S1x8_1 : (⟨S8, .i32⟩ : BufTy).Contents (Elt F) → (⟨S1x8, .i32⟩ : BufTy).Contents (Elt F)),
    StableHlo.unary main_v140 main_v142 (broadcastInDim S8x8 ![0, 1] bcast_S8x1_S8x8_0_1 : (⟨S8x1, .i32⟩ : BufTy).Contents (Elt F) → (⟨S8x8, .i32⟩ : BufTy).Contents (Elt F)),
    StableHlo.unary main_v141 main_v143 (broadcastInDim S8x8 ![0, 1] bcast_S1x8_S8x8_0_1 : (⟨S1x8, .i32⟩ : BufTy).Contents (Elt F) → (⟨S8x8, .i32⟩ : BufTy).Contents (Elt F)),
    StableHlo.binary main_v142 main_v143 main_v144 (subi : (⟨S8x8, .i32⟩ : BufTy).Contents (Elt F) → (⟨S8x8, .i32⟩ : BufTy).Contents (Elt F) → (⟨S8x8, .i32⟩ : BufTy).Contents (Elt F)),
    StableHlo.nullary main_c_28 (constantI S_ 32 8#32),
    StableHlo.TRef.unary (.of main_c_28 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S8x8 ![] bcast_S_S8x8),
    StableHlo.TRef.binary (.of main_v144 : StableHlo.TRef sig ⟨S8x8, .i32⟩) main_call5.v3 main_call5.v4 Host.remsi,
    StableHlo.TRef.nullary main_call5.c_1 (constantI S_ 32 0#32),
    StableHlo.TRef.unary main_call5.c_1 main_call5.v5 (broadcastInDim S8x8 ![] bcast_S_S8x8),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S8x8 ![] bcast_S_S8x8),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S8x8 ![] bcast_S_S8x8),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S8x8 ![] bcast_S_S8x8),
    StableHlo.TRef.binary main_call5.v4 main_call5.v13 main_call5.v14 addi,
    StableHlo.TRef.ternary main_call5.v12 main_call5.v14 main_call5.v4 main_call5.v15 select,
    StableHlo.nullary main_c_29 (constantI S_ 32 0#32),
    StableHlo.unary main_c_29 main_v146 (broadcastInDim S8x8 ![] bcast_S_S8x8 : (⟨S_, .i32⟩ : BufTy).Contents (Elt F) → (⟨S8x8, .i32⟩ : BufTy).Contents (Elt F)),
    StableHlo.binary main_v145 main_v146 main_v147 (cmpi .slt : (⟨S8x8, .i32⟩ : BufTy).Contents (Elt F) → (⟨S8x8, .i32⟩ : BufTy).Contents (Elt F) → (⟨S8x8, .i1⟩ : BufTy).Contents (Elt F)) ]
/-- Each touches TensorCore references only: its builder's fact, in order. -/
theorem ops_main_part2_sub : (ops_main_part2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.binary_bufs_sub .., StableHlo.binary_bufs_sub .., StableHlo.unary_bufs_sub .., StableHlo.reshape_bufs_sub .., StableHlo.reshape_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub ..⟩

/-- 100 operations. -/
abbrev ops_main_part3 : List (HloOp τ sig (Elt F)) :=
  [ StableHlo.nullary main_c_30 (constantI S_ 32 8#32),
    StableHlo.unary main_c_30 main_v148 (broadcastInDim S8x8 ![] bcast_S_S8x8 : (⟨S_, .i32⟩ : BufTy).Contents (Elt F) → (⟨S8x8, .i32⟩ : BufTy).Contents (Elt F)),
    StableHlo.binary main_v145 main_v148 main_v149 (addi : (⟨S8x8, .i32⟩ : BufTy).Contents (Elt F) → (⟨S8x8, .i32⟩ : BufTy).Contents (Elt F) → (⟨S8x8, .i32⟩ : BufTy).Contents (Elt F)),
    StableHlo.ternary main_v147 main_v149 main_v145 main_v150 (select : (⟨S8x8, .i1⟩ : BufTy).Contents (Elt F) → (⟨S8x8, .i32⟩ : BufTy).Contents (Elt F) → (⟨S8x8, .i32⟩ : BufTy).Contents (Elt F) → (⟨S8x8, .i32⟩ : BufTy).Contents (Elt F)),
    StableHlo.unary main_v150 main_v151 (broadcastInDim S8x8x1 ![0, 1] bcast_S8x8_S8x8x1_0_1 : (⟨S8x8, .i32⟩ : BufTy).Contents (Elt F) → (⟨S8x8x1, .i32⟩ : BufTy).Contents (Elt F)),
    StableHlo.binary main_v139 main_v151 main_v152 ((fun x i => Host.gather gather_S512x128x8_S8x8x1_S512x128x8x8_01_2_n_n_2_2_5121281 x i) : (⟨S512x128x8, .f32⟩ : BufTy).Contents (Elt F) → (⟨S8x8x1, .i32⟩ : BufTy).Contents (Elt F) → (⟨S512x128x8x8, .f32⟩ : BufTy).Contents (Elt F)),
    StableHlo.unary main_v152 main_v153 ((transpose S512x8x128x8 [0, 2, 1, 3] · transposes_S512x128x8x8_S512x8x128x8_0_2_1_3) : (⟨S512x128x8x8, .f32⟩ : BufTy).Contents (Elt F) → (⟨S512x8x128x8, .f32⟩ : BufTy).Contents (Elt F)),
    StableHlo.reshape main_v153 main_v154 rfl shapeCasts_S512x8x128x8_S4096x1024,
    StableHlo.unary main_v111 main_v155 (broadcastInDim S4096x1024 ![] bcast_S_S4096x1024 : (⟨S_, .f32⟩ : BufTy).Contents (Elt F) → (⟨S4096x1024, .f32⟩ : BufTy).Contents (Elt F)),
    StableHlo.binary main_v155 main_v154 main_v156 (mulf : (⟨S4096x1024, .f32⟩ : BufTy).Contents (Elt F) → (⟨S4096x1024, .f32⟩ : BufTy).Contents (Elt F) → (⟨S4096x1024, .f32⟩ : BufTy).Contents (Elt F)),
    StableHlo.binary main_v109 main_v156 main_v157 (addf : (⟨S4096x1024, .f32⟩ : BufTy).Contents (Elt F) → (⟨S4096x1024, .f32⟩ : BufTy).Contents (Elt F) → (⟨S4096x1024, .f32⟩ : BufTy).Contents (Elt F)),
    StableHlo.unary main_v9 main_v158 ((extractStridedSlice S1 ![4] · slices_S5_S1_4) : (⟨S5, .f32⟩ : BufTy).Contents (Elt F) → (⟨S1, .f32⟩ : BufTy).Contents (Elt F)),
    StableHlo.reshape main_v158 main_v159 rfl shapeCasts_S1_S_,
    StableHlo.reshape main_arg1 main_v160 rfl shapeCasts_S4096x1024_S256x16x64x16,
    StableHlo.unary main_v160 main_v161 ((transpose S256x64x16x16 [0, 2, 1, 3] · transposes_S256x16x64x16_S256x64x16x16_0_2_1_3) : (⟨S256x16x64x16, .f32⟩ : BufTy).Contents (Elt F) → (⟨S256x64x16x16, .f32⟩ : BufTy).Contents (Elt F)),
    StableHlo.nullary main_v162 (iotaInDim S16 32 0),
    StableHlo.unary main_v162 main_v163 (broadcastInDim S16x1 ![0] bcast_S16_S16x1_0 : (⟨S16, .i32⟩ : BufTy).Contents (Elt F) → (⟨S16x1, .i32⟩ : BufTy).Contents (Elt F)),
    StableHlo.unary main_v162 main_v164 (broadcastInDim S16x1 ![0] bcast_S16_S16x1_0 : (⟨S16, .i32⟩ : BufTy).Contents (Elt F) → (⟨S16x1, .i32⟩ : BufTy).Contents (Elt F)),
    StableHlo.unary main_v162 main_v165 (broadcastInDim S1x16 ![1] bcast_S16_S1x16_1 : (⟨S16, .i32⟩ : BufTy).Contents (Elt F) → (⟨S1x16, .i32⟩ : BufTy).Contents (Elt F)),
    StableHlo.unary main_v164 main_v166 (broadcastInDim S16x16 ![0, 1] bcast_S16x1_S16x16_0_1 : (⟨S16x1, .i32⟩ : BufTy).Contents (Elt F) → (⟨S16x16, .i32⟩ : BufTy).Contents (Elt F)),
    StableHlo.unary main_v165 main_v167 (broadcastInDim S16x16 ![0, 1] bcast_S1x16_S16x16_0_1 : (⟨S1x16, .i32⟩ : BufTy).Contents (Elt F) → (⟨S16x16, .i32⟩ : BufTy).Contents (Elt F)),
    StableHlo.binary main_v166 main_v167 main_v168 (addi : (⟨S16x16, .i32⟩ : BufTy).Contents (Elt F) → (⟨S16x16, .i32⟩ : BufTy).Contents (Elt F) → (⟨S16x16, .i32⟩ : BufTy).Contents (Elt F)),
    StableHlo.nullary main_c_31 (constantI S_ 32 16#32),
    StableHlo.TRef.unary (.of main_c_31 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S16x16 ![] bcast_S_S16x16),
    StableHlo.TRef.binary (.of main_v168 : StableHlo.TRef sig ⟨S16x16, .i32⟩) main_call6.v3 main_call6.v4 Host.remsi,
    StableHlo.TRef.nullary main_call6.c_1 (constantI S_ 32 0#32),
    StableHlo.TRef.unary main_call6.c_1 main_call6.v5 (broadcastInDim S16x16 ![] bcast_S_S16x16),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S16x16 ![] bcast_S_S16x16),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S16x16 ![] bcast_S_S16x16),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S16x16 ![] bcast_S_S16x16),
    StableHlo.TRef.binary main_call6.v4 main_call6.v13 main_call6.v14 addi,
    StableHlo.TRef.ternary main_call6.v12 main_call6.v14 main_call6.v4 main_call6.v15 select,
    StableHlo.nullary main_c_32 (constantI S_ 32 0#32),
    StableHlo.unary main_c_32 main_v170 (broadcastInDim S16x1 ![] bcast_S_S16x1 : (⟨S_, .i32⟩ : BufTy).Contents (Elt F) → (⟨S16x1, .i32⟩ : BufTy).Contents (Elt F)),
    StableHlo.binary main_v163 main_v170 main_v171 (cmpi .slt : (⟨S16x1, .i32⟩ : BufTy).Contents (Elt F) → (⟨S16x1, .i32⟩ : BufTy).Contents (Elt F) → (⟨S16x1, .i1⟩ : BufTy).Contents (Elt F)),
    StableHlo.nullary main_c_33 (constantI S_ 32 16#32),
    StableHlo.unary main_c_33 main_v172 (broadcastInDim S16x1 ![] bcast_S_S16x1 : (⟨S_, .i32⟩ : BufTy).Contents (Elt F) → (⟨S16x1, .i32⟩ : BufTy).Contents (Elt F)),
    StableHlo.binary main_v163 main_v172 main_v173 (addi : (⟨S16x1, .i32⟩ : BufTy).Contents (Elt F) → (⟨S16x1, .i32⟩ : BufTy).Contents (Elt F) → (⟨S16x1, .i32⟩ : BufTy).Contents (Elt F)),
    StableHlo.ternary main_v171 main_v173 main_v163 main_v174 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    StableHlo.nullary main_c_34 (constantI S_ 32 0#32),
    StableHlo.unary main_c_34 main_v175 (broadcastInDim S16x16 ![] bcast_S_S16x16 : (⟨S_, .i32⟩ : BufTy).Contents (Elt F) → (⟨S16x16, .i32⟩ : BufTy).Contents (Elt F)),
    StableHlo.binary main_v169 main_v175 main_v176 (cmpi .slt : (⟨S16x16, .i32⟩ : BufTy).Contents (Elt F) → (⟨S16x16, .i32⟩ : BufTy).Contents (Elt F) → (⟨S16x16, .i1⟩ : BufTy).Contents (Elt F)),
    StableHlo.nullary main_c_35 (constantI S_ 32 16#32),
    StableHlo.unary main_c_35 main_v177 (broadcastInDim S16x16 ![] bcast_S_S16x16 : (⟨S_, .i32⟩ : BufTy).Contents (Elt F) → (⟨S16x16, .i32⟩ : BufTy).Contents (Elt F)),
    StableHlo.binary main_v169 main_v177 main_v178 (addi : (⟨S16x16, .i32⟩ : BufTy).Contents (Elt F) → (⟨S16x16, .i32⟩ : BufTy).Contents (Elt F) → (⟨S16x16, .i32⟩ : BufTy).Contents (Elt F)),
    StableHlo.ternary main_v176 main_v178 main_v169 main_v179 (select : (⟨S16x16, .i1⟩ : BufTy).Contents (Elt F) → (⟨S16x16, .i32⟩ : BufTy).Contents (Elt F) → (⟨S16x16, .i32⟩ : BufTy).Contents (Elt F) → (⟨S16x16, .i32⟩ : BufTy).Contents (Elt F)),
    StableHlo.unary main_v174 main_v180 (broadcastInDim S16x16 ![0, 1] bcast_S16x1_S16x16_0_1 : (⟨S16x1, .i32⟩ : BufTy).Contents (Elt F) → (⟨S16x16, .i32⟩ : BufTy).Contents (Elt F)),
    StableHlo.unary main_v180 main_v181 (broadcastInDim S16x16x1 ![0, 1] bcast_S16x16_S16x16x1_0_1 : (⟨S16x16, .i32⟩ : BufTy).Contents (Elt F) → (⟨S16x16x1, .i32⟩ : BufTy).Contents (Elt F)),
    StableHlo.unary main_v179 main_v182 (broadcastInDim S16x16x1 ![0, 1] bcast_S16x16_S16x16x1_0_1 : (⟨S16x16, .i32⟩ : BufTy).Contents (Elt F) → (⟨S16x16x1, .i32⟩ : BufTy).Contents (Elt F)),
    StableHlo.binary main_v181 main_v182 main_v183 ((fun a b => concatenate S16x16x2 2 [⟨S16x16x1, a⟩, ⟨S16x16x1, b⟩] concatenates_S16x16x1_S16x16x1_S16x16x2_d2) : (⟨S16x16x1, .i32⟩ : BufTy).Contents (Elt F) → (⟨S16x16x1, .i32⟩ : BufTy).Contents (Elt F) → (⟨S16x16x2, .i32⟩ : BufTy).Contents (Elt F)),
    StableHlo.binary main_v161 main_v183 main_v184 ((fun x i => Host.gather gather_S256x64x16x16_S16x16x2_S256x64x16x16_01_23_n_n_23_2_2566411 x i) : (⟨S256x64x16x16, .f32⟩ : BufTy).Contents (Elt F) → (⟨S16x16x2, .i32⟩ : BufTy).Contents (Elt F) → (⟨S256x64x16x16, .f32⟩ : BufTy).Contents (Elt F)),
    StableHlo.nullary main_cst_36 (constant S_ .f32 0x00000000#32),
    StableHlo.binary main_v184 main_cst_36 main_v185 ((fun x v => Host.reduceAdd x v reducesTo_S256x64x16x16_S256x64x16_d2 h_S_) : (⟨S256x64x16x16, .f32⟩ : BufTy).Contents (Elt F) → (⟨S_, .f32⟩ : BufTy).Contents (Elt F) → (⟨S256x64x16, .f32⟩ : BufTy).Contents (Elt F)),
    StableHlo.nullary main_cst_37 (constant S_ .f32 0x41800000#32),
    StableHlo.unary main_cst_37 main_v186 (broadcastInDim S256x64x16 ![] bcast_S_S256x64x16 : (⟨S_, .f32⟩ : BufTy).Contents (Elt F) → (⟨S256x64x16, .f32⟩ : BufTy).Contents (Elt F)),
    StableHlo.binary main_v185 main_v186 main_v187 (Host.divf : (⟨S256x64x16, .f32⟩ : BufTy).Contents (Elt F) → (⟨S256x64x16, .f32⟩ : BufTy).Contents (Elt F) → (⟨S256x64x16, .f32⟩ : BufTy).Contents (Elt F)),
    StableHlo.unary main_v162 main_v188 (broadcastInDim S16x1 ![0] bcast_S16_S16x1_0 : (⟨S16, .i32⟩ : BufTy).Contents (Elt F) → (⟨S16x1, .i32⟩ : BufTy).Contents (Elt F)),
    StableHlo.unary main_v162 main_v189 (broadcastInDim S1x16 ![1] bcast_S16_S1x16_1 : (⟨S16, .i32⟩ : BufTy).Contents (Elt F) → (⟨S1x16, .i32⟩ : BufTy).Contents (Elt F)),
    StableHlo.unary main_v188 main_v190 (broadcastInDim S16x16 ![0, 1] bcast_S16x1_S16x16_0_1 : (⟨S16x1, .i32⟩ : BufTy).Contents (Elt F) → (⟨S16x16, .i32⟩ : BufTy).Contents (Elt F)),
    StableHlo.unary main_v189 main_v191 (broadcastInDim S16x16 ![0, 1] bcast_S1x16_S16x16_0_1 : (⟨S1x16, .i32⟩ : BufTy).Contents (Elt F) → (⟨S16x16, .i32⟩ : BufTy).Contents (Elt F)),
    StableHlo.binary main_v190 main_v191 main_v192 (subi : (⟨S16x16, .i32⟩ : BufTy).Contents (Elt F) → (⟨S16x16, .i32⟩ : BufTy).Contents (Elt F) → (⟨S16x16, .i32⟩ : BufTy).Contents (Elt F)),
    StableHlo.nullary main_c_38 (constantI S_ 32 16#32),
    StableHlo.TRef.unary (.of main_c_38 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S16x16 ![] bcast_S_S16x16),
    StableHlo.TRef.binary (.of main_v192 : StableHlo.TRef sig ⟨S16x16, .i32⟩) main_call7.v3 main_call7.v4 Host.remsi,
    StableHlo.TRef.nullary main_call7.c_1 (constantI S_ 32 0#32),
    StableHlo.TRef.unary main_call7.c_1 main_call7.v5 (broadcastInDim S16x16 ![] bcast_S_S16x16),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S16x16 ![] bcast_S_S16x16),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S16x16 ![] bcast_S_S16x16),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S16x16 ![] bcast_S_S16x16),
    StableHlo.TRef.binary main_call7.v4 main_call7.v13 main_call7.v14 addi,
    StableHlo.TRef.ternary main_call7.v12 main_call7.v14 main_call7.v4 main_call7.v15 select,
    StableHlo.nullary main_c_39 (constantI S_ 32 0#32),
    StableHlo.unary main_c_39 main_v194 (broadcastInDim S16x16 ![] bcast_S_S16x16 : (⟨S_, .i32⟩ : BufTy).Contents (Elt F) → (⟨S16x16, .i32⟩ : BufTy).Contents (Elt F)),
    StableHlo.binary main_v193 main_v194 main_v195 (cmpi .slt : (⟨S16x16, .i32⟩ : BufTy).Contents (Elt F) → (⟨S16x16, .i32⟩ : BufTy).Contents (Elt F) → (⟨S16x16, .i1⟩ : BufTy).Contents (Elt F)),
    StableHlo.nullary main_c_40 (constantI S_ 32 16#32),
    StableHlo.unary main_c_40 main_v196 (broadcastInDim S16x16 ![] bcast_S_S16x16 : (⟨S_, .i32⟩ : BufTy).Contents (Elt F) → (⟨S16x16, .i32⟩ : BufTy).Contents (Elt F)) ]
/-- Each touches TensorCore references only: its builder's fact, in order. -/
theorem ops_main_part3_sub : (ops_main_part3 : List (HloOp τ sig (Elt F))).Forall fun op => op.bufs ⊆ StableHlo.tcRefs τ sig :=
  ⟨StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.binary_bufs_sub .., StableHlo.binary_bufs_sub .., StableHlo.unary_bufs_sub .., StableHlo.reshape_bufs_sub .., StableHlo.reshape_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub ..⟩

/-- 9 operations. -/
abbrev ops_main_part4_weight : List (HloOp τ sig (Elt F)) :=
  [ StableHlo.binary main_v193 main_v196 main_v197 (addi : (⟨S16x16, .i32⟩ : BufTy).Contents (Elt F) → (⟨S16x16, .i32⟩ : BufTy).Contents (Elt F) → (⟨S16x16, .i32⟩ : BufTy).Contents (Elt F)),
    StableHlo.ternary main_v195 main_v197 main_v193 main_v198 (select : (⟨S16x16, .i1⟩ : BufTy).Contents (Elt F) → (⟨S16x16, .i32⟩ : BufTy).Contents (Elt F) → (⟨S16x16, .i32⟩ : BufTy).Contents (Elt F) → (⟨S16x16, .i32⟩ : BufTy).Contents (Elt F)),
    StableHlo.unary main_v198 main_v199 (broadcastInDim S16x16x1 ![0, 1] bcast_S16x16_S16x16x1_0_1 : (⟨S16x16, .i32⟩ : BufTy).Contents (Elt F) → (⟨S16x16x1, .i32⟩ : BufTy).Contents (Elt F)),
    StableHlo.binary main_v187 main_v199 main_v200 ((fun x i => Host.gather gather_S256x64x16_S16x16x1_S256x64x16x16_01_2_n_n_2_2_256641 x i) : (⟨S256x64x16, .f32⟩ : BufTy).Contents (Elt F) → (⟨S16x16x1, .i32⟩ : BufTy).Contents (Elt F) → (⟨S256x64x16x16, .f32⟩ : BufTy).Contents (Elt F)),
    StableHlo.unary main_v200 main_v201 ((transpose S256x16x64x16 [0, 2, 1, 3] · transposes_S256x64x16x16_S256x16x64x16_0_2_1_3) : (⟨S256x64x16x16, .f32⟩ : BufTy).Contents (Elt F) → (⟨S256x16x64x16, .f32⟩ : BufTy).Contents (Elt F)),
    StableHlo.reshape main_v201 main_v202 rfl shapeCasts_S256x16x64x16_S4096x1024,
    StableHlo.unary main_v159 main_v203 (broadcastInDim S4096x1024 ![] bcast_S_S4096x1024 : (⟨S_, .f32⟩ : BufTy).Contents (Elt F) → (⟨S4096x1024, .f32⟩ : BufTy).Contents (Elt F)),
    StableHlo.binary main_v203 main_v202 main_v204 (mulf : (⟨S4096x1024, .f32⟩ : BufTy).Contents (Elt F) → (⟨S4096x1024, .f32⟩ : BufTy).Contents (Elt F) → (⟨S4096x1024, .f32⟩ : BufTy).Contents (Elt F)),
    StableHlo.binary main_v157 main_v204 main_v205 (addf : (⟨S4096x1024, .f32⟩ : BufTy).Contents (Elt F) → (⟨S4096x1024, .f32⟩ : BufTy).Contents (Elt F) → (⟨S4096x1024, .f32⟩ : BufTy).Contents (Elt F)) ]
/-- Each touches TensorCore references only: its builder's fact, in order. -/
theorem ops_main_part4_weight_sub : (ops_main_part4_weight : List (HloOp τ sig (Elt F))).Forall fun op => op.bufs ⊆ StableHlo.tcRefs τ sig :=
  ⟨StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.binary_bufs_sub .., StableHlo.binary_bufs_sub ..⟩

/-- 4 operations. -/
abbrev ops_main_part4_tail : List (HloOp τ sig (Elt F)) :=
  [ StableHlo.binary main_arg0 main_v205 main_v206 ((fun l r => Host.dotGeneral dot_S16x512x1024_S4096x1024_S16x512x4096_2_1_01_0_n_n none l r) : (⟨S16x512x1024, .f32⟩ : BufTy).Contents (Elt F) → (⟨S4096x1024, .f32⟩ : BufTy).Contents (Elt F) → (⟨S16x512x4096, .f32⟩ : BufTy).Contents (Elt F)),
    StableHlo.unary main_arg3 main_v207 (broadcastInDim S1x1x4096 ![2] bcast_S4096_S1x1x4096_2 : (⟨S4096, .f32⟩ : BufTy).Contents (Elt F) → (⟨S1x1x4096, .f32⟩ : BufTy).Contents (Elt F)),
    StableHlo.unary main_v207 main_v208 (broadcastInDim S16x512x4096 ![0, 1, 2] bcast_S1x1x4096_S16x512x4096_0_1_2 : (⟨S1x1x4096, .f32⟩ : BufTy).Contents (Elt F) → (⟨S16x512x4096, .f32⟩ : BufTy).Contents (Elt F)),
    StableHlo.binary main_v206 main_v208 main_v209 (addf : (⟨S16x512x4096, .f32⟩ : BufTy).Contents (Elt F) → (⟨S16x512x4096, .f32⟩ : BufTy).Contents (Elt F) → (⟨S16x512x4096, .f32⟩ : BufTy).Contents (Elt F)) ]
/-- Each touches TensorCore references only: its builder's fact, in order. -/
theorem ops_main_part4_tail_sub : (ops_main_part4_tail : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩

end Cert.ReferenceIdeal.RefOps

end
-- ==== Proof.RefRun.lean ====
/-
  The reference program runs. Its @main is one straight line of host operations (the listed ones, each call of a
  module-local function written out), so every weakly fair execution terminates and leaves each buffer at the fold of
  the operations over the launch contents. All but the last four operations build the mixed weight
  W = Σ_i softmax(alphas)_i · circ_i(weight); the last four contract x with W over the input features, spread the bias
  over batch and sequence, and add. So the result is  x · Wᵀ + bias  with W whatever that fold leaves — it is never
  opened here — and no operation writes an argument array.
-/
import proofs.«144851_j33225867002303_1_alg».proof.Proof.RefOps
import Idealize.ShloMosaic.Lib.Pipeline.Regions

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

/-- Running two lines one after the other folds the second over what the first leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The operations that build the mixed weight: everything before the contraction with x. -/
abbrev weightOps : List (HloOp τ sig (Elt F)) :=
  ops_main_part0 ++ (ops_main_part1 ++ (ops_main_part2 ++ (ops_main_part3 ++ ops_main_part4_weight)))

/-- All of @main: the weight, then the contraction, the bias spread twice, the sum. -/
abbrev ops : List (HloOp τ sig (Elt F)) := weightOps ++ ops_main_part4_tail

theorem ops_split : (ops : List (HloOp τ sig (Elt F))) = weightOps ++ ops_main_part4_tail := rfl

/-- @main is that line: its windows in order, each function's body at its call. -/
theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

/-- No listed operation allocates a buffer. -/
theorem fresh0 : (ops_main_part0 : List (HloOp τ sig (Elt F))).Forall fun op => op.fresh = ∅ := by
  simp only [List.Forall]; repeat' constructor
theorem fresh1 : (ops_main_part1 : List (HloOp τ sig (Elt F))).Forall fun op => op.fresh = ∅ := by
  simp only [List.Forall]; repeat' constructor
theorem fresh2 : (ops_main_part2 : List (HloOp τ sig (Elt F))).Forall fun op => op.fresh = ∅ := by
  simp only [List.Forall]; repeat' constructor
theorem fresh3 : (ops_main_part3 : List (HloOp τ sig (Elt F))).Forall fun op => op.fresh = ∅ := by
  simp only [List.Forall]; repeat' constructor
theorem fresh4 : (ops_main_part4_weight : List (HloOp τ sig (Elt F))).Forall fun op => op.fresh = ∅ := by
  simp only [List.Forall]; repeat' constructor
theorem fresh5 : (ops_main_part4_tail : List (HloOp τ sig (Elt F))).Forall fun op => op.fresh = ∅ := by
  simp only [List.Forall]; repeat' constructor

theorem mem_ops {op : HloOp τ sig (Elt F)} (h : op ∈ (ops : List (HloOp τ sig (Elt F)))) :
    op ∈ (ops_main_part0 : List (HloOp τ sig (Elt F))) ∨ op ∈ (ops_main_part1 : List (HloOp τ sig (Elt F)))
      ∨ op ∈ (ops_main_part2 : List (HloOp τ sig (Elt F))) ∨ op ∈ (ops_main_part3 : List (HloOp τ sig (Elt F)))
      ∨ op ∈ (ops_main_part4_weight : List (HloOp τ sig (Elt F))) ∨ op ∈ (ops_main_part4_tail : List (HloOp τ sig (Elt F))) := by
  rcases List.mem_append.1 h with h | h
  · rcases List.mem_append.1 h with h | h
    · exact .inl h
    rcases List.mem_append.1 h with h | h
    · exact .inr (.inl h)
    rcases List.mem_append.1 h with h | h
    · exact .inr (.inr (.inl h))
    rcases List.mem_append.1 h with h | h
    · exact .inr (.inr (.inr (.inl h)))
    · exact .inr (.inr (.inr (.inr (.inl h))))
  · exact .inr (.inr (.inr (.inr (.inr h))))

theorem ops_sub : (ops : List (HloOp τ sig (Elt F))).Forall fun op => op.bufs ⊆ tcRefs τ sig :=
  List.forall_iff_forall_mem.2 fun op h => by
    rcases mem_ops h with h | h | h | h | h | h
    · exact List.forall_iff_forall_mem.1 ops_main_part0_sub op h
    · exact List.forall_iff_forall_mem.1 ops_main_part1_sub op h
    · exact List.forall_iff_forall_mem.1 ops_main_part2_sub op h
    · exact List.forall_iff_forall_mem.1 ops_main_part3_sub op h
    · exact List.forall_iff_forall_mem.1 ops_main_part4_weight_sub op h
    · exact List.forall_iff_forall_mem.1 ops_main_part4_tail_sub op h

theorem ops_fresh : ∀ op ∈ (ops : List (HloOp τ sig (Elt F))), op.fresh = ∅ := fun op h => by
  rcases mem_ops h with h | h | h | h | h | h
  · exact List.forall_iff_forall_mem.1 fresh0 op h
  · exact List.forall_iff_forall_mem.1 fresh1 op h
  · exact List.forall_iff_forall_mem.1 fresh2 op h
  · exact List.forall_iff_forall_mem.1 fresh3 op h
  · exact List.forall_iff_forall_mem.1 fresh4 op h
  · exact List.forall_iff_forall_mem.1 fresh5 op h

/-- From any memory with zero counters every weakly fair execution of @main terminates, and each TensorCore buffer ends
    at the fold of the operations over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- No operation that builds the weight writes argument 0. -/
theorem weight_keeps_arg0 (V : Valuation τ sig (Elt F)) :
    after weightOps V (Proc.devRef .tc main_arg0) = V (Proc.devRef .tc main_arg0) :=
  after_of_forall_not_mem (b := Proc.devRef .tc main_arg0) _ _ (List.forall_iff_forall_mem.mp (by
    simp only [weightOps, ops_main_part0, ops_main_part1, ops_main_part2, ops_main_part3, ops_main_part4_weight,
      List.cons_append, List.nil_append, List.Forall, nullary_writes, unary_writes, binary_writes, ternary_writes, quaternary_writes, reshape_writes, binaryIndexed_writes, Finset.mem_singleton]
    repeat' apply And.intro
    all_goals exact devRef_ne_of_ne (by decide)))

/-- No operation that builds the weight writes argument 1. -/
theorem weight_keeps_arg1 (V : Valuation τ sig (Elt F)) :
    after weightOps V (Proc.devRef .tc main_arg1) = V (Proc.devRef .tc main_arg1) :=
  after_of_forall_not_mem (b := Proc.devRef .tc main_arg1) _ _ (List.forall_iff_forall_mem.mp (by
    simp only [weightOps, ops_main_part0, ops_main_part1, ops_main_part2, ops_main_part3, ops_main_part4_weight,
      List.cons_append, List.nil_append, List.Forall, nullary_writes, unary_writes, binary_writes, ternary_writes, quaternary_writes, reshape_writes, binaryIndexed_writes, Finset.mem_singleton]
    repeat' apply And.intro
    all_goals exact devRef_ne_of_ne (by decide)))

/-- No operation that builds the weight writes argument 2. -/
theorem weight_keeps_arg2 (V : Valuation τ sig (Elt F)) :
    after weightOps V (Proc.devRef .tc main_arg2) = V (Proc.devRef .tc main_arg2) :=
  after_of_forall_not_mem (b := Proc.devRef .tc main_arg2) _ _ (List.forall_iff_forall_mem.mp (by
    simp only [weightOps, ops_main_part0, ops_main_part1, ops_main_part2, ops_main_part3, ops_main_part4_weight,
      List.cons_append, List.nil_append, List.Forall, nullary_writes, unary_writes, binary_writes, ternary_writes, quaternary_writes, reshape_writes, binaryIndexed_writes, Finset.mem_singleton]
    repeat' apply And.intro
    all_goals exact devRef_ne_of_ne (by decide)))

/-- No operation that builds the weight writes argument 3. -/
theorem weight_keeps_arg3 (V : Valuation τ sig (Elt F)) :
    after weightOps V (Proc.devRef .tc main_arg3) = V (Proc.devRef .tc main_arg3) :=
  after_of_forall_not_mem (b := Proc.devRef .tc main_arg3) _ _ (List.forall_iff_forall_mem.mp (by
    simp only [weightOps, ops_main_part0, ops_main_part1, ops_main_part2, ops_main_part3, ops_main_part4_weight,
      List.cons_append, List.nil_append, List.Forall, nullary_writes, unary_writes, binary_writes, ternary_writes, quaternary_writes, reshape_writes, binaryIndexed_writes, Finset.mem_singleton]
    repeat' apply And.intro
    all_goals exact devRef_ne_of_ne (by decide)))

/-- Nor do the last four: argument 0 ends as launched. -/
theorem keeps_arg0 (V : Valuation τ sig (Elt F)) :
    after ops V (Proc.devRef .tc main_arg0) = V (Proc.devRef .tc main_arg0) := by
  rw [ops_split, after_append, ← weight_keeps_arg0 V]
  generalize after weightOps V = V'
  after_results

/-- Nor do the last four: argument 1 ends as launched. -/
theorem keeps_arg1 (V : Valuation τ sig (Elt F)) :
    after ops V (Proc.devRef .tc main_arg1) = V (Proc.devRef .tc main_arg1) := by
  rw [ops_split, after_append, ← weight_keeps_arg1 V]
  generalize after weightOps V = V'
  after_results

/-- Nor do the last four: argument 2 ends as launched. -/
theorem keeps_arg2 (V : Valuation τ sig (Elt F)) :
    after ops V (Proc.devRef .tc main_arg2) = V (Proc.devRef .tc main_arg2) := by
  rw [ops_split, after_append, ← weight_keeps_arg2 V]
  generalize after weightOps V = V'
  after_results

/-- Nor do the last four: argument 3 ends as launched. -/
theorem keeps_arg3 (V : Valuation τ sig (Elt F)) :
    after ops V (Proc.devRef .tc main_arg3) = V (Proc.devRef .tc main_arg3) := by
  rw [ops_split, after_append, ← weight_keeps_arg3 V]
  generalize after weightOps V = V'
  after_results

/-- The mixed weight as the reference computes it: what its first operations leave in the weight's buffer. -/
def weight (m : (ℓ : Loc nD τ sig) → Buf (Elt F) ℓ) (c : Dev nD) : (⟨S4096x1024, .f32⟩ : BufTy).Contents (Elt F) :=
  after weightOps (launchContents m c) (Proc.devRef .tc main_v205)

/-- The result buffer after the line: x contracted with the weight over the input features, plus the bias spread over
    batch and sequence. -/
theorem result_eq (V : Valuation τ sig (Elt F)) :
    after ops V (Proc.devRef .tc main_v209)
      = addf (Host.dotGeneral dot_S16x512x1024_S4096x1024_S16x512x4096_2_1_01_0_n_n none (V (Proc.devRef .tc main_arg0))
            (after weightOps V (Proc.devRef .tc main_v205)))
          (broadcastInDim S16x512x4096 ![0, 1, 2] bcast_S1x1x4096_S16x512x4096_0_1_2
            (broadcastInDim S1x1x4096 ![2] bcast_S4096_S1x1x4096_2 (V (Proc.devRef .tc main_arg3)))) := by
  rw [ops_split, after_append, ← weight_keeps_arg0 V, ← weight_keeps_arg3 V]
  generalize after weightOps V = V'
  after_results

/-- THE REFERENCE'S RUN, READ: the result at  x · Wᵀ + bias,  the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v209)
          = addf (Host.dotGeneral dot_S16x512x1024_S4096x1024_S16x512x4096_2_1_01_0_n_n none (m ((c.tc : Thread nD τ).loc main_arg0)) (weight m c))
              (broadcastInDim S16x512x4096 ![0, 1, 2] bcast_S1x1x4096_S16x512x4096_0_1_2
                (broadcastInDim S1x1x4096 ![2] bcast_S4096_S1x1x4096_2 (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v209).trans (result_eq (launchContents m c)),
      (h c main_arg0).trans (keeps_arg0 (launchContents m c)), (h c main_arg1).trans (keeps_arg1 (launchContents m c)),
      (h c main_arg2).trans (keeps_arg2 (launchContents m c)), (h c main_arg3).trans (keeps_arg3 (launchContents m c))⟩)
    (run_fold m ρ)

end Cert.ReferenceIdeal.RefRun

end
-- ==== Proof.SameWeight.lean ====
/-
  Both programs build the same mixed weight. The kernel's program computes W = Σ_i softmax(alphas)_i · circ_i(weight) on the
  host before its region, the reference computes it before its contraction, and the two do so by the same operations in
  the same order on the same two arguments. Each side's buffer contents are a fold of its operations over the launch
  memory; unrolled, each is the same pure term of the weight and alphas arrays, so from memories that agree on those two
  arguments the two buffers hold the same array. Nothing about what W is enters: the term is never read, only compared.
-/
import proofs.«144851_j33225867002303_1_alg».proof.Proof.Gen.KernelIdeal.Frame
import proofs.«144851_j33225867002303_1_alg».proof.Proof.RefRun

set_option maxRecDepth 16384

noncomputable section

namespace Cert.SameWeight

open Idealize.ShloMosaic Idealize.ShloMosaic.TcCoe Idealize.SL.Sem Idealize.ShloMosaic.StableHlo

variable {F : FTy → Type} [FloatOps F]

set_option maxHeartbeats 16000000 in
/-- THE TWO WEIGHTS AGREE: what the reference's first operations leave in the weight's buffer is what the kernel's region
    finds in its second window's array, when the launch memories agree on the weight and alphas arguments. -/
theorem weight_eq
    (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.RefRun.weight m' c = Cert.KernelIdeal.Gen.V m c Cert.KernelIdeal.main_v205 := by
  unfold Cert.ReferenceIdeal.RefRun.weight
  show after Cert.ReferenceIdeal.RefRun.weightOps (launchContents m' c) (Proc.devRef .tc Cert.ReferenceIdeal.main_v205)
      = StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16]) (fun b => m (c, b)) (Proc.devRef .tc Cert.KernelIdeal.main_v205)
  have e1 : launchContents m' c (Proc.devRef .tc Cert.ReferenceIdeal.main_arg1) = m (c, Proc.devRef .tc Cert.KernelIdeal.main_arg1) := h1
  have e2 : launchContents m' c (Proc.devRef .tc Cert.ReferenceIdeal.main_arg2) = m (c, Proc.devRef .tc Cert.KernelIdeal.main_arg2) := h2
  generalize launchContents m' c = V' at e1 e2 ⊢
  simp only [Cert.ReferenceIdeal.RefRun.weightOps, Cert.ReferenceIdeal.RefOps.ops_main_part0, Cert.ReferenceIdeal.RefOps.ops_main_part1, Cert.ReferenceIdeal.RefOps.ops_main_part2,
    Cert.ReferenceIdeal.RefOps.ops_main_part3, Cert.ReferenceIdeal.RefOps.ops_main_part4_weight,
    Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16,
    List.flatten_cons, List.flatten_nil, List.append_nil, List.cons_append, List.nil_append]
  after_results_simp
  rw [e1, e2]
  rfl

end Cert.SameWeight

end
-- ==== Proof.LibMergeLeadingAxes.lean ====
/-
  Two general layout readings and one host-operation reading.
  * A row-major `[a, b, c]` array cast to `[n, c]` with `n = a·b` (the two leading axes merged): entry `(R, k)` is the
    operand at `(i, j, k)` whenever `R = i·b + j`; and the cast back, `[n, c]` to `[a, b, c]`.
  * A host operation over a literal family of three operand buffers (a three-way concatenate) results in its function of
    the three operands' contents, each read at its own buffer.
-/
import Idealize.ShloMosaic.Lib.Pipeline.Value
import Idealize.ShloMosaic.Lib.ValueIdx
import Idealize.ShloMosaic.Lib.StableHlo.Run

noncomputable section

namespace Cert.LibMergeLeadingAxes

open Idealize.ShloMosaic Idealize.ShloMosaic.ValueIdx Idealize.ShloMosaic.StableHlo

variable {α : Type}

/-- `[a, b, c]` cast to `[n, c]`: entry `(R, k)` with `R = i·b + j` is the operand's `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (R : Fin n)
    (hR : R.val = i.val * b + j.val) : shapeCast ⟨2, ![n, c]⟩ x h (ix2 R k) = x (ix3 i j k) :=
  shapeCast_apply x h _ _ (by
    rw [Shape.rowMajor_val_three, Shape.rowMajor_val_two]
    show (i.val * b + j.val) * c + k.val = R.val * c + k.val
    rw [hR])

/-- `[n, c]` cast to `[a, b, c]`: entry `(i, j, k)` is the operand's `(R, k)` with `R = i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (R : Fin n)
    (hR : R.val = i.val * b + j.val) : shapeCast ⟨3, ![a, b, c]⟩ x h (ix3 i j k) = x (ix2 R k) :=
  shapeCast_apply x h _ _ (by
    rw [Shape.rowMajor_val_three, Shape.rowMajor_val_two]
    show R.val * c + k.val = (i.val * b + j.val) * c + k.val
    rw [hR])

variable {τ : Topo} {sig : RefSig} {Val : EltTy → Type}

/-- A host operation over three literal operand buffers: its result is its function of the three contents, each at its
    own buffer. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibMergeLeadingAxes

end
-- ==== Proof.Bridge.lean ====
/-
  The two results are one function. With W any [4096,1024] array, entry (b, s, o) of
    * the kernel program's result — the [8192,4096] array  lin X W B  viewed as [16,512,4096], X being x with its leading
      axes merged (row 512·b + s of X is x(b,s,·)) and B the bias as one row —, and of
    * the reference's result — x contracted with W over the last axis of each, plus the bias spread over b and s —
  are both   Σ_k x(b,s,k) · W(o,k) + bias(o).
  Only the re-indexing of the two sums and of the layouts is used: no law of the extended reals beyond that.
-/
import proofs.«144851_j33225867002303_1_alg».proof.Proof.Payload
import proofs.«144851_j33225867002303_1_alg».proof.Proof.Gen.ReferenceIdeal
import proofs.«144851_j33225867002303_1_alg».proof.Proof.LibMergeLeadingAxes
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx Cert.LibMergeLeadingAxes Cert.KernelIdeal.Body

/-- The reference's contraction: x's last axis against W's last axis, x's two leading axes and W's first kept. -/
abbrev DR := Cert.ReferenceIdeal.dot_S16x512x1024_S4096x1024_S16x512x4096_2_1_01_0_n_n

/-- Its positions are the numbers below 1024. -/
abbrev rpos : DR.contr.Idx ≃ Fin 1024 := contrEquiv1 DR 1024 rfl rfl

theorem ref_lhs_at (b : Fin 16) (s : Fin 512) (o : Fin 4096) (k : Fin 1024) :
    DR.lhsIdx (ix3 b s o) (rpos.symm k) = ix3 b s k := by
  funext a; apply Fin.ext
  match a with
  | ⟨0, _⟩ => rfl
  | ⟨1, _⟩ => rfl
  | ⟨2, _⟩ => exact (DotDims.lhsIdx_val_of_single _ rfl _ _).trans (contrEquiv1_symm_val _ _ _ _ k)

theorem ref_rhs_at (b : Fin 16) (s : Fin 512) (o : Fin 4096) (k : Fin 1024) :
    DR.rhsIdx (ix3 b s o) (rpos.symm k) = ix2 o k := by
  funext a; apply Fin.ext
  match a with
  | ⟨0, _⟩ => rfl
  | ⟨1, _⟩ => exact (DotDims.rhsIdx_val_of_single _ rfl _ _).trans (contrEquiv1_symm_val _ _ _ _ k)

/-- The reference's result at (b, s, o). -/
theorem ref_apply (x : FVec Ideal Cert.ReferenceIdeal.S16x512x1024 .f32) (W : FVec Ideal Cert.ReferenceIdeal.S4096x1024 .f32) (bias : FVec Ideal Cert.ReferenceIdeal.S4096 .f32)
    (b : Fin 16) (s : Fin 512) (o : Fin 4096) :
    addf (F := Ideal) (Host.dotGeneral (F := Ideal) DR none x W)
        (broadcastInDim Cert.ReferenceIdeal.S16x512x4096 ![0, 1, 2] Cert.ReferenceIdeal.Gen.bcast_S1x1x4096_S16x512x4096_0_1_2
          (broadcastInDim Cert.ReferenceIdeal.S1x1x4096 ![2] Cert.ReferenceIdeal.Gen.bcast_S4096_S1x1x4096_2 bias)) (ix3 b s o)
      = (∑ k : Fin 1024, x (ix3 b s k) * W (ix2 o k)) + bias (ix1 o) := by
  refine (addf_apply _ _ _).trans ?_
  refine congrArg₂ (· + ·) ?_ ?_
  · simp only [Host.dotGeneral]
    refine (Ideal.dotGeneral_apply _ none _ _ _ _).trans ?_
    rw [← Equiv.sum_comp rpos.symm]
    refine Finset.sum_congr rfl fun k _ => ?_
    rw [ref_lhs_at, ref_rhs_at]
  · refine (broadcastInDim_apply _ _ _ (ix3 b s o) (ix3 (0 : Fin 1) (0 : Fin 1) o)
      (fun a => by match a with | ⟨0, _⟩ => rfl | ⟨1, _⟩ => rfl | ⟨2, _⟩ => rfl)).trans ?_
    exact broadcastInDim_apply _ _ _ _ (ix1 o) (fun a => by match a with | ⟨0, _⟩ => rfl)

/-- The kernel program's result at (b, s, o): row 512·b + s of the flattened layer. -/
theorem ker_apply (x : FVec Ideal Cert.KernelIdeal.S16x512x1024 .f32) (W : FVec Ideal Cert.KernelIdeal.S4096x1024 .f32) (bias : FVec Ideal Cert.KernelIdeal.S4096 .f32)
    (b : Fin 16) (s : Fin 512) (o : Fin 4096) :
    shapeCast Cert.KernelIdeal.S16x512x4096
        (lin (shapeCast Cert.KernelIdeal.S8192x1024 x Cert.KernelIdeal.Gen.shapeCasts_S16x512x1024_S8192x1024) W
          (shapeCast Cert.KernelIdeal.S1x4096 bias Cert.KernelIdeal.Gen.shapeCasts_S4096_S1x4096))
        Cert.KernelIdeal.Gen.shapeCasts_S8192x4096_S16x512x4096 (ix3 b s o)
      = (∑ k : Fin 1024, x (ix3 b s k) * W (ix2 o k)) + bias (ix1 o) := by
  have hb := b.isLt
  have hs := s.isLt
  refine (shapeCast_nc_abc_apply (a := 16) (b := 512) (c := 4096) (n := 8192) _ _ b s o ⟨b.val * 512 + s.val, by omega⟩ rfl).trans ?_
  show (∑ k : Fin 1024, shapeCast Cert.KernelIdeal.S8192x1024 x Cert.KernelIdeal.Gen.shapeCasts_S16x512x1024_S8192x1024 (ix2 (⟨b.val * 512 + s.val, by omega⟩ : Fin 8192) k) * W (ix2 o k))
      + shapeCast Cert.KernelIdeal.S1x4096 bias Cert.KernelIdeal.Gen.shapeCasts_S4096_S1x4096 (ix2 (0 : Fin 1) o) = _
  refine congrArg₂ (· + ·) (Finset.sum_congr rfl fun k _ => ?_) ?_
  · exact congrArg (· * W (ix2 o k))
      (shapeCast_abc_nc_apply (a := 16) (b := 512) (c := 1024) (n := 8192) x _ b s k ⟨b.val * 512 + s.val, by omega⟩ rfl)
  · exact shapeCast_apply _ _ _ (ix1 o) (by
      rw [Shape.rowMajor_val_one, Shape.rowMajor_val_two]
      show o.val = 0 * 4096 + o.val
      omega)

/-- THE BRIDGE: the two results are the same array, whatever W is. -/
theorem results_eq (x : FVec Ideal Cert.KernelIdeal.S16x512x1024 .f32) (W : FVec Ideal Cert.KernelIdeal.S4096x1024 .f32) (bias : FVec Ideal Cert.KernelIdeal.S4096 .f32) :
    shapeCast Cert.KernelIdeal.S16x512x4096
        (lin (shapeCast Cert.KernelIdeal.S8192x1024 x Cert.KernelIdeal.Gen.shapeCasts_S16x512x1024_S8192x1024) W
          (shapeCast Cert.KernelIdeal.S1x4096 bias Cert.KernelIdeal.Gen.shapeCasts_S4096_S1x4096))
        Cert.KernelIdeal.Gen.shapeCasts_S8192x4096_S16x512x4096
      = addf (F := Ideal) (Host.dotGeneral (F := Ideal) DR none x W)
          (broadcastInDim Cert.ReferenceIdeal.S16x512x4096 ![0, 1, 2] Cert.ReferenceIdeal.Gen.bcast_S1x1x4096_S16x512x4096_0_1_2
            (broadcastInDim Cert.ReferenceIdeal.S1x1x4096 ![2] Cert.ReferenceIdeal.Gen.bcast_S4096_S1x1x4096_2 bias)) := by
  funext j
  obtain ⟨b, s, o, rfl⟩ : ∃ (b : Fin 16) (s : Fin 512) (o : Fin 4096), j = ix3 b s o := ⟨j 0, j 1, j 2, eq_ix3 j⟩
  exact (ker_apply x W bias b s o).trans (ref_apply x W bias b s o).symm

end Cert.Bridge

end
-- ==== Proof.lean ====
/-
  A linear layer over a mixture of block-circulant projections of its weight.
  Both programs first build, on the host and by the same operations, the mixed weight
      W = Σ_i softmax(alphas)_i · circ_i(weight)        (block sizes 1, 2, 4, 8, 16; circ_1 the identity),
  a [4096,1024] array. They then compute  y = x · Wᵀ + bias  over x : [16,512,1024]:
    * the kernel's program flattens x to 8192 rows, runs a 16 × 4 grid whose point (i, j) multiplies a [512,1024] block
      of rows of x with a [1024,1024] block of rows of W (both narrowed to bf16, contracting their second axes, into a
      zero accumulator), adds the bias columns, and writes block (i, j) of the [8192,4096] output, which is then viewed
      as [16,512,4096];
    * the reference contracts x with W over the last axis of each and adds the bias spread over batch and sequence.
  Over the extended reals narrowing is the identity and a product into zero is the plain sum, so both results are
      y(b,s,o) = Σ_k x(b,s,k) · W(o,k) + bias(o),
  with the same W — the two host computations are the same term of the weight and alphas arguments, which is all that is
  ever said about W. No law of the extended reals is needed beyond re-indexing the sums, so the precondition (finite
  inputs) is never opened. The kernel's frames are the generated ones; the reference's frame is its run with the result
  dropped; the idealization rewrote nothing, so preserves is trivial.
-/
import proofs.«144851_j33225867002303_1_alg».proof.Defs
import proofs.«144851_j33225867002303_1_alg».proof.Proof.Gen.Kernel
import proofs.«144851_j33225867002303_1_alg».proof.Proof.Gen.Kernel.Skeleton
import proofs.«144851_j33225867002303_1_alg».proof.Proof.Gen.Kernel.Launch
import proofs.«144851_j33225867002303_1_alg».proof.Proof.Gen.Kernel.Points
import proofs.«144851_j33225867002303_1_alg».proof.Proof.Gen.Kernel.Frame
import proofs.«144851_j33225867002303_1_alg».proof.Proof.Gen.KernelIdeal
import proofs.«144851_j33225867002303_1_alg».proof.Proof.Gen.KernelIdeal.Skeleton
import proofs.«144851_j33225867002303_1_alg».proof.Proof.Gen.KernelIdeal.Launch
import proofs.«144851_j33225867002303_1_alg».proof.Proof.Gen.KernelIdeal.Points
import proofs.«144851_j33225867002303_1_alg».proof.Proof.Gen.KernelIdeal.Frame
import proofs.«144851_j33225867002303_1_alg».proof.Proof.Gen.ReferenceIdeal
import proofs.«144851_j33225867002303_1_alg».proof.Proof.Gen.Pre_finite_inputs
import proofs.«144851_j33225867002303_1_alg».proof.Proof.KernelRun
import proofs.«144851_j33225867002303_1_alg».proof.Proof.RefRun
import proofs.«144851_j33225867002303_1_alg».proof.Proof.SameWeight
import proofs.«144851_j33225867002303_1_alg».proof.Proof.Bridge
import Idealize.ShloMosaic.Adequacy
import Idealize.ShloMosaic.Init

noncomputable section

namespace Cert.Proof

open Idealize.ShloMosaic Idealize.SL.Sem

/-- The kernel's program as printed, and its idealization, run without fault and keep their arguments. -/
theorem frame_kernel : Cert.frame_Kernel := fun m ρ _ => Cert.Kernel.Gen.frame m ρ
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories agreeing on the four arguments both programs end with the same [16,512,4096] array: the kernel's at
    the flattened layer viewed back, the reference's at the contraction plus the spread bias — one function of x, the
    bias and the common mixed weight. -/
theorem algebraic : Cert.algebraic_KernelIdeal_ReferenceIdeal := by
  intro m ρ m' ρ' _ hagree
  refine ⟨fun c => Cert.KernelIdeal.Run.out m c, Cert.KernelIdeal.Run.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.2.2, Cert.SameWeight.weight_eq m m' c (hagree c).2.1 (hagree c).2.2.1]
  exact (Cert.Bridge.results_eq _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
